-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x98 : Shape := ⟨2, ![1048576, 98]⟩
abbrev S64x63 : Shape := ⟨2, ![64, 63]⟩
abbrev S64x64 : Shape := ⟨2, ![64, 64]⟩
abbrev S17x64 : Shape := ⟨2, ![17, 64]⟩
abbrev S64x42 : Shape := ⟨2, ![64, 42]⟩
abbrev S3x64 : Shape := ⟨2, ![3, 64]⟩
abbrev S64x71 : Shape := ⟨2, ![64, 71]⟩
abbrev S_ : Shape := ⟨0, ![]⟩

class Facts : Prop where
  bcast_S_S1048576x98 : S_.BroadcastsInDim S1048576x98 (![] : Fin 0 → Fin S1048576x98.rank)
  reducesTo_S1048576x98_S_d0_1 : S1048576x98.ReducesTo [0, 1] S_
  h_S_ : 0 < S_.numel
  bcast_S_S64x63 : S_.BroadcastsInDim S64x63 (![] : Fin 0 → Fin S64x63.rank)
  reducesTo_S64x63_S_d0_1 : S64x63.ReducesTo [0, 1] S_
  bcast_S_S64x64 : S_.BroadcastsInDim S64x64 (![] : Fin 0 → Fin S64x64.rank)
  reducesTo_S64x64_S_d0_1 : S64x64.ReducesTo [0, 1] S_
  bcast_S_S17x64 : S_.BroadcastsInDim S17x64 (![] : Fin 0 → Fin S17x64.rank)
  reducesTo_S17x64_S_d0_1 : S17x64.ReducesTo [0, 1] S_
  bcast_S_S64x42 : S_.BroadcastsInDim S64x42 (![] : Fin 0 → Fin S64x42.rank)
  reducesTo_S64x42_S_d0_1 : S64x42.ReducesTo [0, 1] S_
  bcast_S_S3x64 : S_.BroadcastsInDim S3x64 (![] : Fin 0 → Fin S3x64.rank)
  reducesTo_S3x64_S_d0_1 : S3x64.ReducesTo [0, 1] S_
  bcast_S_S64x71 : S_.BroadcastsInDim S64x71 (![] : Fin 0 → Fin S64x71.rank)
  reducesTo_S64x71_S_d0_1 : S64x71.ReducesTo [0, 1] S_

variable [Facts]

def fn_part4 {F : FTy → Type} [FloatOps F] (main_arg14 : FVec F S3x64 .f32) (main_v63 : IVec S_ 1) (main_v67 : IVec S_ 1) : IVec S_ 1 :=
  let main_v68 : IVec S_ 1 := andi main_v63 main_v67
  let main_v69 : FVec F S3x64 .f32 := Host.absf main_arg14
  let main_cst_26 : FVec F S_ .f32 := constant S_ .f32 0x7F800000#32
  let main_v70 : FVec F S3x64 .f32 := broadcastInDim S3x64 ![] bcast_S_S3x64 main_cst_26
  let main_v71 : IVec S3x64 1 := cmpf .olt main_v69 main_v70
  let main_c_27 : IVec S_ 1 := constantI S_ 1 1#1
  let main_v72 : IVec S_ 1 := (fun x v => Host.reduce IntOp.andi x v reducesTo_S3x64_S_d0_1 h_S_) main_v71 main_c_27
  let main_v73 : IVec S_ 1 := andi main_v68 main_v72
  main_v73

def fn_part3 {F : FTy → Type} [FloatOps F] (main_arg11 : FVec F S64x42 .f32) (main_arg12 : FVec F S64x64 .f32) (main_arg13 : FVec F S64x64 .f32) (main_arg14 : FVec F S3x64 .f32) (main_v48 : IVec S_ 1) (main_v49 : FVec F S17x64 .f32) (main_v50 : FVec F S17x64 .f32) : IVec S_ 1 :=
  let main_v51 : IVec S17x64 1 := cmpf .olt main_v49 main_v50
  let main_c_19 : IVec S_ 1 := constantI S_ 1 1#1
  let main_v52 : IVec S_ 1 := (fun x v => Host.reduce IntOp.andi x v reducesTo_S17x64_S_d0_1 h_S_) main_v51 main_c_19
  let main_v53 : IVec S_ 1 := andi main_v48 main_v52
  let main_v54 : FVec F S64x42 .f32 := Host.absf main_arg11
  let main_cst_20 : FVec F S_ .f32 := constant S_ .f32 0x7F800000#32
  let main_v55 : FVec F S64x42 .f32 := broadcastInDim S64x42 ![] bcast_S_S64x42 main_cst_20
  let main_v56 : IVec S64x42 1 := cmpf .olt main_v54 main_v55
  let main_c_21 : IVec S_ 1 := constantI S_ 1 1#1
  let main_v57 : IVec S_ 1 := (fun x v => Host.reduce IntOp.andi x v reducesTo_S64x42_S_d0_1 h_S_) main_v56 main_c_21
  let main_v58 : IVec S_ 1 := andi main_v53 main_v57
  let main_v59 : FVec F S64x64 .f32 := Host.absf main_arg12
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64x64 .f32 := Host.absf main_arg13
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg14 main_v63 main_v67

def fn_part2 {F : FTy → Type} [FloatOps F] (main_arg7 : FVec F S3x64 .f32) (main_arg8 : FVec F S64x71 .f32) (main_arg9 : FVec F S64x64 .f32) (main_arg10 : FVec F S17x64 .f32) (main_arg11 : FVec F S64x42 .f32) (main_arg12 : FVec F S64x64 .f32) (main_arg13 : FVec F S64x64 .f32) (main_arg14 : FVec F S3x64 .f32) (main_v33 : IVec S_ 1) : IVec S_ 1 :=
  let main_v34 : FVec F S3x64 .f32 := Host.absf main_arg7
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S64x71 .f32 := Host.absf main_arg8
  let main_cst_14 : FVec F S_ .f32 := constant S_ .f32 0x7F800000#32
  let main_v40 : FVec F S64x71 .f32 := broadcastInDim S64x71 ![] bcast_S_S64x71 main_cst_14
  let main_v41 : IVec S64x71 1 := cmpf .olt main_v39 main_v40
  let main_c_15 : IVec S_ 1 := constantI S_ 1 1#1
  let main_v42 : IVec S_ 1 := (fun x v => Host.reduce IntOp.andi x v reducesTo_S64x71_S_d0_1 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S17x64 .f32 := Host.absf main_arg10
  let main_cst_18 : FVec F S_ .f32 := constant S_ .f32 0x7F800000#32
  let main_v50 : FVec F S17x64 .f32 := broadcastInDim S17x64 ![] bcast_S_S17x64 main_cst_18
  fn_part3 (F := F) main_arg11 main_arg12 main_arg13 main_arg14 main_v48 main_v49 main_v50

def fn_part1 {F : FTy → Type} [FloatOps F] (main_arg4 : FVec F S64x42 .f32) (main_arg5 : FVec F S64x64 .f32) (main_arg6 : FVec F S64x64 .f32) (main_arg7 : FVec F S3x64 .f32) (main_arg8 : FVec F S64x71 .f32) (main_arg9 : FVec F S64x64 .f32) (main_arg10 : FVec F S17x64 .f32) (main_arg11 : FVec F S64x42 .f32) (main_arg12 : FVec F S64x64 .f32) (main_arg13 : FVec F S64x64 .f32) (main_arg14 : FVec F S3x64 .f32) (main_v13 : IVec S_ 1) (main_v16 : IVec S17x64 1) : IVec S_ 1 :=
  let main_c_5 : IVec S_ 1 := constantI S_ 1 1#1
  let main_v17 : IVec S_ 1 := (fun x v => Host.reduce IntOp.andi x v reducesTo_S17x64_S_d0_1 h_S_) main_v16 main_c_5
  let main_v18 : IVec S_ 1 := andi main_v13 main_v17
  let main_v19 : FVec F S64x42 .f32 := Host.absf main_arg4
  let main_cst_6 : FVec F S_ .f32 := constant S_ .f32 0x7F800000#32
  let main_v20 : FVec F S64x42 .f32 := broadcastInDim S64x42 ![] bcast_S_S64x42 main_cst_6
  let main_v21 : IVec S64x42 1 := cmpf .olt main_v19 main_v20
  let main_c_7 : IVec S_ 1 := constantI S_ 1 1#1
  let main_v22 : IVec S_ 1 := (fun x v => Host.reduce IntOp.andi x v reducesTo_S64x42_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S1048576x98 .f32) (main_arg1 : FVec F S64x63 .f32) (main_arg2 : FVec F S64x64 .f32) (main_arg3 : FVec F S17x64 .f32) (main_arg4 : FVec F S64x42 .f32) (main_arg5 : FVec F S64x64 .f32) (main_arg6 : FVec F S64x64 .f32) (main_arg7 : FVec F S3x64 .f32) (main_arg8 : FVec F S64x71 .f32) (main_arg9 : FVec F S64x64 .f32) (main_arg10 : FVec F S17x64 .f32) (main_arg11 : FVec F S64x42 .f32) (main_arg12 : FVec F S64x64 .f32) (main_arg13 : FVec F S64x64 .f32) (main_arg14 : FVec F S3x64 .f32) : IVec S_ 1 :=
  let main_v0 : FVec F S1048576x98 .f32 := Host.absf main_arg0
  let main_cst : FVec F S_ .f32 := constant S_ .f32 0x7F800000#32
  let main_v1 : FVec F S1048576x98 .f32 := broadcastInDim S1048576x98 ![] bcast_S_S1048576x98 main_cst
  let main_v2 : IVec S1048576x98 1 := cmpf .olt main_v0 main_v1
  let main_c : IVec S_ 1 := constantI S_ 1 1#1
  let main_v3 : IVec S_ 1 := (fun x v => Host.reduce IntOp.andi x v reducesTo_S1048576x98_S_d0_1 h_S_) main_v2 main_c
  let main_v4 : FVec F S64x63 .f32 := Host.absf main_arg1
  let main_cst_0 : FVec F S_ .f32 := constant S_ .f32 0x7F800000#32
  let main_v5 : FVec F S64x63 .f32 := broadcastInDim S64x63 ![] bcast_S_S64x63 main_cst_0
  let main_v6 : IVec S64x63 1 := cmpf .olt main_v4 main_v5
  let main_c_1 : IVec S_ 1 := constantI S_ 1 1#1
  let main_v7 : IVec S_ 1 := (fun x v => Host.reduce IntOp.andi x v reducesTo_S64x63_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S17x64 .f32 := Host.absf main_arg3
  let main_cst_4 : FVec F S_ .f32 := constant S_ .f32 0x7F800000#32
  let main_v15 : FVec F S17x64 .f32 := broadcastInDim S17x64 ![] bcast_S_S17x64 main_cst_4
  let main_v16 : IVec S17x64 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S1048576x98 : Shape := ⟨2, ![1048576, 98]⟩
abbrev S64x63 : Shape := ⟨2, ![64, 63]⟩
abbrev S64x64 : Shape := ⟨2, ![64, 64]⟩
abbrev S17x64 : Shape := ⟨2, ![17, 64]⟩
abbrev S64x42 : Shape := ⟨2, ![64, 42]⟩
abbrev S3x64 : Shape := ⟨2, ![3, 64]⟩
abbrev S64x71 : Shape := ⟨2, ![64, 71]⟩
abbrev S_ : Shape := ⟨0, ![]⟩
abbrev S128x71 : Shape := ⟨2, ![128, 71]⟩
abbrev S64x128 : Shape := ⟨2, ![64, 128]⟩
abbrev S128x128 : Shape := ⟨2, ![128, 128]⟩
abbrev S17x128 : Shape := ⟨2, ![17, 128]⟩
abbrev S34x128 : Shape := ⟨2, ![34, 128]⟩
abbrev S64x27 : Shape := ⟨2, ![64, 27]⟩
abbrev S64x15 : Shape := ⟨2, ![64, 15]⟩
abbrev S64x57 : Shape := ⟨2, ![64, 57]⟩
abbrev S128x57 : Shape := ⟨2, ![128, 57]⟩
abbrev S3x128 : Shape := ⟨2, ![3, 128]⟩
abbrev S6x128 : Shape := ⟨2, ![6, 128]⟩
abbrev S71x128 : Shape := ⟨2, ![71, 128]⟩
abbrev S128x34 : Shape := ⟨2, ![128, 34]⟩
abbrev S57x128 : Shape := ⟨2, ![57, 128]⟩
abbrev S128x6 : Shape := ⟨2, ![128, 6]⟩
abbrev S1048576x6 : Shape := ⟨2, ![1048576, 6]⟩
abbrev S4096x98 : Shape := ⟨2, ![4096, 98]⟩
abbrev S4096x6 : Shape := ⟨2, ![4096, 6]⟩
abbrev S4096x71 : Shape := ⟨2, ![4096, 71]⟩
abbrev S4096x27 : Shape := ⟨2, ![4096, 27]⟩
abbrev S4096x128 : Shape := ⟨2, ![4096, 128]⟩
abbrev S4096x34 : Shape := ⟨2, ![4096, 34]⟩
abbrev S4096x17 : Shape := ⟨2, ![4096, 17]⟩
abbrev S4096x1 : Shape := ⟨2, ![4096, 1]⟩
abbrev S4096x15 : Shape := ⟨2, ![4096, 15]⟩
abbrev S4096x57 : Shape := ⟨2, ![4096, 57]⟩
abbrev S4096x3 : Shape := ⟨2, ![4096, 3]⟩

abbrev nBuf : Space → Nat
  | .hbm => 73
  | .vmem => 11
  | .smem => 0
  | _ => 0

abbrev bufTy : (tb : Table) → Fin (tcTables nBuf tb) → BufTy
  | .hbm, ⟨0, _⟩ => ⟨S1048576x98, .f32⟩
  | .hbm, ⟨1, _⟩ => ⟨S64x63, .f32⟩
  | .hbm, ⟨2, _⟩ => ⟨S64x64, .f32⟩
  | .hbm, ⟨3, _⟩ => ⟨S17x64, .f32⟩
  | .hbm, ⟨4, _⟩ => ⟨S64x42, .f32⟩
  | .hbm, ⟨5, _⟩ => ⟨S64x64, .f32⟩
  | .hbm, ⟨6, _⟩ => ⟨S64x64, .f32⟩
  | .hbm, ⟨7, _⟩ => ⟨S3x64, .f32⟩
  | .hbm, ⟨8, _⟩ => ⟨S64x71, .f32⟩
  | .hbm, ⟨9, _⟩ => ⟨S64x64, .f32⟩
  | .hbm, ⟨10, _⟩ => ⟨S17x64, .f32⟩
  | .hbm, ⟨11, _⟩ => ⟨S64x42, .f32⟩
  | .hbm, ⟨12, _⟩ => ⟨S64x64, .f32⟩
  | .hbm, ⟨13, _⟩ => ⟨S64x64, .f32⟩
  | .hbm, ⟨14, _⟩ => ⟨S3x64, .f32⟩
  | .hbm, ⟨15, _⟩ => ⟨S_, .i32⟩
  | .hbm, ⟨16, _⟩ => ⟨S_, .f32⟩
  | .hbm, ⟨17, _⟩ => ⟨S64x71, .f32⟩
  | .hbm, ⟨18, _⟩ => ⟨S128x71, .f32⟩
  | .hbm, ⟨19, _⟩ => ⟨S_, .f32⟩
  | .hbm, ⟨20, _⟩ => ⟨S64x64, .f32⟩
  | .hbm, ⟨21, _⟩ => ⟨S64x128, .f32⟩
  | .hbm, ⟨22, _⟩ => ⟨S_, .f32⟩
  | .hbm, ⟨23, _⟩ => ⟨S64x64, .f32⟩
  | .hbm, ⟨24, _⟩ => ⟨S64x128, .f32⟩
  | .hbm, ⟨25, _⟩ => ⟨S128x128, .f32⟩
  | .hbm, ⟨26, _⟩ => ⟨S_, .f32⟩
  | .hbm, ⟨27, _⟩ => ⟨S17x64, .f32⟩
  | .hbm, ⟨28, _⟩ => ⟨S17x128, .f32⟩
  | .hbm, ⟨29, _⟩ => ⟨S_, .f32⟩
  | .hbm, ⟨30, _⟩ => ⟨S17x64, .f32⟩
  | .hbm, ⟨31, _⟩ => ⟨S17x128, .f32⟩
  | .hbm, ⟨32, _⟩ => ⟨S34x128, .f32⟩
  | .hbm, ⟨33, _⟩ => ⟨S64x27, .f32⟩
  | .hbm, ⟨34, _⟩ => ⟨S64x15, .f32⟩
  | .hbm, ⟨35, _⟩ => ⟨S64x27, .f32⟩
  | .hbm, ⟨36, _⟩ => ⟨S64x15, .f32⟩
  | .hbm, ⟨37, _⟩ => ⟨S_, .f32⟩
  | .hbm, ⟨38, _⟩ => ⟨S64x15, .f32⟩
  | .hbm, ⟨39, _⟩ => ⟨S64x57, .f32⟩
  | .hbm, ⟨40, _⟩ => ⟨S_, .f32⟩
  | .hbm, ⟨41, _⟩ => ⟨S64x15, .f32⟩
  | .hbm, ⟨42, _⟩ => ⟨S64x57, .f32⟩
  | .hbm, ⟨43, _⟩ => ⟨S128x57, .f32⟩
  | .hbm, ⟨44, _⟩ => ⟨S_, .f32⟩
  | .hbm, ⟨45, _⟩ => ⟨S64x64, .f32⟩
  | .hbm, ⟨46, _⟩ => ⟨S64x128, .f32⟩
  | .hbm, ⟨47, _⟩ => ⟨S_, .f32⟩
  | .hbm, ⟨48, _⟩ => ⟨S64x64, .f32⟩
  | .hbm, ⟨49, _⟩ => ⟨S64x128, .f32⟩
  | .hbm, ⟨50, _⟩ => ⟨S128x128, .f32⟩
  | .hbm, ⟨51, _⟩ => ⟨S_, .f32⟩
  | .hbm, ⟨52, _⟩ => ⟨S64x64, .f32⟩
  | .hbm, ⟨53, _⟩ => ⟨S64x128, .f32⟩
  | .hbm, ⟨54, _⟩ => ⟨S_, .f32⟩
  | .hbm, ⟨55, _⟩ => ⟨S64x64, .f32⟩
  | .hbm, ⟨56, _⟩ => ⟨S64x128, .f32⟩
  | .hbm, ⟨57, _⟩ => ⟨S128x128, .f32⟩
  | .hbm, ⟨58, _⟩ => ⟨S_, .f32⟩
  | .hbm, ⟨59, _⟩ => ⟨S3x64, .f32⟩
  | .hbm, ⟨60, _⟩ => ⟨S3x128, .f32⟩
  | .hbm, ⟨61, _⟩ => ⟨S_, .f32⟩
  | .hbm, ⟨62, _⟩ => ⟨S3x64, .f32⟩
  | .hbm, ⟨63, _⟩ => ⟨S3x128, .f32⟩
  | .hbm, ⟨64, _⟩ => ⟨S6x128, .f32⟩
  | .hbm, ⟨65, _⟩ => ⟨S71x128, .f32⟩
  | .hbm, ⟨66, _⟩ => ⟨S128x128, .f32⟩
  | .hbm, ⟨67, _⟩ => ⟨S128x34, .f32⟩
  | .hbm, ⟨68, _⟩ => ⟨S57x128, .f32⟩
  | .hbm, ⟨69, _⟩ => ⟨S128x128, .f32⟩
  | .hbm, ⟨70, _⟩ => ⟨S128x128, .f32⟩
  | .hbm, ⟨71, _⟩ => ⟨S128x6, .f32⟩
  | .hbm, ⟨72, _⟩ => ⟨S1048576x6, .f32⟩
  | .local _ .vmem, ⟨0, _⟩ => ⟨S4096x98, .f32⟩
  | .local _ .vmem, ⟨1, _⟩ => ⟨S4096x98, .f32⟩
  | .local _ .vmem, ⟨2, _⟩ => ⟨S71x128, .f32⟩
  | .local _ .vmem, ⟨3, _⟩ => ⟨S128x128, .f32⟩
  | .local _ .vmem, ⟨4, _⟩ => ⟨S128x34, .f32⟩
  | .local _ .vmem, ⟨5, _⟩ => ⟨S57x128, .f32⟩
  | .local _ .vmem, ⟨6, _⟩ => ⟨S128x128, .f32⟩
  | .local _ .vmem, ⟨7, _⟩ => ⟨S128x128, .f32⟩
  | .local _ .vmem, ⟨8, _⟩ => ⟨S128x6, .f32⟩
  | .local _ .vmem, ⟨9, _⟩ => ⟨S4096x6, .f32⟩
  | .local _ .vmem, ⟨10, _⟩ => ⟨S4096x6, .f32⟩
  | _, _ => ⟨S1048576x98, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_call0_v0 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_v8 : Ref sig .tc := ⟨.hbm, 28, rfl⟩
abbrev main_cst_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_3 : Ref sig .tc := ⟨.hbm, 37, rfl⟩
abbrev main_v16 : Ref sig .tc := ⟨.hbm, 38, rfl⟩
abbrev main_v17 : Ref sig .tc := ⟨.hbm, 39, rfl⟩
abbrev main_cst_4 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_5 : Ref sig .tc := ⟨.hbm, 44, rfl⟩
abbrev main_v21 : Ref sig .tc := ⟨.hbm, 45, rfl⟩
abbrev main_v22 : Ref sig .tc := ⟨.hbm, 46, rfl⟩
abbrev main_cst_6 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_7 : Ref sig .tc := ⟨.hbm, 51, rfl⟩
abbrev main_v26 : Ref sig .tc := ⟨.hbm, 52, rfl⟩
abbrev main_v27 : Ref sig .tc := ⟨.hbm, 53, rfl⟩
abbrev main_cst_8 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_9 : Ref sig .tc := ⟨.hbm, 58, rfl⟩
abbrev main_v31 : Ref sig .tc := ⟨.hbm, 59, rfl⟩
abbrev main_v32 : Ref sig .tc := ⟨.hbm, 60, rfl⟩
abbrev main_cst_10 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x98 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S71x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x34 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S57x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x6 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x6 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  pads_S64x63_S64x71_000_080 : S64x63.Pads (![0, 0] : Fin 2 → Nat) ![0, 8] ![0, 0] S64x71
  h_S_ : 0 < S_.numel
  concatenates_S64x71_S64x71_S128x71_d0 : Shape.Concatenates [S64x71, S64x71] S128x71 0
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  bcast_S_S17x64 : S_.BroadcastsInDim S17x64 (![] : Fin 0 → Fin S17x64.rank)
  concatenates_S17x64_S17x64_S17x128_d1 : Shape.Concatenates [S17x64, S17x64] S17x128 1
  concatenates_S17x128_S17x128_S34x128_d0 : Shape.Concatenates [S17x128, S17x128] S34x128 0
  slices_S64x42_S64x27_0_0 : S64x42.Slices ![0, 0] S64x27
  slices_S64x42_S64x15_0_27 : S64x42.Slices ![0, 27] S64x15
  bcast_S_S64x15 : S_.BroadcastsInDim S64x15 (![] : Fin 0 → Fin S64x15.rank)
  concatenates_S64x27_S64x15_S64x15_S64x57_d1 : Shape.Concatenates [S64x27, S64x15, S64x15] S64x57 1
  concatenates_S64x57_S64x57_S128x57_d0 : Shape.Concatenates [S64x57, S64x57] S128x57 0
  bcast_S_S3x64 : S_.BroadcastsInDim S3x64 (![] : Fin 0 → Fin S3x64.rank)
  concatenates_S3x64_S3x64_S3x128_d1 : Shape.Concatenates [S3x64, S3x64] S3x128 1
  concatenates_S3x128_S3x128_S6x128_d0 : Shape.Concatenates [S3x128, S3x128] S6x128 0
  transposes_S128x71_S71x128_1_0 : S128x71.Transposes [1, 0] S71x128
  transposes_S128x128_S128x128_1_0 : S128x128.Transposes [1, 0] S128x128
  transposes_S34x128_S128x34_1_0 : S34x128.Transposes [1, 0] S128x34
  transposes_S128x57_S57x128_1_0 : S128x57.Transposes [1, 0] S57x128
  transposes_S6x128_S128x6_1_0 : S6x128.Transposes [1, 0] S128x6
  inb_S4096x98_S4096x98_0_0 : ∀ a, (![0, 0] : Fin 2 → Nat) a + S4096x98.size a ≤ S4096x98.size a
  h_S4096x98 : 0 < S4096x98.numel
  slices_S4096x98_o0_0_S4096x71 : S4096x98.Slices ![0, 0] S4096x71
  slices_S4096x98_o0_71_S4096x27 : S4096x98.Slices ![0, 71] S4096x27
  inb_S71x128_S71x128_0_0 : ∀ a, (![0, 0] : Fin 2 → Nat) a + S71x128.size a ≤ S71x128.size a
  h_S71x128 : 0 < S71x128.numel
  shapeCasts_S71x128_S71x128 : S71x128.ShapeCasts S71x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x34_S128x34_0_0 : ∀ a, (![0, 0] : Fin 2 → Nat) a + S128x34.size a ≤ S128x34.size a
  h_S128x34 : 0 < S128x34.numel
  shapeCasts_S128x34_S128x34 : S128x34.ShapeCasts S128x34
  slices_S4096x34_o0_0_S4096x17 : S4096x34.Slices ![0, 0] S4096x17
  slices_S4096x34_o0_17_S4096x17 : S4096x34.Slices ![0, 17] S4096x17
  slices_S4096x17_o0_0_S4096x1 : S4096x17.Slices ![0, 0] S4096x1
  slices_S4096x17_o0_2_S4096x15 : S4096x17.Slices ![0, 2] S4096x15
  slices_S4096x17_o0_1_S4096x1 : S4096x17.Slices ![0, 1] S4096x1
  concatenates_S4096x27_S4096x15_S4096x15_S4096x57_d1 : Shape.Concatenates [S4096x27, S4096x15, S4096x15] S4096x57 1
  inb_S57x128_S57x128_0_0 : ∀ a, (![0, 0] : Fin 2 → Nat) a + S57x128.size a ≤ S57x128.size a
  h_S57x128 : 0 < S57x128.numel
  shapeCasts_S57x128_S57x128 : S57x128.ShapeCasts S57x128
  inb_S128x6_S128x6_0_0 : ∀ a, (![0, 0] : Fin 2 → Nat) a + S128x6.size a ≤ S128x6.size a
  h_S128x6 : 0 < S128x6.numel
  shapeCasts_S128x6_S128x6 : S128x6.ShapeCasts S128x6
  slices_S4096x6_o0_0_S4096x3 : S4096x6.Slices ![0, 0] S4096x3
  slices_S4096x6_o0_3_S4096x3 : S4096x6.Slices ![0, 3] S4096x3
  broadcasts_S4096x1_S4096x3 : S4096x1.Broadcasts S4096x3
  concatenates_S4096x3_S4096x1_S4096x1_S4096x1_S4096x6_d1 : Shape.Concatenates [S4096x3, S4096x1, S4096x1, S4096x1] S4096x6 1
  inb_S4096x6_S4096x6_0_0 : ∀ a, (![0, 0] : Fin 2 → Nat) a + S4096x6.size a ≤ S4096x6.size a
  h_S4096x6 : 0 < S4096x6.numel
  dot_S4096x71_S71x128_S4096x128_1_0_0_1_n_n_wf : DotDims.WF S4096x71 S71x128 S4096x128 [1] [0] [0] [1] [] []
  dot_S4096x128_S128x128_S4096x128_1_0_0_1_n_n_wf : DotDims.WF S4096x128 S128x128 S4096x128 [1] [0] [0] [1] [] []
  dot_S4096x128_S128x34_S4096x34_1_0_0_1_n_n_wf : DotDims.WF S4096x128 S128x34 S4096x34 [1] [0] [0] [1] [] []
  dot_S4096x57_S57x128_S4096x128_1_0_0_1_n_n_wf : DotDims.WF S4096x57 S57x128 S4096x128 [1] [0] [0] [1] [] []
  dot_S4096x128_S128x6_S4096x6_1_0_0_1_n_n_wf : DotDims.WF S4096x128 S128x6 S4096x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x98.size a ≤ S1048576x98.size a
  hwx0_0 : ∀ i : grid0.Coords, EltTy.bits .f32 = 32 ∨ (Rect.block (s := S1048576x98) S4096x98.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S71x128.size a ≤ S71x128.size a
  hwx0_1 : ∀ i : grid0.Coords, EltTy.bits .f32 = 32 ∨ (Rect.block (s := S71x128) S71x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x34.size a ≤ S128x34.size a
  hwx0_3 : ∀ i : grid0.Coords, EltTy.bits .f32 = 32 ∨ (Rect.block (s := S128x34) S128x34.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S57x128.size a ≤ S57x128.size a
  hwx0_4 : ∀ i : grid0.Coords, EltTy.bits .f32 = 32 ∨ (Rect.block (s := S57x128) S57x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x6.size a ≤ S128x6.size a
  hwx0_7 : ∀ i : grid0.Coords, EltTy.bits .f32 = 32 ∨ (Rect.block (s := S128x6) S128x6.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x6.size a ≤ S1048576x6.size a
  hwx0_8 : ∀ i : grid0.Coords, EltTy.bits .f32 = 32 ∨ (Rect.block (s := S1048576x6) S4096x6.size (cc0_transform_8 i) (hinb0_8 i)).WholeWords (EltTy.packing .f32)

variable [Facts₀]

def dot_S4096x71_S71x128_S4096x128_1_0_0_1_n_n : DotDims S4096x71 S71x128 S4096x128 where
  lhsContracting := [1]
  rhsContracting := [0]
  lhsNonContracting := [0]
  rhsNonContracting := [1]
  lhsBatch := []
  rhsBatch := []
  wf := dot_S4096x71_S71x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x34_S4096x34_1_0_0_1_n_n : DotDims S4096x128 S128x34 S4096x34 where
  lhsContracting := [1]
  rhsContracting := [0]
  lhsNonContracting := [0]
  rhsNonContracting := [1]
  lhsBatch := []
  rhsBatch := []
  wf := dot_S4096x128_S128x34_S4096x34_1_0_0_1_n_n_wf
def dot_S4096x57_S57x128_S4096x128_1_0_0_1_n_n : DotDims S4096x57 S57x128 S4096x128 where
  lhsContracting := [1]
  rhsContracting := [0]
  lhsNonContracting := [0]
  rhsNonContracting := [1]
  lhsBatch := []
  rhsBatch := []
  wf := dot_S4096x57_S57x128_S4096x128_1_0_0_1_n_n_wf
def dot_S4096x128_S128x6_S4096x6_1_0_0_1_n_n : DotDims S4096x128 S128x6 S4096x6 where
  lhsContracting := [1]
  rhsContracting := [0]
  lhsNonContracting := [0]
  rhsNonContracting := [1]
  lhsBatch := []
  rhsBatch := []
  wf := dot_S4096x128_S128x6_S4096x6_1_0_0_1_n_n_wf

abbrev win0_0 : Pipeline.Window sig grid0 :=
  Pipeline.Window.ofSpec (Memref.whole main_arg0) S4096x98.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S71x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v38) S128x34.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v39) S57x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v40) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v41) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v42) S128x6.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v43) S4096x6.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1048576x98 : Shape := ⟨2, ![1048576, 98]⟩
abbrev S64x63 : Shape := ⟨2, ![64, 63]⟩
abbrev S64x64 : Shape := ⟨2, ![64, 64]⟩
abbrev S17x64 : Shape := ⟨2, ![17, 64]⟩
abbrev S64x42 : Shape := ⟨2, ![64, 42]⟩
abbrev S3x64 : Shape := ⟨2, ![3, 64]⟩
abbrev S64x71 : Shape := ⟨2, ![64, 71]⟩
abbrev S1048576x71 : Shape := ⟨2, ![1048576, 71]⟩
abbrev S1048576x27 : Shape := ⟨2, ![1048576, 27]⟩
abbrev S1048576x63 : Shape := ⟨2, ![1048576, 63]⟩
abbrev S63x64 : Shape := ⟨2, ![63, 64]⟩
abbrev S1048576x64 : Shape := ⟨2, ![1048576, 64]⟩
abbrev S_ : Shape := ⟨0, ![]⟩
abbrev S64x17 : Shape := ⟨2, ![64, 17]⟩
abbrev S1048576x17 : Shape := ⟨2, ![1048576, 17]⟩
abbrev S1048576x1 : Shape := ⟨2, ![1048576, 1]⟩
abbrev S1048576 : Shape := ⟨1, ![1048576]⟩
abbrev S1048576x15 : Shape := ⟨2, ![1048576, 15]⟩
abbrev S1048576x42 : Shape := ⟨2, ![1048576, 42]⟩
abbrev S42x64 : Shape := ⟨2, ![42, 64]⟩
abbrev S64x3 : Shape := ⟨2, ![64, 3]⟩
abbrev S1048576x3 : Shape := ⟨2, ![1048576, 3]⟩
abbrev S71x64 : Shape := ⟨2, ![71, 64]⟩
abbrev S1048576x6 : Shape := ⟨2, ![1048576, 6]⟩

abbrev nBuf : Space → Nat
  | .hbm => 161
  | .vmem => 0
  | .smem => 0
  | _ => 0

abbrev hbmTy0_0 (i : Nat) : BufTy := match i % 128 with
  | 0 => ⟨S1048576x98, .f32⟩
  | 1 => ⟨S64x63, .f32⟩
  | 2 => ⟨S64x64, .f32⟩
  | 3 => ⟨S17x64, .f32⟩
  | 4 => ⟨S64x42, .f32⟩
  | 5 => ⟨S64x64, .f32⟩
  | 6 => ⟨S64x64, .f32⟩
  | 7 => ⟨S3x64, .f32⟩
  | 8 => ⟨S64x71, .f32⟩
  | 9 => ⟨S64x64, .f32⟩
  | 10 => ⟨S17x64, .f32⟩
  | 11 => ⟨S64x42, .f32⟩
  | 12 => ⟨S64x64, .f32⟩
  | 13 => ⟨S64x64, .f32⟩
  | 14 => ⟨S3x64, .f32⟩
  | 15 => ⟨S1048576x71, .f32⟩
  | 16 => ⟨S1048576x27, .f32⟩
  | 17 => ⟨S1048576x63, .f32⟩
  | 18 => ⟨S63x64, .f32⟩
  | 19 => ⟨S1048576x64, .f32⟩
  | 20 => ⟨S_, .f32⟩
  | 21 => ⟨S1048576x64, .f32⟩
  | 22 => ⟨S1048576x64, .f32⟩
  | 23 => ⟨S64x64, .f32⟩
  | 24 => ⟨S1048576x64, .f32⟩
  | 25 => ⟨S_, .f32⟩
  | 26 => ⟨S1048576x64, .f32⟩
  | 27 => ⟨S1048576x64, .f32⟩
  | 28 => ⟨S64x17, .f32⟩
  | 29 => ⟨S1048576x17, .f32⟩
  | 30 => ⟨S1048576x1, .f32⟩
  | 31 => ⟨S1048576, .f32⟩
  | 32 => ⟨S_, .f32⟩
  | 33 => ⟨S1048576, .f32⟩
  | 34 => ⟨S1048576, .f32⟩
  | 35 => ⟨S1048576, .f32⟩
  | 36 => ⟨S1048576, .f32⟩
  | 37 => ⟨S1048576, .i1⟩
  | 38 => ⟨S1048576, .f32⟩
  | 39 => ⟨S1048576, .f32⟩
  | 40 => ⟨S1048576, .f32⟩
  | 41 => ⟨S1048576, .f32⟩
  | 42 => ⟨S1048576, .f32⟩
  | 43 => ⟨S1048576, .f32⟩
  | 44 => ⟨S1048576, .f32⟩
  | 45 => ⟨S1048576, .f32⟩
  | 46 => ⟨S1048576x1, .f32⟩
  | 47 => ⟨S1048576, .f32⟩
  | 48 => ⟨S_, .f32⟩
  | 49 => ⟨S1048576, .f32⟩
  | 50 => ⟨S1048576, .f32⟩
  | 51 => ⟨S1048576, .f32⟩
  | 52 => ⟨S1048576, .f32⟩
  | 53 => ⟨S1048576, .i1⟩
  | 54 => ⟨S1048576, .f32⟩
  | 55 => ⟨S1048576, .f32⟩
  | 56 => ⟨S1048576, .f32⟩
  | 57 => ⟨S1048576, .f32⟩
  | 58 => ⟨S1048576, .f32⟩
  | 59 => ⟨S1048576, .f32⟩
  | 60 => ⟨S1048576, .f32⟩
  | 61 => ⟨S1048576, .f32⟩
  | 62 => ⟨S1048576x15, .f32⟩
  | 63 => ⟨S1048576x42, .f32⟩
  | 64 => ⟨S42x64, .f32⟩
  | 65 => ⟨S1048576x64, .f32⟩
  | 66 => ⟨S_, .f32⟩
  | 67 => ⟨S1048576x64, .f32⟩
  | 68 => ⟨S1048576x64, .f32⟩
  | 69 => ⟨S64x64, .f32⟩
  | 70 => ⟨S1048576x64, .f32⟩
  | 71 => ⟨S_, .f32⟩
  | 72 => ⟨S1048576x64, .f32⟩
  | 73 => ⟨S1048576x64, .f32⟩
  | 74 => ⟨S64x64, .f32⟩
  | 75 => ⟨S1048576x64, .f32⟩
  | 76 => ⟨S_, .f32⟩
  | 77 => ⟨S1048576x64, .f32⟩
  | 78 => ⟨S1048576x64, .f32⟩
  | 79 => ⟨S64x3, .f32⟩
  | 80 => ⟨S1048576x3, .f32⟩
  | 81 => ⟨S71x64, .f32⟩
  | 82 => ⟨S1048576x64, .f32⟩
  | 83 => ⟨S_, .f32⟩
  | 84 => ⟨S1048576x64, .f32⟩
  | 85 => ⟨S1048576x64, .f32⟩
  | 86 => ⟨S64x64, .f32⟩
  | 87 => ⟨S1048576x64, .f32⟩
  | 88 => ⟨S_, .f32⟩
  | 89 => ⟨S1048576x64, .f32⟩
  | 90 => ⟨S1048576x64, .f32⟩
  | 91 => ⟨S64x17, .f32⟩
  | 92 => ⟨S1048576x17, .f32⟩
  | 93 => ⟨S1048576x1, .f32⟩
  | 94 => ⟨S1048576, .f32⟩
  | 95 => ⟨S_, .f32⟩
  | 96 => ⟨S1048576, .f32⟩
  | 97 => ⟨S1048576, .f32⟩
  | 98 => ⟨S1048576, .f32⟩
  | 99 => ⟨S1048576, .f32⟩
  | 100 => ⟨S1048576, .i1⟩
  | 101 => ⟨S1048576, .f32⟩
  | 102 => ⟨S1048576, .f32⟩
  | 103 => ⟨S1048576, .f32⟩
  | 104 => ⟨S1048576, .f32⟩
  | 105 => ⟨S1048576, .f32⟩
  | 106 => ⟨S1048576, .f32⟩
  | 107 => ⟨S1048576, .f32⟩
  | 108 => ⟨S1048576, .f32⟩
  | 109 => ⟨S1048576x1, .f32⟩
  | 110 => ⟨S1048576, .f32⟩
  | 111 => ⟨S_, .f32⟩
  | 112 => ⟨S1048576, .f32⟩
  | 113 => ⟨S1048576, .f32⟩
  | 114 => ⟨S1048576, .f32⟩
  | 115 => ⟨S1048576, .f32⟩
  | 116 => ⟨S1048576, .i1⟩
  | 117 => ⟨S1048576, .f32⟩
  | 118 => ⟨S1048576, .f32⟩
  | 119 => ⟨S1048576, .f32⟩
  | 120 => ⟨S1048576, .f32⟩
  | 121 => ⟨S1048576, .f32⟩
  | 122 => ⟨S1048576, .f32⟩
  | 123 => ⟨S1048576, .f32⟩
  | 124 => ⟨S1048576, .f32⟩
  | 125 => ⟨S1048576x15, .f32⟩
  | 126 => ⟨S1048576x42, .f32⟩
  | 127 => ⟨S42x64, .f32⟩
  | _ => ⟨S1048576x98, .f32⟩

abbrev hbmTy0_1 (i : Nat) : BufTy := match i % 128 with
  | 0 => ⟨S1048576x64, .f32⟩
  | 1 => ⟨S_, .f32⟩
  | 2 => ⟨S1048576x64, .f32⟩
  | 3 => ⟨S1048576x64, .f32⟩
  | 4 => ⟨S64x64, .f32⟩
  | 5 => ⟨S1048576x64, .f32⟩
  | 6 => ⟨S_, .f32⟩
  | 7 => ⟨S1048576x64, .f32⟩
  | 8 => ⟨S1048576x64, .f32⟩
  | 9 => ⟨S64x64, .f32⟩
  | 10 => ⟨S1048576x64, .f32⟩
  | 11 => ⟨S_, .f32⟩
  | 12 => ⟨S1048576x64, .f32⟩
  | 13 => ⟨S1048576x64, .f32⟩
  | 14 => ⟨S64x3, .f32⟩
  | 15 => ⟨S1048576x3, .f32⟩
  | 16 => ⟨S1048576, .f32⟩
  | 17 => ⟨S_, .f32⟩
  | 18 => ⟨S1048576, .f32⟩
  | 19 => ⟨S1048576, .f32⟩
  | 20 => ⟨S1048576, .f32⟩
  | 21 => ⟨S1048576x1, .f32⟩
  | 22 => ⟨S1048576x3, .f32⟩
  | 23 => ⟨S1048576x3, .f32⟩
  | 24 => ⟨S1048576, .f32⟩
  | 25 => ⟨S1048576x1, .f32⟩
  | 26 => ⟨S1048576x3, .f32⟩
  | 27 => ⟨S1048576x3, .f32⟩
  | 28 => ⟨S1048576x3, .f32⟩
  | 29 => ⟨S1048576x1, .f32⟩
  | 30 => ⟨S1048576x1, .f32⟩
  | 31 => ⟨S1048576x1, .f32⟩
  | 32 => ⟨S1048576x6, .f32⟩
  | _ => ⟨S1048576x98, .f32⟩

abbrev hbmTy (i : Nat) : BufTy := match i / 128 with
  | 0 => hbmTy0_0 i
  | 1 => hbmTy0_1 i
  | _ => ⟨S1048576x98, .f32⟩

abbrev bufTy : (tb : Table) → Fin (tcTables nBuf tb) → BufTy
  | .hbm, ⟨i, _⟩ => hbmTy i
  | _, _ => ⟨S1048576x98, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call0_cst : Ref sig .tc := ⟨.hbm, 20, rfl⟩
abbrev main_call0_v0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_cst : Ref sig .tc := ⟨.hbm, 25, rfl⟩
abbrev main_call1_v0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_call2_cst : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_call3_cst : Ref sig .tc := ⟨.hbm, 48, rfl⟩
abbrev main_call3_v0 : Ref sig .tc := ⟨.hbm, 49, rfl⟩
abbrev main_call3_v1 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_call3_v5 : Ref sig .tc := ⟨.hbm, 54, rfl⟩
abbrev main_call3_v6 : Ref sig .tc := ⟨.hbm, 55, rfl⟩
abbrev main_call3_v7 : Ref sig .tc := ⟨.hbm, 56, rfl⟩
abbrev main_call3_v8 : Ref sig .tc := ⟨.hbm, 57, rfl⟩
abbrev main_call3_v9 : Ref sig .tc := ⟨.hbm, 58, rfl⟩
abbrev main_call3_v10 : Ref sig .tc := ⟨.hbm, 59, rfl⟩
abbrev main_call3_v11 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_call4_cst : Ref sig .tc := ⟨.hbm, 66, rfl⟩
abbrev main_call4_v0 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_call5_cst : Ref sig .tc := ⟨.hbm, 71, rfl⟩
abbrev main_call5_v0 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_call6_cst : Ref sig .tc := ⟨.hbm, 76, rfl⟩
abbrev main_call6_v0 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_call7_cst : Ref sig .tc := ⟨.hbm, 83, rfl⟩
abbrev main_call7_v0 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_call8_cst : Ref sig .tc := ⟨.hbm, 88, rfl⟩
abbrev main_call8_v0 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_call9_cst : Ref sig .tc := ⟨.hbm, 95, rfl⟩
abbrev main_call9_v0 : Ref sig .tc := ⟨.hbm, 96, rfl⟩
abbrev main_call9_v1 : Ref sig .tc := ⟨.hbm, 97, rfl⟩
abbrev main_call9_v2 : Ref sig .tc := ⟨.hbm, 98, rfl⟩
abbrev main_call9_v3 : Ref sig .tc := ⟨.hbm, 99, rfl⟩
abbrev main_call9_v4 : Ref sig .tc := ⟨.hbm, 100, rfl⟩
abbrev main_call9_v5 : Ref sig .tc := ⟨.hbm, 101, rfl⟩
abbrev main_call9_v6 : Ref sig .tc := ⟨.hbm, 102, rfl⟩
abbrev main_call9_v7 : Ref sig .tc := ⟨.hbm, 103, rfl⟩
abbrev main_call9_v8 : Ref sig .tc := ⟨.hbm, 104, rfl⟩
abbrev main_call9_v9 : Ref sig .tc := ⟨.hbm, 105, rfl⟩
abbrev main_call9_v10 : Ref sig .tc := ⟨.hbm, 106, rfl⟩
abbrev main_call9_v11 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_call10_cst : Ref sig .tc := ⟨.hbm, 111, rfl⟩
abbrev main_call10_v0 : Ref sig .tc := ⟨.hbm, 112, rfl⟩
abbrev main_call10_v1 : Ref sig .tc := ⟨.hbm, 113, rfl⟩
abbrev main_call10_v2 : Ref sig .tc := ⟨.hbm, 114, rfl⟩
abbrev main_call10_v3 : Ref sig .tc := ⟨.hbm, 115, rfl⟩
abbrev main_call10_v4 : Ref sig .tc := ⟨.hbm, 116, rfl⟩
abbrev main_call10_v5 : Ref sig .tc := ⟨.hbm, 117, rfl⟩
abbrev main_call10_v6 : Ref sig .tc := ⟨.hbm, 118, rfl⟩
abbrev main_call10_v7 : Ref sig .tc := ⟨.hbm, 119, rfl⟩
abbrev main_call10_v8 : Ref sig .tc := ⟨.hbm, 120, rfl⟩
abbrev main_call10_v9 : Ref sig .tc := ⟨.hbm, 121, rfl⟩
abbrev main_call10_v10 : Ref sig .tc := ⟨.hbm, 122, rfl⟩
abbrev main_call10_v11 : Ref sig .tc := ⟨.hbm, 123, rfl⟩
abbrev main_v43 : Ref sig .tc := ⟨.hbm, 124, rfl⟩
abbrev main_v44 : Ref sig .tc := ⟨.hbm, 125, rfl⟩
abbrev main_v45 : Ref sig .tc := ⟨.hbm, 126, rfl⟩
abbrev main_v46 : Ref sig .tc := ⟨.hbm, 127, rfl⟩
abbrev main_v47 : Ref sig .tc := ⟨.hbm, 128, rfl⟩
abbrev main_call11_cst : Ref sig .tc := ⟨.hbm, 129, rfl⟩
abbrev main_call11_v0 : Ref sig .tc := ⟨.hbm, 130, rfl⟩
abbrev main_v48 : Ref sig .tc := ⟨.hbm, 131, rfl⟩
abbrev main_v49 : Ref sig .tc := ⟨.hbm, 132, rfl⟩
abbrev main_v50 : Ref sig .tc := ⟨.hbm, 133, rfl⟩
abbrev main_call12_cst : Ref sig .tc := ⟨.hbm, 134, rfl⟩
abbrev main_call12_v0 : Ref sig .tc := ⟨.hbm, 135, rfl⟩
abbrev main_v51 : Ref sig .tc := ⟨.hbm, 136, rfl⟩
abbrev main_v52 : Ref sig .tc := ⟨.hbm, 137, rfl⟩
abbrev main_v53 : Ref sig .tc := ⟨.hbm, 138, rfl⟩
abbrev main_call13_cst : Ref sig .tc := ⟨.hbm, 139, rfl⟩
abbrev main_call13_v0 : Ref sig .tc := ⟨.hbm, 140, rfl⟩
abbrev main_v54 : Ref sig .tc := ⟨.hbm, 141, rfl⟩
abbrev main_v55 : Ref sig .tc := ⟨.hbm, 142, rfl⟩
abbrev main_v56 : Ref sig .tc := ⟨.hbm, 143, rfl⟩
abbrev main_v57 : Ref sig .tc := ⟨.hbm, 144, rfl⟩
abbrev main_cst : Ref sig .tc := ⟨.hbm, 145, rfl⟩
abbrev main_v58 : Ref sig .tc := ⟨.hbm, 146, rfl⟩
abbrev main_v59 : Ref sig .tc := ⟨.hbm, 147, rfl⟩
abbrev main_v60 : Ref sig .tc := ⟨.hbm, 148, rfl⟩
abbrev main_v61 : Ref sig .tc := ⟨.hbm, 149, rfl⟩
abbrev main_v62 : Ref sig .tc := ⟨.hbm, 150, rfl⟩
abbrev main_v63 : Ref sig .tc := ⟨.hbm, 151, rfl⟩
abbrev main_v64 : Ref sig .tc := ⟨.hbm, 152, rfl⟩
abbrev main_v65 : Ref sig .tc := ⟨.hbm, 153, rfl⟩
abbrev main_v66 : Ref sig .tc := ⟨.hbm, 154, rfl⟩
abbrev main_v67 : Ref sig .tc := ⟨.hbm, 155, rfl⟩
abbrev main_v68 : Ref sig .tc := ⟨.hbm, 156, rfl⟩
abbrev main_v69 : Ref sig .tc := ⟨.hbm, 157, rfl⟩
abbrev main_v70 : Ref sig .tc := ⟨.hbm, 158, rfl⟩
abbrev main_v71 : Ref sig .tc := ⟨.hbm, 159, rfl⟩
abbrev main_v72 : Ref sig .tc := ⟨.hbm, 160, rfl⟩

abbrev nD : Nat := 1
abbrev τ : Topo := Topo.v7x

variable {F : FTy → Type} [FloatOps F]

class Facts₀ : Prop where
  slices_S1048576x98_S1048576x71_0_0 : S1048576x98.Slices ![0, 0] S1048576x71
  slices_S1048576x98_S1048576x27_0_71 : S1048576x98.Slices ![0, 71] S1048576x27
  slices_S1048576x71_S1048576x63_0_0 : S1048576x71.Slices ![0, 0] S1048576x63
  transposes_S64x63_S63x64_1_0 : S64x63.Transposes [1, 0] S63x64
  bcast_S_S1048576x64 : S_.BroadcastsInDim S1048576x64 (![] : Fin 0 → Fin S1048576x64.rank)
  transposes_S64x64_S64x64_1_0 : S64x64.Transposes [1, 0] S64x64
  transposes_S17x64_S64x17_1_0 : S17x64.Transposes [1, 0] S64x17
  slices_S1048576x17_S1048576x1_0_0 : S1048576x17.Slices ![0, 0] S1048576x1
  shapeCasts_S1048576x1_S1048576 : S1048576x1.ShapeCasts S1048576
  bcast_S_S1048576 : S_.BroadcastsInDim S1048576 (![] : Fin 0 → Fin S1048576.rank)
  slices_S1048576x17_S1048576x1_0_1 : S1048576x17.Slices ![0, 1] S1048576x1
  slices_S1048576x17_S1048576x15_0_2 : S1048576x17.Slices ![0, 2] S1048576x15
  concatenates_S1048576x27_S1048576x15_S1048576x42_d1 : Shape.Concatenates [S1048576x27, S1048576x15] S1048576x42 1
  transposes_S64x42_S42x64_1_0 : S64x42.Transposes [1, 0] S42x64
  transposes_S3x64_S64x3_1_0 : S3x64.Transposes [1, 0] S64x3
  transposes_S64x71_S71x64_1_0 : S64x71.Transposes [1, 0] S71x64
  bcast_S1048576_S1048576x1_0 : S1048576.BroadcastsInDim S1048576x1 (![0] : Fin 1 → Fin S1048576x1.rank)
  bcast_S1048576x1_S1048576x3_0_1 : S1048576x1.BroadcastsInDim S1048576x3 (![0, 1] : Fin 2 → Fin S1048576x3.rank)
  concatenates_S1048576x3_S1048576x1_S1048576x1_S1048576x1_S1048576x6_d1 : Shape.Concatenates [S1048576x3, S1048576x1, S1048576x1, S1048576x1] S1048576x6 1
  dot_S1048576x63_S63x64_S1048576x64_1_0_0_1_n_n_wf : DotDims.WF S1048576x63 S63x64 S1048576x64 [1] [0] [0] [1] [] []
  dot_S1048576x64_S64x64_S1048576x64_1_0_0_1_n_n_wf : DotDims.WF S1048576x64 S64x64 S1048576x64 [1] [0] [0] [1] [] []
  dot_S1048576x64_S64x17_S1048576x17_1_0_0_1_n_n_wf : DotDims.WF S1048576x64 S64x17 S1048576x17 [1] [0] [0] [1] [] []
  dot_S1048576x42_S42x64_S1048576x64_1_0_0_1_n_n_wf : DotDims.WF S1048576x42 S42x64 S1048576x64 [1] [0] [0] [1] [] []
  dot_S1048576x64_S64x3_S1048576x3_1_0_0_1_n_n_wf : DotDims.WF S1048576x64 S64x3 S1048576x3 [1] [0] [0] [1] [] []
  dot_S1048576x71_S71x64_S1048576x64_1_0_0_1_n_n_wf : DotDims.WF S1048576x71 S71x64 S1048576x64 [1] [0] [0] [1] [] []

variable [Facts₀]

def dot_S1048576x63_S63x64_S1048576x64_1_0_0_1_n_n : DotDims S1048576x63 S63x64 S1048576x64 where
  lhsContracting := [1]
  rhsContracting := [0]
  lhsNonContracting := [0]
  rhsNonContracting := [1]
  lhsBatch := []
  rhsBatch := []
  wf := dot_S1048576x63_S63x64_S1048576x64_1_0_0_1_n_n_wf
def dot_S1048576x64_S64x64_S1048576x64_1_0_0_1_n_n : DotDims S1048576x64 S64x64 S1048576x64 where
  lhsContracting := [1]
  rhsContracting := [0]
  lhsNonContracting := [0]
  rhsNonContracting := [1]
  lhsBatch := []
  rhsBatch := []
  wf := dot_S1048576x64_S64x64_S1048576x64_1_0_0_1_n_n_wf
def dot_S1048576x64_S64x17_S1048576x17_1_0_0_1_n_n : DotDims S1048576x64 S64x17 S1048576x17 where
  lhsContracting := [1]
  rhsContracting := [0]
  lhsNonContracting := [0]
  rhsNonContracting := [1]
  lhsBatch := []
  rhsBatch := []
  wf := dot_S1048576x64_S64x17_S1048576x17_1_0_0_1_n_n_wf
def dot_S1048576x42_S42x64_S1048576x64_1_0_0_1_n_n : DotDims S1048576x42 S42x64 S1048576x64 where
  lhsContracting := [1]
  rhsContracting := [0]
  lhsNonContracting := [0]
  rhsNonContracting := [1]
  lhsBatch := []
  rhsBatch := []
  wf := dot_S1048576x42_S42x64_S1048576x64_1_0_0_1_n_n_wf
def dot_S1048576x64_S64x3_S1048576x3_1_0_0_1_n_n : DotDims S1048576x64 S64x3 S1048576x3 where
  lhsContracting := [1]
  rhsContracting := [0]
  lhsNonContracting := [0]
  rhsNonContracting := [1]
  lhsBatch := []
  rhsBatch := []
  wf := dot_S1048576x64_S64x3_S1048576x3_1_0_0_1_n_n_wf
def dot_S1048576x71_S71x64_S1048576x64_1_0_0_1_n_n : DotDims S1048576x71 S71x64 S1048576x64 where
  lhsContracting := [1]
  rhsContracting := [0]
  lhsNonContracting := [0]
  rhsNonContracting := [1]
  lhsBatch := []
  rhsBatch := []
  wf := dot_S1048576x71_S71x64_S1048576x64_1_0_0_1_n_n_wf

class Facts : Prop extends Facts₀ where

variable [Facts]
-- ==== Proof.FrameBits.lean ====
import proofs.«168278_j48120813584957_2_alg».proof.Proof.Gen.Kernel.Launch
import proofs.«168278_j48120813584957_2_alg».proof.Proof.Gen.Kernel.Skeleton
import proofs.«168278_j48120813584957_2_alg».proof.Proof.Gen.Kernel.Points
import Idealize.ShloMosaic.Lib.Pipeline.FrameBody
import Idealize.ShloMosaic.Lib.Ring
import Idealize.ShloMosaic.Lib.Tactic

/-!
# The frame of the kernel program, at any float instance

The program is three stretches of host operations followed by one pipelined region over a grid of 256
points. The host operations only build the seven fused weight matrices (windows 1 to 7) out of the
fourteen weight arguments; none of them writes an argument array. The region streams the rows of the
first argument through the body in blocks of 4096 rows: at every point the body reads the eight input
blocks whole and overwrites the whole output block with one value computed from them (`out8`).

So the run terminates, every argument array ends as it started, and after the body at point `t` the
output window's buffer holds `out8` of the eight input blocks at `t`.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- What core `c`'s buffers hold when the region is entered: the launch memory folded through the three
    stretches of host operations, in order. -/
abbrev V (c : Dev nD) (b : Ref sig .tc) : Buf (Elt F) ((c : Thread nD τ).loc b) :=
  StableHlo.after (List.flatten [hostOps0, hostOps0_1, hostOps0_2]) (fun b => m (c, b)) b

/-- None of the host operations allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program up to its region: the three stretches, then the region's call. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.nary_writes, Finset.mem_singleton]
    repeat' apply And.intro
    all_goals exact StableHlo.devRef_ne_of_ne (by decide)))
/-- No host operation writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.nary_writes, Finset.mem_singleton]
    repeat' apply And.intro
    all_goals exact StableHlo.devRef_ne_of_ne (by decide)))
/-- No host operation writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.nary_writes, Finset.mem_singleton]
    repeat' apply And.intro
    all_goals exact StableHlo.devRef_ne_of_ne (by decide)))
/-- No host operation writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.nary_writes, Finset.mem_singleton]
    repeat' apply And.intro
    all_goals exact StableHlo.devRef_ne_of_ne (by decide)))
/-- No host operation writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.nary_writes, Finset.mem_singleton]
    repeat' apply And.intro
    all_goals exact StableHlo.devRef_ne_of_ne (by decide)))
/-- No host operation writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.nary_writes, Finset.mem_singleton]
    repeat' apply And.intro
    all_goals exact StableHlo.devRef_ne_of_ne (by decide)))
/-- No host operation writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.nary_writes, Finset.mem_singleton]
    repeat' apply And.intro
    all_goals exact StableHlo.devRef_ne_of_ne (by decide)))
/-- No host operation writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.nary_writes, Finset.mem_singleton]
    repeat' apply And.intro
    all_goals exact StableHlo.devRef_ne_of_ne (by decide)))
/-- No host operation writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.nary_writes, Finset.mem_singleton]
    repeat' apply And.intro
    all_goals exact StableHlo.devRef_ne_of_ne (by decide)))
/-- No host operation writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.nary_writes, Finset.mem_singleton]
    repeat' apply And.intro
    all_goals exact StableHlo.devRef_ne_of_ne (by decide)))
/-- No host operation writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.nary_writes, Finset.mem_singleton]
    repeat' apply And.intro
    all_goals exact StableHlo.devRef_ne_of_ne (by decide)))
/-- No host operation writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.nary_writes, Finset.mem_singleton]
    repeat' apply And.intro
    all_goals exact StableHlo.devRef_ne_of_ne (by decide)))
/-- No host operation writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.nary_writes, Finset.mem_singleton]
    repeat' apply And.intro
    all_goals exact StableHlo.devRef_ne_of_ne (by decide)))
/-- No host operation writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.nary_writes, Finset.mem_singleton]
    repeat' apply And.intro
    all_goals exact StableHlo.devRef_ne_of_ne (by decide)))
/-- No host operation writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not: unfetched, the block
    index has not moved since the fetch. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, fetched there or not: unfetched, the block
    index has not moved since the fetch. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, fetched there or not: unfetched, the block
    index has not moved since the fetch. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, fetched there or not: unfetched, the block
    index has not moved since the fetch. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, fetched there or not: unfetched, the block
    index has not moved since the fetch. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, fetched there or not: unfetched, the block
    index has not moved since the fetch. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block at every point, fetched there or not: unfetched, the block
    index has not moved since the fetch. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current buffer holds its block at every point, fetched there or not: unfetched, the block
    index has not moved since the fetch. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The argument arrays at the end, from the library's post of the run -/

/-- A final state the library's post holds of has the fifteen argument arrays as launched: the first argument is window
    0's array, an input the pipeline only reads; the other fourteen are staged by no window and end as the region found
    them; and no host operation wrote any of the fifteen. -/
theorem kept_args_of (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14) :=
  ⟨((h c).1 0).trans (((dats 0 c).arrAt_in 0 rfl _).trans ((hA c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    ((h c).2 main_arg14 (Pipeline.mem_restRefs_of main_arg14 (by decide) (by decide))).trans (V_main_arg14 m c)⟩

/-- So a run to the library's post is a run to the frame's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => kept_args_of m dats hA r h c) h

/-! ## What the body leaves in the output window's buffer -/

/-- The whole output block. -/
abbrev rOut : Rect S4096x6 := Rect.unit (s := S4096x6) ![0, 0] S4096x6.size inb_S4096x6_S4096x6_0_0

/-- The output block after the body, from the eight input blocks: the one store, of the value the body computes
    from the inputs read whole, over the whole block. -/
def out8 (x0 : Vec F S4096x98 .f32) (w1 : Vec F S71x128 .f32) (w2 : Vec F S128x128 .f32) (w3 : Vec F S128x34 .f32)
    (w4 : Vec F S57x128 .f32) (w5 : Vec F S128x128 .f32) (w6 : Vec F S128x128 .f32) (w7 : Vec F S128x6 .f32) : Vec F S4096x6 .f32 :=
  let a0 := View.ld x0 (Rect.unit (s := S4096x98) ![0, 0] S4096x98.size inb_S4096x98_S4096x98_0_0)
  let a1 := View.ld w1 (Rect.unit (s := S71x128) ![0, 0] S71x128.size inb_S71x128_S71x128_0_0)
  let a2 := View.ld w2 (Rect.unit (s := S128x128) ![0, 0] S128x128.size inb_S128x128_S128x128_0_0)
  let a3 := View.ld w3 (Rect.unit (s := S128x34) ![0, 0] S128x34.size inb_S128x34_S128x34_0_0)
  let a4 := View.ld w4 (Rect.unit (s := S57x128) ![0, 0] S57x128.size inb_S57x128_S57x128_0_0)
  let a5 := View.ld w5 (Rect.unit (s := S128x128) ![0, 0] S128x128.size inb_S128x128_S128x128_0_0)
  let a6 := View.ld w6 (Rect.unit (s := S128x128) ![0, 0] S128x128.size inb_S128x128_S128x128_0_0)
  let a7 := View.ld w7 (Rect.unit (s := S128x6) ![0, 0] S128x6.size inb_S128x6_S128x6_0_0)
  View.canon [⟨rOut, k0_pay1 (k0_pay6 a0 a1 a2 a3)
    (k0_pay14 (k0_pay9 a0 a1 a2 a3) (k0_pay11 a0 a1 a2 a3) (k0_pay12 a0 a1 a2 a3) (k0_pay13 a0 a1 a2 a3))
    (k0_pay15 (k0_pay5 a0 a1 a2 a3))
    (k0_pay16 (k0_pay2 a0) (k0_pay5 a0 a1 a2 a3) (k0_pay7 a0 a1 a2 a3) a4 a5 a6 a7)
    (k0_pay17 (k0_pay2 a0) (k0_pay5 a0 a1 a2 a3) (k0_pay7 a0 a1 a2 a3) a4 a5 a6 a7)⟩]

/-- The one store covers the block. -/
theorem cover8 (p0 : Vec F S4096x6 .f32) (y : S4096x6.Idx) :
    ∃ pc ∈ ([⟨rOut, p0⟩] : List (View.Piece (Elt F) S4096x6 .f32)), y ∈ pc.1.set :=
  View.cover_of_tiled [⟨rOut, p0⟩] S4096x6.size (by rfl) y

/-! ## The body's triple -/

set_option maxHeartbeats 4000000 in
/-- The body on whole buffers: the inputs' contents known, the output's anything. It reads, stores once, and returns
    the inputs' buffers as they were and the output's at `out8` of the inputs. -/
theorem sound_kernel (c : Dev nD) (E : Set ℕ) (i : grid0.Coords)
    (arg0 : Memref sig .tc .vmem S4096x98 .f32) (harg0 : arg0.IsWhole)
    (arg1 : Memref sig .tc .vmem S71x128 .f32) (harg1 : arg1.IsWhole)
    (arg2 : Memref sig .tc .vmem S128x128 .f32) (harg2 : arg2.IsWhole)
    (arg3 : Memref sig .tc .vmem S128x34 .f32) (harg3 : arg3.IsWhole)
    (arg4 : Memref sig .tc .vmem S57x128 .f32) (harg4 : arg4.IsWhole)
    (arg5 : Memref sig .tc .vmem S128x128 .f32) (harg5 : arg5.IsWhole)
    (arg6 : Memref sig .tc .vmem S128x128 .f32) (harg6 : arg6.IsWhole)
    (arg7 : Memref sig .tc .vmem S128x6 .f32) (harg7 : arg7.IsWhole)
    (arg8 : Memref sig .tc .vmem S4096x6 .f32) (harg8 : arg8.IsWhole)
    (x0 : Vec F S4096x98 .f32) (x1 : Vec F S71x128 .f32) (x2 : Vec F S128x128 .f32) (x3 : Vec F S128x34 .f32) (x4 : Vec F S57x128 .f32) (x5 : Vec F S128x128 .f32) (x6 : Vec F S128x128 .f32) (x7 : Vec F S128x6 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out8 x0 x1 x2 x3 x4 x5 x6 x7)) -∗ K ⟨⟩))
      ⊢ wp frame (wpE (defs₀ (F := F)) Variants.none c none) E (cc0__kernel i arg0 harg0 arg1 harg1 arg2 harg2 arg3 harg3 arg4 harg4 arg5 harg5 arg6 harg6 arg7 harg7 arg8 harg8) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover8 _)

/-! ## The pipeline's proof data -/

/-- The proof data on core `c`: the arrays as the region finds them; after the body at point `t` each input's buffer
    at its block and the output's at `out8` of the input blocks; nothing carried between points, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
/-- After the body at point `t` the output window's buffer holds `out8` of the eight input blocks at `t`. -/
theorem after0_8 (c : Dev nD) (t : Fin cfg0.N) : (dats m 0 c).after 8 t
    = out8 (iblk m c 0 t) (iblk m c 1 t) (iblk m c 2 t) (iblk m c 3 t) (iblk m c 4 t) (iblk m c 5 t) (iblk m c 6 t) (iblk m c 7 t) := by
  dsimp only [dats]

/-- The same of this proof data: in any final state its post holds of, the fifteen argument arrays are as launched. -/
theorem kept_args (r : PUnit × MemSt nD τ sig (Elt F)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14) :=
  kept_args_of m (dats m) (A_eq m) r h c

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' buffers hold their blocks, so the triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution on the TensorCores terminates, and at the end every
    array of the pipeline holds what the library computes from the proof data and every other unscoped buffer what the
    region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its fifteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Hand

end
-- ==== Proof.FrameIdeal.lean ====
import proofs.«168278_j48120813584957_2_alg».proof.Proof.Gen.KernelIdeal.Launch
import proofs.«168278_j48120813584957_2_alg».proof.Proof.Gen.KernelIdeal.Skeleton
import proofs.«168278_j48120813584957_2_alg».proof.Proof.Gen.KernelIdeal.Points
import Idealize.ShloMosaic.Lib.Pipeline.FrameBody
import Idealize.ShloMosaic.Lib.Ring
import Idealize.ShloMosaic.Lib.Tactic

/-!
# The frame of the kernel program, at any float instance

The program is three stretches of host operations followed by one pipelined region over a grid of 256
points. The host operations only build the seven fused weight matrices (windows 1 to 7) out of the
fourteen weight arguments; none of them writes an argument array. The region streams the rows of the
first argument through the body in blocks of 4096 rows: at every point the body reads the eight input
blocks whole and overwrites the whole output block with one value computed from them (`out8`).

So the run terminates, every argument array ends as it started, and after the body at point `t` the
output window's buffer holds `out8` of the eight input blocks at `t`.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- What core `c`'s buffers hold when the region is entered: the launch memory folded through the three
    stretches of host operations, in order. -/
abbrev V (c : Dev nD) (b : Ref sig .tc) : Buf (Elt F) ((c : Thread nD τ).loc b) :=
  StableHlo.after (List.flatten [hostOps0, hostOps0_1, hostOps0_2]) (fun b => m (c, b)) b

/-- None of the host operations allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program up to its region: the three stretches, then the region's call. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.nary_writes, Finset.mem_singleton]
    repeat' apply And.intro
    all_goals exact StableHlo.devRef_ne_of_ne (by decide)))
/-- No host operation writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.nary_writes, Finset.mem_singleton]
    repeat' apply And.intro
    all_goals exact StableHlo.devRef_ne_of_ne (by decide)))
/-- No host operation writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.nary_writes, Finset.mem_singleton]
    repeat' apply And.intro
    all_goals exact StableHlo.devRef_ne_of_ne (by decide)))
/-- No host operation writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.nary_writes, Finset.mem_singleton]
    repeat' apply And.intro
    all_goals exact StableHlo.devRef_ne_of_ne (by decide)))
/-- No host operation writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.nary_writes, Finset.mem_singleton]
    repeat' apply And.intro
    all_goals exact StableHlo.devRef_ne_of_ne (by decide)))
/-- No host operation writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.nary_writes, Finset.mem_singleton]
    repeat' apply And.intro
    all_goals exact StableHlo.devRef_ne_of_ne (by decide)))
/-- No host operation writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.nary_writes, Finset.mem_singleton]
    repeat' apply And.intro
    all_goals exact StableHlo.devRef_ne_of_ne (by decide)))
/-- No host operation writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.nary_writes, Finset.mem_singleton]
    repeat' apply And.intro
    all_goals exact StableHlo.devRef_ne_of_ne (by decide)))
/-- No host operation writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.nary_writes, Finset.mem_singleton]
    repeat' apply And.intro
    all_goals exact StableHlo.devRef_ne_of_ne (by decide)))
/-- No host operation writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.nary_writes, Finset.mem_singleton]
    repeat' apply And.intro
    all_goals exact StableHlo.devRef_ne_of_ne (by decide)))
/-- No host operation writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.nary_writes, Finset.mem_singleton]
    repeat' apply And.intro
    all_goals exact StableHlo.devRef_ne_of_ne (by decide)))
/-- No host operation writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.nary_writes, Finset.mem_singleton]
    repeat' apply And.intro
    all_goals exact StableHlo.devRef_ne_of_ne (by decide)))
/-- No host operation writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.nary_writes, Finset.mem_singleton]
    repeat' apply And.intro
    all_goals exact StableHlo.devRef_ne_of_ne (by decide)))
/-- No host operation writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.nary_writes, Finset.mem_singleton]
    repeat' apply And.intro
    all_goals exact StableHlo.devRef_ne_of_ne (by decide)))
/-- No host operation writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not: unfetched, the block
    index has not moved since the fetch. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, fetched there or not: unfetched, the block
    index has not moved since the fetch. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, fetched there or not: unfetched, the block
    index has not moved since the fetch. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, fetched there or not: unfetched, the block
    index has not moved since the fetch. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, fetched there or not: unfetched, the block
    index has not moved since the fetch. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, fetched there or not: unfetched, the block
    index has not moved since the fetch. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block at every point, fetched there or not: unfetched, the block
    index has not moved since the fetch. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current buffer holds its block at every point, fetched there or not: unfetched, the block
    index has not moved since the fetch. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The argument arrays at the end, from the library's post of the run -/

/-- A final state the library's post holds of has the fifteen argument arrays as launched: the first argument is window
    0's array, an input the pipeline only reads; the other fourteen are staged by no window and end as the region found
    them; and no host operation wrote any of the fifteen. -/
theorem kept_args_of (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14) :=
  ⟨((h c).1 0).trans (((dats 0 c).arrAt_in 0 rfl _).trans ((hA c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    ((h c).2 main_arg14 (Pipeline.mem_restRefs_of main_arg14 (by decide) (by decide))).trans (V_main_arg14 m c)⟩

/-- So a run to the library's post is a run to the frame's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => kept_args_of m dats hA r h c) h

/-! ## What the body leaves in the output window's buffer -/

/-- The whole output block. -/
abbrev rOut : Rect S4096x6 := Rect.unit (s := S4096x6) ![0, 0] S4096x6.size inb_S4096x6_S4096x6_0_0

/-- The output block after the body, from the eight input blocks: the one store, of the value the body computes
    from the inputs read whole, over the whole block. -/
def out8 (x0 : Vec F S4096x98 .f32) (w1 : Vec F S71x128 .f32) (w2 : Vec F S128x128 .f32) (w3 : Vec F S128x34 .f32)
    (w4 : Vec F S57x128 .f32) (w5 : Vec F S128x128 .f32) (w6 : Vec F S128x128 .f32) (w7 : Vec F S128x6 .f32) : Vec F S4096x6 .f32 :=
  let a0 := View.ld x0 (Rect.unit (s := S4096x98) ![0, 0] S4096x98.size inb_S4096x98_S4096x98_0_0)
  let a1 := View.ld w1 (Rect.unit (s := S71x128) ![0, 0] S71x128.size inb_S71x128_S71x128_0_0)
  let a2 := View.ld w2 (Rect.unit (s := S128x128) ![0, 0] S128x128.size inb_S128x128_S128x128_0_0)
  let a3 := View.ld w3 (Rect.unit (s := S128x34) ![0, 0] S128x34.size inb_S128x34_S128x34_0_0)
  let a4 := View.ld w4 (Rect.unit (s := S57x128) ![0, 0] S57x128.size inb_S57x128_S57x128_0_0)
  let a5 := View.ld w5 (Rect.unit (s := S128x128) ![0, 0] S128x128.size inb_S128x128_S128x128_0_0)
  let a6 := View.ld w6 (Rect.unit (s := S128x128) ![0, 0] S128x128.size inb_S128x128_S128x128_0_0)
  let a7 := View.ld w7 (Rect.unit (s := S128x6) ![0, 0] S128x6.size inb_S128x6_S128x6_0_0)
  View.canon [⟨rOut, k0_pay1 (k0_pay6 a0 a1 a2 a3)
    (k0_pay14 (k0_pay9 a0 a1 a2 a3) (k0_pay11 a0 a1 a2 a3) (k0_pay12 a0 a1 a2 a3) (k0_pay13 a0 a1 a2 a3))
    (k0_pay15 (k0_pay5 a0 a1 a2 a3))
    (k0_pay16 (k0_pay2 a0) (k0_pay5 a0 a1 a2 a3) (k0_pay7 a0 a1 a2 a3) a4 a5 a6 a7)
    (k0_pay17 (k0_pay2 a0) (k0_pay5 a0 a1 a2 a3) (k0_pay7 a0 a1 a2 a3) a4 a5 a6 a7)⟩]

/-- The one store covers the block. -/
theorem cover8 (p0 : Vec F S4096x6 .f32) (y : S4096x6.Idx) :
    ∃ pc ∈ ([⟨rOut, p0⟩] : List (View.Piece (Elt F) S4096x6 .f32)), y ∈ pc.1.set :=
  View.cover_of_tiled [⟨rOut, p0⟩] S4096x6.size (by rfl) y

/-! ## The body's triple -/

set_option maxHeartbeats 4000000 in
/-- The body on whole buffers: the inputs' contents known, the output's anything. It reads, stores once, and returns
    the inputs' buffers as they were and the output's at `out8` of the inputs. -/
theorem sound_kernel (c : Dev nD) (E : Set ℕ) (i : grid0.Coords)
    (arg0 : Memref sig .tc .vmem S4096x98 .f32) (harg0 : arg0.IsWhole)
    (arg1 : Memref sig .tc .vmem S71x128 .f32) (harg1 : arg1.IsWhole)
    (arg2 : Memref sig .tc .vmem S128x128 .f32) (harg2 : arg2.IsWhole)
    (arg3 : Memref sig .tc .vmem S128x34 .f32) (harg3 : arg3.IsWhole)
    (arg4 : Memref sig .tc .vmem S57x128 .f32) (harg4 : arg4.IsWhole)
    (arg5 : Memref sig .tc .vmem S128x128 .f32) (harg5 : arg5.IsWhole)
    (arg6 : Memref sig .tc .vmem S128x128 .f32) (harg6 : arg6.IsWhole)
    (arg7 : Memref sig .tc .vmem S128x6 .f32) (harg7 : arg7.IsWhole)
    (arg8 : Memref sig .tc .vmem S4096x6 .f32) (harg8 : arg8.IsWhole)
    (x0 : Vec F S4096x98 .f32) (x1 : Vec F S71x128 .f32) (x2 : Vec F S128x128 .f32) (x3 : Vec F S128x34 .f32) (x4 : Vec F S57x128 .f32) (x5 : Vec F S128x128 .f32) (x6 : Vec F S128x128 .f32) (x7 : Vec F S128x6 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out8 x0 x1 x2 x3 x4 x5 x6 x7)) -∗ K ⟨⟩))
      ⊢ wp frame (wpE (defs₀ (F := F)) Variants.none c none) E (cc0__kernel i arg0 harg0 arg1 harg1 arg2 harg2 arg3 harg3 arg4 harg4 arg5 harg5 arg6 harg6 arg7 harg7 arg8 harg8) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover8 _)

/-! ## The pipeline's proof data -/

/-- The proof data on core `c`: the arrays as the region finds them; after the body at point `t` each input's buffer
    at its block and the output's at `out8` of the input blocks; nothing carried between points, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
/-- After the body at point `t` the output window's buffer holds `out8` of the eight input blocks at `t`. -/
theorem after0_8 (c : Dev nD) (t : Fin cfg0.N) : (dats m 0 c).after 8 t
    = out8 (iblk m c 0 t) (iblk m c 1 t) (iblk m c 2 t) (iblk m c 3 t) (iblk m c 4 t) (iblk m c 5 t) (iblk m c 6 t) (iblk m c 7 t) := by
  dsimp only [dats]

/-- The same of this proof data: in any final state its post holds of, the fifteen argument arrays are as launched. -/
theorem kept_args (r : PUnit × MemSt nD τ sig (Elt F)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14) :=
  kept_args_of m (dats m) (A_eq m) r h c

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' buffers hold their blocks, so the triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution on the TensorCores terminates, and at the end every
    array of the pipeline holds what the library computes from the proof data and every other unscoped buffer what the
    region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its fifteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Hand

end
-- ==== Proof.BlockReads.lean ====
/-
  Where the region's blocks sit in their arrays. The grid has 256 points; at point `t` the input window reads rows
  `4096 t … 4096 t + 4095` of the first argument (all 98 columns), the output window writes the same rows of the
  result (all 6 columns), and each of the seven weight windows reads its whole matrix. The 256 output blocks tile
  the result array: row `r` lies in the block of point `r / 4096`.
-/
import proofs.«168278_j48120813584957_2_alg».proof.Proof.FrameIdeal
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided once over the 256 points: the input and the output window move down the rows
    with the point, and every weight window stays at block (0, 0). -/
theorem idx_facts : ∀ t : Fin cfg0.N,
    win0_0.index t (0 : Fin 2) = t.val ∧ win0_0.index t (1 : Fin 2) = 0
    ∧ win0_8.index t (0 : Fin 2) = t.val ∧ win0_8.index t (1 : Fin 2) = 0
    ∧ (∀ a : Fin 2, win0_1.index t a = 0) ∧ (∀ a : Fin 2, win0_2.index t a = 0) ∧ (∀ a : Fin 2, win0_3.index t a = 0)
    ∧ (∀ a : Fin 2, win0_4.index t a = 0) ∧ (∀ a : Fin 2, win0_5.index t a = 0) ∧ (∀ a : Fin 2, win0_6.index t a = 0)
    ∧ (∀ a : Fin 2, win0_7.index t a = 0) :=
  (by decide +kernel : ∀ t : Fin grid0.N, _)

/-- The input window's block at point `t` is rows `4096 t …` of the first argument as the region finds it. -/
theorem xblk_apply (c : Dev nD) (t : Fin cfg0.N) (p : Fin 4096) (k : Fin 98) (r : Fin 1048576)
    (hr : r.val = t.val * 4096 + p.val) :
    (iblk m c 0 t : Vec Ideal S4096x98 .f32) (ix2 p k) = (V m c main_arg0 : S1048576x98.Idx → Elt Ideal .f32) (ix2 r k) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 4096 + 1 * p.val = r.val; rw [e0, hr]; omega
  | ⟨1, _⟩ => show win0_0.index t (1 : Fin 2) * 98 + 1 * k.val = k.val; rw [e1]; omega

/-- Window 1's block is the whole matrix at every point: its block index is (0, 0). -/
theorem wblk1_apply (c : Dev nD) (t : Fin cfg0.N) (k : Fin 71) (j : Fin 128) :
    (iblk m c 1 t : Vec Ideal S71x128 .f32) (ix2 k j) = (V m c main_v36 : S71x128.Idx → Elt Ideal .f32) (ix2 k j) := by
  obtain ⟨-, -, -, -, e, -, -, -, -, -, -⟩ := idx_facts t
  unfold iblk
  rw [View.read_apply]
  show V m c main_v36 _ = V m c main_v36 _
  congr 1
  funext a
  apply Fin.ext
  match a with
  | ⟨0, _⟩ => show win0_1.index t (0 : Fin 2) * 71 + 1 * k.val = k.val; rw [e 0]; omega
  | ⟨1, _⟩ => show win0_1.index t (1 : Fin 2) * 128 + 1 * j.val = j.val; rw [e 1]; omega

/-- Window 2's block is the whole matrix at every point: its block index is (0, 0). -/
theorem wblk2_apply (c : Dev nD) (t : Fin cfg0.N) (k : Fin 128) (j : Fin 128) :
    (iblk m c 2 t : Vec Ideal S128x128 .f32) (ix2 k j) = (V m c main_v37 : S128x128.Idx → Elt Ideal .f32) (ix2 k j) := by
  obtain ⟨-, -, -, -, -, e, -, -, -, -, -⟩ := idx_facts t
  unfold iblk
  rw [View.read_apply]
  show V m c main_v37 _ = V m c main_v37 _
  congr 1
  funext a
  apply Fin.ext
  match a with
  | ⟨0, _⟩ => show win0_2.index t (0 : Fin 2) * 128 + 1 * k.val = k.val; rw [e 0]; omega
  | ⟨1, _⟩ => show win0_2.index t (1 : Fin 2) * 128 + 1 * j.val = j.val; rw [e 1]; omega

/-- Window 3's block is the whole matrix at every point: its block index is (0, 0). -/
theorem wblk3_apply (c : Dev nD) (t : Fin cfg0.N) (k : Fin 128) (j : Fin 34) :
    (iblk m c 3 t : Vec Ideal S128x34 .f32) (ix2 k j) = (V m c main_v38 : S128x34.Idx → Elt Ideal .f32) (ix2 k j) := by
  obtain ⟨-, -, -, -, -, -, e, -, -, -, -⟩ := idx_facts t
  unfold iblk
  rw [View.read_apply]
  show V m c main_v38 _ = V m c main_v38 _
  congr 1
  funext a
  apply Fin.ext
  match a with
  | ⟨0, _⟩ => show win0_3.index t (0 : Fin 2) * 128 + 1 * k.val = k.val; rw [e 0]; omega
  | ⟨1, _⟩ => show win0_3.index t (1 : Fin 2) * 34 + 1 * j.val = j.val; rw [e 1]; omega

/-- Window 4's block is the whole matrix at every point: its block index is (0, 0). -/
theorem wblk4_apply (c : Dev nD) (t : Fin cfg0.N) (k : Fin 57) (j : Fin 128) :
    (iblk m c 4 t : Vec Ideal S57x128 .f32) (ix2 k j) = (V m c main_v39 : S57x128.Idx → Elt Ideal .f32) (ix2 k j) := by
  obtain ⟨-, -, -, -, -, -, -, e, -, -, -⟩ := idx_facts t
  unfold iblk
  rw [View.read_apply]
  show V m c main_v39 _ = V m c main_v39 _
  congr 1
  funext a
  apply Fin.ext
  match a with
  | ⟨0, _⟩ => show win0_4.index t (0 : Fin 2) * 57 + 1 * k.val = k.val; rw [e 0]; omega
  | ⟨1, _⟩ => show win0_4.index t (1 : Fin 2) * 128 + 1 * j.val = j.val; rw [e 1]; omega

/-- Window 5's block is the whole matrix at every point: its block index is (0, 0). -/
theorem wblk5_apply (c : Dev nD) (t : Fin cfg0.N) (k : Fin 128) (j : Fin 128) :
    (iblk m c 5 t : Vec Ideal S128x128 .f32) (ix2 k j) = (V m c main_v40 : S128x128.Idx → Elt Ideal .f32) (ix2 k j) := by
  obtain ⟨-, -, -, -, -, -, -, -, e, -, -⟩ := idx_facts t
  unfold iblk
  rw [View.read_apply]
  show V m c main_v40 _ = V m c main_v40 _
  congr 1
  funext a
  apply Fin.ext
  match a with
  | ⟨0, _⟩ => show win0_5.index t (0 : Fin 2) * 128 + 1 * k.val = k.val; rw [e 0]; omega
  | ⟨1, _⟩ => show win0_5.index t (1 : Fin 2) * 128 + 1 * j.val = j.val; rw [e 1]; omega

/-- Window 6's block is the whole matrix at every point: its block index is (0, 0). -/
theorem wblk6_apply (c : Dev nD) (t : Fin cfg0.N) (k : Fin 128) (j : Fin 128) :
    (iblk m c 6 t : Vec Ideal S128x128 .f32) (ix2 k j) = (V m c main_v41 : S128x128.Idx → Elt Ideal .f32) (ix2 k j) := by
  obtain ⟨-, -, -, -, -, -, -, -, -, e, -⟩ := idx_facts t
  unfold iblk
  rw [View.read_apply]
  show V m c main_v41 _ = V m c main_v41 _
  congr 1
  funext a
  apply Fin.ext
  match a with
  | ⟨0, _⟩ => show win0_6.index t (0 : Fin 2) * 128 + 1 * k.val = k.val; rw [e 0]; omega
  | ⟨1, _⟩ => show win0_6.index t (1 : Fin 2) * 128 + 1 * j.val = j.val; rw [e 1]; omega

/-- Window 7's block is the whole matrix at every point: its block index is (0, 0). -/
theorem wblk7_apply (c : Dev nD) (t : Fin cfg0.N) (k : Fin 128) (j : Fin 6) :
    (iblk m c 7 t : Vec Ideal S128x6 .f32) (ix2 k j) = (V m c main_v42 : S128x6.Idx → Elt Ideal .f32) (ix2 k j) := by
  obtain ⟨-, -, -, -, -, -, -, -, -, -, e⟩ := idx_facts t
  unfold iblk
  rw [View.read_apply]
  show V m c main_v42 _ = V m c main_v42 _
  congr 1
  funext a
  apply Fin.ext
  match a with
  | ⟨0, _⟩ => show win0_7.index t (0 : Fin 2) * 128 + 1 * k.val = k.val; rw [e 0]; omega
  | ⟨1, _⟩ => show win0_7.index t (1 : Fin 2) * 6 + 1 * j.val = j.val; rw [e 1]; omega

/-- An index of the result array is in point `t`'s block iff each coordinate is in the block's range on its axis. -/
theorem mem_blk8 (t : Fin cfg0.N) (i : S1048576x6.Idx) :
    i ∈ ((cfg0.win 8).blk t).view.set ↔ ∀ a : Fin 2, win0_8.index t a * S4096x6.size a ≤ (i a).val ∧ (i a).val < win0_8.index t a * S4096x6.size a + S4096x6.size a := by
  show i ∈ ((View.whole main_v43).slice (win0_8.rect t)).set ↔ _
  rw [View.set_slice_whole, Rect.mem_set_unit]
  exact Iff.rfl

/-- The output blocks tile the result array: row `r` is in the block of point `r / 4096`. -/
theorem rows_tiled (i : S1048576x6.Idx) :
    ∃ t : Fin cfg0.N, (cfg0.win 8).flush t = true ∧ i ∈ ((cfg0.win 8).blk t).view.set := by
  have hi0 : (i 0).val < 1048576 := (i 0).isLt
  have hi1 : (i 1).val < 6 := (i 1).isLt
  have hN : cfg0.N = 256 := N_0
  have hlt : (i 0).val / 4096 < cfg0.N := by rw [hN]; omega
  refine ⟨⟨(i 0).val / 4096, hlt⟩, flush0_8 _, ?_⟩
  rw [mem_blk8]
  obtain ⟨-, -, e0, e1, -⟩ := idx_facts ⟨(i 0).val / 4096, hlt⟩
  intro a
  match a with
  | ⟨0, _⟩ =>
    show win0_8.index ⟨(i 0).val / 4096, hlt⟩ (0 : Fin 2) * 4096 ≤ (i 0).val ∧ (i 0).val < win0_8.index ⟨(i 0).val / 4096, hlt⟩ (0 : Fin 2) * 4096 + 4096
    rw [e0]; show (i 0).val / 4096 * 4096 ≤ (i 0).val ∧ (i 0).val < (i 0).val / 4096 * 4096 + 4096; omega
  | ⟨1, _⟩ =>
    show win0_8.index ⟨(i 0).val / 4096, hlt⟩ (1 : Fin 2) * 6 ≤ (i 1).val ∧ (i 1).val < win0_8.index ⟨(i 0).val / 4096, hlt⟩ (1 : Fin 2) * 6 + 6
    rw [e1]; omega

end Cert.KernelIdeal.HandValue

end
-- ==== Proof.Nets.lean ====
/-
  The mathematics of this certificate, stated once over the extended reals with no program in sight.

  A row of the input holds 71 point features followed by 27 view features. Two small networks — a background one,
  which sees only the first 63 point features, and a foreground one, which sees all 71 — each map the point features
  through three dense layers (rectifiers between) to 17 numbers: a density logit, an uncertainty logit and 15
  geometry features; the geometry features are joined to the view features and mapped through four more dense layers
  to a colour. The result blends the two colours by the softplus densities.

  `refRow` is that description read literally (two separate networks, weights in [out, in] layout).
  `kernelRow` is ONE network of twice the width over seven weight matrices in [in, out] layout; with the matrices
  built from the two networks' weights as `stackT`, `blockDiagT` and `colorInT` describe (a row stack whose
  background half ignores the last eight inputs, block-diagonal matrices, and a first colour layer whose two halves
  read their own geometry features) it computes the same row: every extra term is a product with an exact zero.
-/
import Idealize.ShloMosaic.PureOps.Ideal
import Idealize.ShloMosaic.PureOps.Ideal.Laws
import Idealize.ShloMosaic.Lib.ValueIdx

noncomputable section

namespace Cert.Nets

open Idealize.ShloMosaic

/-- A dense layer with weights in [out, in] layout: entry `j` is the sum over the inputs `k` of `a k * W j k`. -/
def dense {N K : ℕ} (W : Fin N → Fin K → EReal) (a : Fin K → EReal) (j : Fin N) : EReal := ∑ k, a k * W j k

/-- The same layer with the weights stored transposed, in [in, out] layout. -/
def denseT {N K : ℕ} (W : Fin K → Fin N → EReal) (a : Fin K → EReal) (j : Fin N) : EReal := ∑ k, a k * W k j

/-- The rectifier, entry by entry. -/
def relu {N : ℕ} (v : Fin N → EReal) (j : Fin N) : EReal := max (v j) 0

/-- Softplus as both programs compute it: the larger of `a` and `0`, plus `log (1 + exp (-|a|))`. -/
def softplus (a : EReal) : EReal := max a 0 + Ideal.log1p (Ideal.exp (-(max a (-a))))

/-- The spelling with `a - 0` under the absolute value and the negation written as a subtraction from zero. -/
theorem softplus_of_sub (a : EReal) :
    max a 0 + Ideal.log1p (Ideal.exp (0 - max (a - 0) (-(a - 0)))) = softplus a := by
  simp only [softplus, sub_zero, zero_sub]

/-- The spelling with `a - 0` under the absolute value and a negation. -/
theorem softplus_of_neg (a : EReal) :
    max a 0 + Ideal.log1p (Ideal.exp (-(max (a - 0) (-(a - 0))))) = softplus a := by
  simp only [softplus, sub_zero]

/-- The small constant both programs add to the total density: the same binary word on both sides. -/
def eps : EReal := Ideal.ofBits .f32 0x3089705F#32

/-- The six results of a row from the two densities, the foreground uncertainty and the two colours:
    the density-weighted blend of the colours, the total density, the uncertainty, the foreground density. -/
def blend (bσ fσ fu : EReal) (bcol fcol : Fin 3 → EReal) (q : Fin 6) : EReal :=
  if h : q.val < 3 then
    Ideal.div bσ (bσ + fσ + eps) * bcol ⟨q.val, h⟩ + Ideal.div fσ (bσ + fσ + eps) * fcol ⟨q.val, h⟩
  else if q.val = 3 then bσ + fσ + eps
  else if q.val = 4 then fu
  else fσ

/-! ## Two separate networks -/

/-- The three-layer density network: 17 numbers from the point features. -/
def sigmaNet {K0 : ℕ} (s0 : Fin 64 → Fin K0 → EReal) (s1 : Fin 64 → Fin 64 → EReal) (s2 : Fin 17 → Fin 64 → EReal)
    (pts : Fin K0 → EReal) : Fin 17 → EReal :=
  dense s2 (relu (dense s1 (relu (dense s0 pts))))

/-- The colour network's input: the 27 view features, then geometry features 2..16 of the density network's output. -/
def colorIn (views : Fin 27 → EReal) (h : Fin 17 → EReal) (i : Fin 42) : EReal :=
  if hi : i.val < 27 then views ⟨i.val, hi⟩ else h ⟨2 + (i.val - 27), by omega⟩

/-- The four-layer colour network. -/
def colorNet (c0 : Fin 64 → Fin 42 → EReal) (c1 c2 : Fin 64 → Fin 64 → EReal) (c3 : Fin 3 → Fin 64 → EReal)
    (cin : Fin 42 → EReal) : Fin 3 → EReal :=
  dense c3 (relu (dense c2 (relu (dense c1 (relu (dense c0 cin))))))

/-- The first 71 entries of a row. -/
def ptsOf (x : Fin 98 → EReal) (k : Fin 71) : EReal := x ⟨k.val, by omega⟩
/-- The first 63 entries of a row. -/
def xyzOf (x : Fin 98 → EReal) (k : Fin 63) : EReal := x ⟨k.val, by omega⟩
/-- The last 27 entries of a row. -/
def viewsOf (x : Fin 98 → EReal) (v : Fin 27) : EReal := x ⟨71 + v.val, by omega⟩

/-- One row of the result, by the two separate networks. -/
def refRow (x : Fin 98 → EReal)
    (bs0 : Fin 64 → Fin 63 → EReal) (bs1 : Fin 64 → Fin 64 → EReal) (bs2 : Fin 17 → Fin 64 → EReal)
    (bc0 : Fin 64 → Fin 42 → EReal) (bc1 bc2 : Fin 64 → Fin 64 → EReal) (bc3 : Fin 3 → Fin 64 → EReal)
    (fs0 : Fin 64 → Fin 71 → EReal) (fs1 : Fin 64 → Fin 64 → EReal) (fs2 : Fin 17 → Fin 64 → EReal)
    (fc0 : Fin 64 → Fin 42 → EReal) (fc1 fc2 : Fin 64 → Fin 64 → EReal) (fc3 : Fin 3 → Fin 64 → EReal)
    (q : Fin 6) : EReal :=
  blend (softplus (sigmaNet bs0 bs1 bs2 (xyzOf x) 0)) (softplus (sigmaNet fs0 fs1 fs2 (ptsOf x) 0))
    (softplus (sigmaNet fs0 fs1 fs2 (ptsOf x) 1))
    (colorNet bc0 bc1 bc2 bc3 (colorIn (viewsOf x) (sigmaNet bs0 bs1 bs2 (xyzOf x))))
    (colorNet fc0 fc1 fc2 fc3 (colorIn (viewsOf x) (sigmaNet fs0 fs1 fs2 (ptsOf x)))) q

/-! ## One network of twice the width -/

/-- The wide colour input: the 27 view features, geometry features 2..16 of the first half of the density layer's 34
    outputs, then geometry features 2..16 of its second half (entries 19..33). -/
def wideColorIn (views : Fin 27 → EReal) (h : Fin 34 → EReal) (i : Fin 57) : EReal :=
  if hi : i.val < 27 then views ⟨i.val, hi⟩
  else if hi2 : i.val < 42 then h ⟨2 + (i.val - 27), by omega⟩
  else h ⟨19 + (i.val - 42), by omega⟩

/-- One row of the result, by the wide network over seven [in, out] weight matrices. -/
def kernelRow (x : Fin 98 → EReal)
    (Ws0 : Fin 71 → Fin 128 → EReal) (Ws1 : Fin 128 → Fin 128 → EReal) (Ws2 : Fin 128 → Fin 34 → EReal)
    (Wc0 : Fin 57 → Fin 128 → EReal) (Wc1 Wc2 : Fin 128 → Fin 128 → EReal) (Wc3 : Fin 128 → Fin 6 → EReal)
    (q : Fin 6) : EReal :=
  blend (softplus (denseT Ws2 (relu (denseT Ws1 (relu (denseT Ws0 (ptsOf x))))) ⟨0, by omega⟩))
    (softplus (denseT Ws2 (relu (denseT Ws1 (relu (denseT Ws0 (ptsOf x))))) ⟨17, by omega⟩))
    (softplus (denseT Ws2 (relu (denseT Ws1 (relu (denseT Ws0 (ptsOf x))))) ⟨18, by omega⟩))
    (fun p => denseT Wc3 (relu (denseT Wc2 (relu (denseT Wc1 (relu (denseT Wc0
      (wideColorIn (viewsOf x) (denseT Ws2 (relu (denseT Ws1 (relu (denseT Ws0 (ptsOf x)))))))))))))
      ⟨p.val, by omega⟩)
    (fun p => denseT Wc3 (relu (denseT Wc2 (relu (denseT Wc1 (relu (denseT Wc0
      (wideColorIn (viewsOf x) (denseT Ws2 (relu (denseT Ws1 (relu (denseT Ws0 (ptsOf x)))))))))))))
      ⟨3 + p.val, by omega⟩) q

/-! ## The wide network's matrices from the two networks' weights -/

/-- The first density layer, transposed: output `j < 64` is the background row `j`, which has weights for the first 63
    inputs only (zero on the last eight); output `64 + j` is the foreground row `j`. -/
def stackT (b : Fin 64 → Fin 63 → EReal) (f : Fin 64 → Fin 71 → EReal) (k : Fin 71) (j : Fin 128) : EReal :=
  if hj : j.val < 64 then (if hk : k.val < 63 then b ⟨j.val, hj⟩ ⟨k.val, hk⟩ else 0)
  else f ⟨j.val - 64, by omega⟩ k

/-- A block-diagonal matrix, transposed: over inputs `0..A-1 | A..2A-1` and outputs `0..B-1 | B..2B-1`, the first
    block is `b`, the second `f`, and the two off-diagonal blocks are zero. Stated over any index bounds `NA`, `NB`
    (used at `NA = 2A`, `NB = 2B`), total by answering zero outside. -/
def blockDiagT {A B : ℕ} (NA NB : ℕ) (b f : Fin B → Fin A → EReal) (k : Fin NA) (j : Fin NB) : EReal :=
  if hj : j.val < B then (if hk : k.val < A then b ⟨j.val, hj⟩ ⟨k.val, hk⟩ else 0)
  else if hj2 : j.val - B < B then
    (if hk : A ≤ k.val ∧ k.val - A < A then f ⟨j.val - B, hj2⟩ ⟨k.val - A, hk.2⟩ else 0)
  else 0

/-- The first colour layer, transposed, over the wide colour input (27 views, 15 background geometry, 15 foreground
    geometry): a background output reads the views and the background geometry with its own 42 weights and ignores the
    foreground geometry; a foreground output reads the views, ignores the background geometry, and reads the
    foreground geometry with its weights 27..41. -/
def colorInT (b f : Fin 64 → Fin 42 → EReal) (i : Fin 57) (j : Fin 128) : EReal :=
  if hj : j.val < 64 then (if hi : i.val < 42 then b ⟨j.val, hj⟩ ⟨i.val, hi⟩ else 0)
  else if hi : i.val < 27 then f ⟨j.val - 64, by omega⟩ ⟨i.val, by omega⟩
  else if hi2 : i.val < 42 then 0
  else f ⟨j.val - 64, by omega⟩ ⟨i.val - 15, by omega⟩

/-! ## Whole arrays -/

open ValueIdx in
/-- A matrix stored as an array over a rank-2 shape, as a function of its two coordinates. -/
def mat {a b : ℕ} (A : (⟨2, ![a, b]⟩ : Shape).Idx → EReal) (i : Fin a) (j : Fin b) : EReal := A (ix2 i j)

open ValueIdx in
/-- Row `r` of the input array. -/
def rowOf {n : ℕ} (X : (⟨2, ![n, 98]⟩ : Shape).Idx → EReal) (r : Fin n) (k : Fin 98) : EReal := X (ix2 r k)

/-- THE RESULT as one function of the fifteen argument arrays, index by index: entry `(r, q)` is `refRow` of row `r`. -/
def G (X : (⟨2, ![1048576, 98]⟩ : Shape).Idx → EReal)
    (bs0 : (⟨2, ![64, 63]⟩ : Shape).Idx → EReal) (bs1 : (⟨2, ![64, 64]⟩ : Shape).Idx → EReal)
    (bs2 : (⟨2, ![17, 64]⟩ : Shape).Idx → EReal) (bc0 : (⟨2, ![64, 42]⟩ : Shape).Idx → EReal)
    (bc1 bc2 : (⟨2, ![64, 64]⟩ : Shape).Idx → EReal) (bc3 : (⟨2, ![3, 64]⟩ : Shape).Idx → EReal)
    (fs0 : (⟨2, ![64, 71]⟩ : Shape).Idx → EReal) (fs1 : (⟨2, ![64, 64]⟩ : Shape).Idx → EReal)
    (fs2 : (⟨2, ![17, 64]⟩ : Shape).Idx → EReal) (fc0 : (⟨2, ![64, 42]⟩ : Shape).Idx → EReal)
    (fc1 fc2 : (⟨2, ![64, 64]⟩ : Shape).Idx → EReal) (fc3 : (⟨2, ![3, 64]⟩ : Shape).Idx → EReal) :
    (⟨2, ![1048576, 6]⟩ : Shape).Idx → EReal :=
  fun i => refRow (rowOf X (i 0)) (mat bs0) (mat bs1) (mat bs2) (mat bc0) (mat bc1) (mat bc2) (mat bc3)
    (mat fs0) (mat fs1) (mat fs2) (mat fc0) (mat fc1) (mat fc2) (mat fc3) (i 1)

end Cert.Nets

end
-- ==== Proof.PayLib.lean ====
/-
  The non-pointwise vector operations of the kernel body, each read at one index given by its row and column:
  the five matrix products into a zero accumulator as plain sums over the inner position, a rectified product,
  a column broadcast along the rows, and the softplus chain on a column vector.
-/
import proofs.«168278_j48120813584957_2_alg».proof.Proof.Gen.KernelIdeal
import Idealize.ShloMosaic.Lib.ValueLayout
import Idealize.ShloMosaic.PureOps.Ideal.Laws

noncomputable section

namespace Cert.KernelIdeal.Pay

open Idealize.ShloMosaic Idealize.ShloMosaic.ValueIdx
open scoped BigOperators

/-! ### A [4096, 71] block times a [71, 128] matrix -/

theorem mm_71_128_lhs0 (i : S4096x128.Idx) (q : dot_S4096x71_S71x128_S4096x128_1_0_0_1_n_n.contr.Idx) :
    (dot_S4096x71_S71x128_S4096x128_1_0_0_1_n_n.lhsIdx i q 0).val = (i 0).val := by
  unfold DotDims.lhsIdx
  rw [dif_neg (show ¬(0 : Fin S4096x71.rank) ∈ dot_S4096x71_S71x128_S4096x128_1_0_0_1_n_n.lhsBatch by decide),
    dif_pos (show (0 : Fin S4096x71.rank) ∈ dot_S4096x71_S71x128_S4096x128_1_0_0_1_n_n.lhsNonContracting by decide)]
  rfl
theorem mm_71_128_lhs1 (i : S4096x128.Idx) (q : dot_S4096x71_S71x128_S4096x128_1_0_0_1_n_n.contr.Idx) :
    (dot_S4096x71_S71x128_S4096x128_1_0_0_1_n_n.lhsIdx i q 1).val = (q ⟨0, by decide⟩).val :=
  dot_S4096x71_S71x128_S4096x128_1_0_0_1_n_n.lhsIdx_val_of_single rfl i q
theorem mm_71_128_rhs0 (i : S4096x128.Idx) (q : dot_S4096x71_S71x128_S4096x128_1_0_0_1_n_n.contr.Idx) :
    (dot_S4096x71_S71x128_S4096x128_1_0_0_1_n_n.rhsIdx i q 0).val = (q ⟨0, by decide⟩).val :=
  dot_S4096x71_S71x128_S4096x128_1_0_0_1_n_n.rhsIdx_val_of_single rfl i q
theorem mm_71_128_rhs1 (i : S4096x128.Idx) (q : dot_S4096x71_S71x128_S4096x128_1_0_0_1_n_n.contr.Idx) :
    (dot_S4096x71_S71x128_S4096x128_1_0_0_1_n_n.rhsIdx i q 1).val = (i 1).val := by
  unfold DotDims.rhsIdx
  rw [dif_neg (show ¬(1 : Fin S71x128.rank) ∈ dot_S4096x71_S71x128_S4096x128_1_0_0_1_n_n.rhsBatch by decide),
    dif_pos (show (1 : Fin S71x128.rank) ∈ dot_S4096x71_S71x128_S4096x128_1_0_0_1_n_n.rhsNonContracting by decide)]
  rfl

/-- The product into the zero accumulator, read at row `p` and column `j`: the sum over the 71 inner positions. -/
theorem mm_71_128 (A : FVec Ideal S4096x71 .f32) (B : FVec Ideal S71x128 .f32) (p : Fin 4096) (j : Fin 128) :
    matmul (F := Ideal) dot_S4096x71_S71x128_S4096x128_1_0_0_1_n_n (some .fp32) A B (constant (F := Ideal) S4096x128 .f32 0x00000000#32) (ix2 p j)
      = ∑ k : Fin 71, A (ix2 p k) * B (ix2 k j) := by
  simp only [matmul]
  rw [Ideal.matmul_constant_zero_apply, ← Equiv.sum_comp (contrEquiv1 dot_S4096x71_S71x128_S4096x128_1_0_0_1_n_n 71 rfl rfl).symm]
  refine Finset.sum_congr rfl fun k _ => ?_
  have hk := contrEquiv1_symm_val dot_S4096x71_S71x128_S4096x128_1_0_0_1_n_n 71 rfl rfl k
  have el : dot_S4096x71_S71x128_S4096x128_1_0_0_1_n_n.lhsIdx (ix2 p j) ((contrEquiv1 dot_S4096x71_S71x128_S4096x128_1_0_0_1_n_n 71 rfl rfl).symm k) = ix2 p k :=
    funext fun a => Fin.ext (by
      match a with
      | ⟨0, _⟩ => exact mm_71_128_lhs0 _ _
      | ⟨1, _⟩ => exact (mm_71_128_lhs1 _ _).trans hk)
  have er : dot_S4096x71_S71x128_S4096x128_1_0_0_1_n_n.rhsIdx (ix2 p j) ((contrEquiv1 dot_S4096x71_S71x128_S4096x128_1_0_0_1_n_n 71 rfl rfl).symm k) = ix2 k j :=
    funext fun a => Fin.ext (by
      match a with
      | ⟨0, _⟩ => exact (mm_71_128_rhs0 _ _).trans hk
      | ⟨1, _⟩ => exact mm_71_128_rhs1 _ _)
  rw [el, er]

/-! ### A [4096, 128] block times a [128, 128] matrix -/

theorem mm_128_128_lhs0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide),
    dif_pos (show (0 : Fin S4096x128.rank) ∈ dot_S4096x128_S128x128_S4096x128_1_0_0_1_n_n.lhsNonContracting by decide)]
  rfl
theorem mm_128_128_lhs1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem mm_128_128_rhs0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem mm_128_128_rhs1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide),
    dif_pos (show (1 : Fin S128x128.rank) ∈ dot_S4096x128_S128x128_S4096x128_1_0_0_1_n_n.rhsNonContracting by decide)]
  rfl

/-- The product into the zero accumulator, read at row `p` and column `j`: the sum over the 128 inner positions. -/
theorem mm_128_128 (A : FVec Ideal S4096x128 .f32) (B : FVec Ideal S128x128 .f32) (p : Fin 4096) (j : Fin 128) :
    matmul (F := Ideal) dot_S4096x128_S128x128_S4096x128_1_0_0_1_n_n (some .fp32) A B (constant (F := Ideal) S4096x128 .f32 0x00000000#32) (ix2 p j)
      = ∑ k : Fin 128, A (ix2 p k) * B (ix2 k j) := by
  simp only [matmul]
  rw [Ideal.matmul_constant_zero_apply, ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 p j) ((contrEquiv1 dot_S4096x128_S128x128_S4096x128_1_0_0_1_n_n 128 rfl rfl).symm k) = ix2 p k :=
    funext fun a => Fin.ext (by
      match a with
      | ⟨0, _⟩ => exact mm_128_128_lhs0 _ _
      | ⟨1, _⟩ => exact (mm_128_128_lhs1 _ _).trans hk)
  have er : dot_S4096x128_S128x128_S4096x128_1_0_0_1_n_n.rhsIdx (ix2 p j) ((contrEquiv1 dot_S4096x128_S128x128_S4096x128_1_0_0_1_n_n 128 rfl rfl).symm k) = ix2 k j :=
    funext fun a => Fin.ext (by
      match a with
      | ⟨0, _⟩ => exact (mm_128_128_rhs0 _ _).trans hk
      | ⟨1, _⟩ => exact mm_128_128_rhs1 _ _)
  rw [el, er]

/-! ### A [4096, 128] block times a [128, 34] matrix -/

theorem mm_128_34_lhs0 (i : S4096x34.Idx) (q : dot_S4096x128_S128x34_S4096x34_1_0_0_1_n_n.contr.Idx) :
    (dot_S4096x128_S128x34_S4096x34_1_0_0_1_n_n.lhsIdx i q 0).val = (i 0).val := by
  unfold DotDims.lhsIdx
  rw [dif_neg (show ¬(0 : Fin S4096x128.rank) ∈ dot_S4096x128_S128x34_S4096x34_1_0_0_1_n_n.lhsBatch by decide),
    dif_pos (show (0 : Fin S4096x128.rank) ∈ dot_S4096x128_S128x34_S4096x34_1_0_0_1_n_n.lhsNonContracting by decide)]
  rfl
theorem mm_128_34_lhs1 (i : S4096x34.Idx) (q : dot_S4096x128_S128x34_S4096x34_1_0_0_1_n_n.contr.Idx) :
    (dot_S4096x128_S128x34_S4096x34_1_0_0_1_n_n.lhsIdx i q 1).val = (q ⟨0, by decide⟩).val :=
  dot_S4096x128_S128x34_S4096x34_1_0_0_1_n_n.lhsIdx_val_of_single rfl i q
theorem mm_128_34_rhs0 (i : S4096x34.Idx) (q : dot_S4096x128_S128x34_S4096x34_1_0_0_1_n_n.contr.Idx) :
    (dot_S4096x128_S128x34_S4096x34_1_0_0_1_n_n.rhsIdx i q 0).val = (q ⟨0, by decide⟩).val :=
  dot_S4096x128_S128x34_S4096x34_1_0_0_1_n_n.rhsIdx_val_of_single rfl i q
theorem mm_128_34_rhs1 (i : S4096x34.Idx) (q : dot_S4096x128_S128x34_S4096x34_1_0_0_1_n_n.contr.Idx) :
    (dot_S4096x128_S128x34_S4096x34_1_0_0_1_n_n.rhsIdx i q 1).val = (i 1).val := by
  unfold DotDims.rhsIdx
  rw [dif_neg (show ¬(1 : Fin S128x34.rank) ∈ dot_S4096x128_S128x34_S4096x34_1_0_0_1_n_n.rhsBatch by decide),
    dif_pos (show (1 : Fin S128x34.rank) ∈ dot_S4096x128_S128x34_S4096x34_1_0_0_1_n_n.rhsNonContracting by decide)]
  rfl

/-- The product into the zero accumulator, read at row `p` and column `j`: the sum over the 128 inner positions. -/
theorem mm_128_34 (A : FVec Ideal S4096x128 .f32) (B : FVec Ideal S128x34 .f32) (p : Fin 4096) (j : Fin 34) :
    matmul (F := Ideal) dot_S4096x128_S128x34_S4096x34_1_0_0_1_n_n (some .fp32) A B (constant (F := Ideal) S4096x34 .f32 0x00000000#32) (ix2 p j)
      = ∑ k : Fin 128, A (ix2 p k) * B (ix2 k j) := by
  simp only [matmul]
  rw [Ideal.matmul_constant_zero_apply, ← Equiv.sum_comp (contrEquiv1 dot_S4096x128_S128x34_S4096x34_1_0_0_1_n_n 128 rfl rfl).symm]
  refine Finset.sum_congr rfl fun k _ => ?_
  have hk := contrEquiv1_symm_val dot_S4096x128_S128x34_S4096x34_1_0_0_1_n_n 128 rfl rfl k
  have el : dot_S4096x128_S128x34_S4096x34_1_0_0_1_n_n.lhsIdx (ix2 p j) ((contrEquiv1 dot_S4096x128_S128x34_S4096x34_1_0_0_1_n_n 128 rfl rfl).symm k) = ix2 p k :=
    funext fun a => Fin.ext (by
      match a with
      | ⟨0, _⟩ => exact mm_128_34_lhs0 _ _
      | ⟨1, _⟩ => exact (mm_128_34_lhs1 _ _).trans hk)
  have er : dot_S4096x128_S128x34_S4096x34_1_0_0_1_n_n.rhsIdx (ix2 p j) ((contrEquiv1 dot_S4096x128_S128x34_S4096x34_1_0_0_1_n_n 128 rfl rfl).symm k) = ix2 k j :=
    funext fun a => Fin.ext (by
      match a with
      | ⟨0, _⟩ => exact (mm_128_34_rhs0 _ _).trans hk
      | ⟨1, _⟩ => exact mm_128_34_rhs1 _ _)
  rw [el, er]

/-! ### A [4096, 57] block times a [57, 128] matrix -/

theorem mm_57_128_lhs0 (i : S4096x128.Idx) (q : dot_S4096x57_S57x128_S4096x128_1_0_0_1_n_n.contr.Idx) :
    (dot_S4096x57_S57x128_S4096x128_1_0_0_1_n_n.lhsIdx i q 0).val = (i 0).val := by
  unfold DotDims.lhsIdx
  rw [dif_neg (show ¬(0 : Fin S4096x57.rank) ∈ dot_S4096x57_S57x128_S4096x128_1_0_0_1_n_n.lhsBatch by decide),
    dif_pos (show (0 : Fin S4096x57.rank) ∈ dot_S4096x57_S57x128_S4096x128_1_0_0_1_n_n.lhsNonContracting by decide)]
  rfl
theorem mm_57_128_lhs1 (i : S4096x128.Idx) (q : dot_S4096x57_S57x128_S4096x128_1_0_0_1_n_n.contr.Idx) :
    (dot_S4096x57_S57x128_S4096x128_1_0_0_1_n_n.lhsIdx i q 1).val = (q ⟨0, by decide⟩).val :=
  dot_S4096x57_S57x128_S4096x128_1_0_0_1_n_n.lhsIdx_val_of_single rfl i q
theorem mm_57_128_rhs0 (i : S4096x128.Idx) (q : dot_S4096x57_S57x128_S4096x128_1_0_0_1_n_n.contr.Idx) :
    (dot_S4096x57_S57x128_S4096x128_1_0_0_1_n_n.rhsIdx i q 0).val = (q ⟨0, by decide⟩).val :=
  dot_S4096x57_S57x128_S4096x128_1_0_0_1_n_n.rhsIdx_val_of_single rfl i q
theorem mm_57_128_rhs1 (i : S4096x128.Idx) (q : dot_S4096x57_S57x128_S4096x128_1_0_0_1_n_n.contr.Idx) :
    (dot_S4096x57_S57x128_S4096x128_1_0_0_1_n_n.rhsIdx i q 1).val = (i 1).val := by
  unfold DotDims.rhsIdx
  rw [dif_neg (show ¬(1 : Fin S57x128.rank) ∈ dot_S4096x57_S57x128_S4096x128_1_0_0_1_n_n.rhsBatch by decide),
    dif_pos (show (1 : Fin S57x128.rank) ∈ dot_S4096x57_S57x128_S4096x128_1_0_0_1_n_n.rhsNonContracting by decide)]
  rfl

/-- The product into the zero accumulator, read at row `p` and column `j`: the sum over the 57 inner positions. -/
theorem mm_57_128 (A : FVec Ideal S4096x57 .f32) (B : FVec Ideal S57x128 .f32) (p : Fin 4096) (j : Fin 128) :
    matmul (F := Ideal) dot_S4096x57_S57x128_S4096x128_1_0_0_1_n_n (some .fp32) A B (constant (F := Ideal) S4096x128 .f32 0x00000000#32) (ix2 p j)
      = ∑ k : Fin 57, A (ix2 p k) * B (ix2 k j) := by
  simp only [matmul]
  rw [Ideal.matmul_constant_zero_apply, ← Equiv.sum_comp (contrEquiv1 dot_S4096x57_S57x128_S4096x128_1_0_0_1_n_n 57 rfl rfl).symm]
  refine Finset.sum_congr rfl fun k _ => ?_
  have hk := contrEquiv1_symm_val dot_S4096x57_S57x128_S4096x128_1_0_0_1_n_n 57 rfl rfl k
  have el : dot_S4096x57_S57x128_S4096x128_1_0_0_1_n_n.lhsIdx (ix2 p j) ((contrEquiv1 dot_S4096x57_S57x128_S4096x128_1_0_0_1_n_n 57 rfl rfl).symm k) = ix2 p k :=
    funext fun a => Fin.ext (by
      match a with
      | ⟨0, _⟩ => exact mm_57_128_lhs0 _ _
      | ⟨1, _⟩ => exact (mm_57_128_lhs1 _ _).trans hk)
  have er : dot_S4096x57_S57x128_S4096x128_1_0_0_1_n_n.rhsIdx (ix2 p j) ((contrEquiv1 dot_S4096x57_S57x128_S4096x128_1_0_0_1_n_n 57 rfl rfl).symm k) = ix2 k j :=
    funext fun a => Fin.ext (by
      match a with
      | ⟨0, _⟩ => exact (mm_57_128_rhs0 _ _).trans hk
      | ⟨1, _⟩ => exact mm_57_128_rhs1 _ _)
  rw [el, er]

/-! ### A [4096, 128] block times a [128, 6] matrix -/

theorem mm_128_6_lhs0 (i : S4096x6.Idx) (q : dot_S4096x128_S128x6_S4096x6_1_0_0_1_n_n.contr.Idx) :
    (dot_S4096x128_S128x6_S4096x6_1_0_0_1_n_n.lhsIdx i q 0).val = (i 0).val := by
  unfold DotDims.lhsIdx
  rw [dif_neg (show ¬(0 : Fin S4096x128.rank) ∈ dot_S4096x128_S128x6_S4096x6_1_0_0_1_n_n.lhsBatch by decide),
    dif_pos (show (0 : Fin S4096x128.rank) ∈ dot_S4096x128_S128x6_S4096x6_1_0_0_1_n_n.lhsNonContracting by decide)]
  rfl
theorem mm_128_6_lhs1 (i : S4096x6.Idx) (q : dot_S4096x128_S128x6_S4096x6_1_0_0_1_n_n.contr.Idx) :
    (dot_S4096x128_S128x6_S4096x6_1_0_0_1_n_n.lhsIdx i q 1).val = (q ⟨0, by decide⟩).val :=
  dot_S4096x128_S128x6_S4096x6_1_0_0_1_n_n.lhsIdx_val_of_single rfl i q
theorem mm_128_6_rhs0 (i : S4096x6.Idx) (q : dot_S4096x128_S128x6_S4096x6_1_0_0_1_n_n.contr.Idx) :
    (dot_S4096x128_S128x6_S4096x6_1_0_0_1_n_n.rhsIdx i q 0).val = (q ⟨0, by decide⟩).val :=
  dot_S4096x128_S128x6_S4096x6_1_0_0_1_n_n.rhsIdx_val_of_single rfl i q
theorem mm_128_6_rhs1 (i : S4096x6.Idx) (q : dot_S4096x128_S128x6_S4096x6_1_0_0_1_n_n.contr.Idx) :
    (dot_S4096x128_S128x6_S4096x6_1_0_0_1_n_n.rhsIdx i q 1).val = (i 1).val := by
  unfold DotDims.rhsIdx
  rw [dif_neg (show ¬(1 : Fin S128x6.rank) ∈ dot_S4096x128_S128x6_S4096x6_1_0_0_1_n_n.rhsBatch by decide),
    dif_pos (show (1 : Fin S128x6.rank) ∈ dot_S4096x128_S128x6_S4096x6_1_0_0_1_n_n.rhsNonContracting by decide)]
  rfl

/-- The product into the zero accumulator, read at row `p` and column `j`: the sum over the 128 inner positions. -/
theorem mm_128_6 (A : FVec Ideal S4096x128 .f32) (B : FVec Ideal S128x6 .f32) (p : Fin 4096) (j : Fin 6) :
    matmul (F := Ideal) dot_S4096x128_S128x6_S4096x6_1_0_0_1_n_n (some .fp32) A B (constant (F := Ideal) S4096x6 .f32 0x00000000#32) (ix2 p j)
      = ∑ k : Fin 128, A (ix2 p k) * B (ix2 k j) := by
  simp only [matmul]
  rw [Ideal.matmul_constant_zero_apply, ← Equiv.sum_comp (contrEquiv1 dot_S4096x128_S128x6_S4096x6_1_0_0_1_n_n 128 rfl rfl).symm]
  refine Finset.sum_congr rfl fun k _ => ?_
  have hk := contrEquiv1_symm_val dot_S4096x128_S128x6_S4096x6_1_0_0_1_n_n 128 rfl rfl k
  have el : dot_S4096x128_S128x6_S4096x6_1_0_0_1_n_n.lhsIdx (ix2 p j) ((contrEquiv1 dot_S4096x128_S128x6_S4096x6_1_0_0_1_n_n 128 rfl rfl).symm k) = ix2 p k :=
    funext fun a => Fin.ext (by
      match a with
      | ⟨0, _⟩ => exact mm_128_6_lhs0 _ _
      | ⟨1, _⟩ => exact (mm_128_6_lhs1 _ _).trans hk)
  have er : dot_S4096x128_S128x6_S4096x6_1_0_0_1_n_n.rhsIdx (ix2 p j) ((contrEquiv1 dot_S4096x128_S128x6_S4096x6_1_0_0_1_n_n 128 rfl rfl).symm k) = ix2 k j :=
    funext fun a => Fin.ext (by
      match a with
      | ⟨0, _⟩ => exact (mm_128_6_rhs0 _ _).trans hk
      | ⟨1, _⟩ => exact mm_128_6_rhs1 _ _)
  rw [el, er]

/-! ### Pointwise pieces -/

/-- The maximum with a broadcast zero word, at an index: the rectifier. -/
theorem relu_apply {s : Shape} (v : FVec Ideal s .f32) (i : s.Idx) :
    maximumf v (broadcast s (Scalar.ofBits (F := Ideal) .f32 0x00000000#32)) i = max (v i) 0 := by
  show max (v i) (Ideal.ofBits .f32 0x00000000#32) = _
  rw [Ideal.ofBits_zero_f32]

/-- A [4096, 1] column broadcast to [4096, 3] reads, at `(p, c)`, the column's entry of row `p`. -/
theorem broadcastTo_col3_apply {α : Type} (v : S4096x1.Idx → α) (h : S4096x1.Broadcasts S4096x3) (p : Fin 4096) (c : Fin 3) :
    broadcastTo S4096x3 v h (ix2 p c) = v (ix2 p (0 : Fin 1)) := by
  refine broadcastTo_apply v h (ix2 p c) (ix2 p (0 : Fin 1)) fun ax => ?_
  match ax with
  | ⟨0, _⟩ => rfl
  | ⟨1, _⟩ => rfl

/-! ### The two concatenations along the columns -/

/-- Three pieces of 27, 15 and 15 columns side by side, read at `(p, i)`: whatever function of the column the three
    pieces are known to be on their own spans. -/
theorem cat57_apply (v2 : S4096x27.Idx → EReal) (v33 v64 : S4096x15.Idx → EReal)
    (h : Shape.Concatenates [S4096x27, S4096x15, S4096x15] S4096x57 1) (p : Fin 4096) (i : Fin 57) (cin : Fin 57 → EReal)
    (h2 : ∀ v : Fin 27, v2 (ix2 p v) = cin ⟨v.val, by omega⟩)
    (h33 : ∀ g : Fin 15, v33 (ix2 p g) = cin ⟨27 + g.val, by omega⟩)
    (h64 : ∀ g : Fin 15, v64 (ix2 p g) = cin ⟨42 + g.val, by omega⟩) :
    concatenate S4096x57 1 [⟨S4096x27, v2⟩, ⟨S4096x15, v33⟩, ⟨S4096x15, v64⟩] h (ix2 p i) = cin i := by
  by_cases c1 : i.val < 27
  · refine (concatenate_apply_piece (t := S4096x57) 1 ([⟨S4096x27, v2⟩, ⟨S4096x15, v33⟩, ⟨S4096x15, v64⟩] : List ((s : Shape) × (s.Idx → EReal))) h (ix2 p i) 0 (by show (0 : ℕ) < 3; omega) S4096x27 v2 rfl rfl 0 rfl (ix2 p ⟨i.val, c1⟩)
      (fun b hb => ?_) (Nat.zero_add _)).trans (h2 ⟨i.val, c1⟩)
    match b with
    | ⟨0, _⟩ => rfl
    | ⟨1, _⟩ => exact (hb (Fin.ext rfl)).elim
  · by_cases c2 : i.val < 42
    · have hlt : i.val - 27 < 15 := by omega
      refine (concatenate_apply_piece (t := S4096x57) 1 ([⟨S4096x27, v2⟩, ⟨S4096x15, v33⟩, ⟨S4096x15, v64⟩] : List ((s : Shape) × (s.Idx → EReal))) h (ix2 p i) 1 (by show (1 : ℕ) < 3; omega) S4096x15 v33 rfl rfl 27 rfl (ix2 p ⟨i.val - 27, hlt⟩)
        (fun b hb => ?_) (by show 27 + (i.val - 27) = i.val; omega)).trans
        ((h33 ⟨i.val - 27, hlt⟩).trans (congrArg cin (Fin.ext (by show 27 + (i.val - 27) = i.val; omega))))
      match b with
      | ⟨0, _⟩ => rfl
      | ⟨1, _⟩ => exact (hb (Fin.ext rfl)).elim
    · have hi := i.isLt
      have hlt : i.val - 42 < 15 := by omega
      refine (concatenate_apply_piece (t := S4096x57) 1 ([⟨S4096x27, v2⟩, ⟨S4096x15, v33⟩, ⟨S4096x15, v64⟩] : List ((s : Shape) × (s.Idx → EReal))) h (ix2 p i) 2 (by show (2 : ℕ) < 3; omega) S4096x15 v64 rfl rfl 42 rfl (ix2 p ⟨i.val - 42, hlt⟩)
        (fun b hb => ?_) (by show 42 + (i.val - 42) = i.val; omega)).trans
        ((h64 ⟨i.val - 42, hlt⟩).trans (congrArg cin (Fin.ext (by show 42 + (i.val - 42) = i.val; omega))))
      match b with
      | ⟨0, _⟩ => rfl
      | ⟨1, _⟩ => exact (hb (Fin.ext rfl)).elim

/-- Four pieces of 3, 1, 1 and 1 columns side by side, read at `(p, q)`: the first piece on columns 0..2, then the
    three single columns. -/
theorem cat6_apply (a3 : S4096x3.Idx → EReal) (b1 c1 d1 : S4096x1.Idx → EReal)
    (h : Shape.Concatenates [S4096x3, S4096x1, S4096x1, S4096x1] S4096x6 1) (p : Fin 4096) (q : Fin 6) :
    concatenate S4096x6 1 [⟨S4096x3, a3⟩, ⟨S4096x1, b1⟩, ⟨S4096x1, c1⟩, ⟨S4096x1, d1⟩] h (ix2 p q)
      = if hq : q.val < 3 then a3 (ix2 p ⟨q.val, hq⟩)
        else if q.val = 3 then b1 (ix2 p (0 : Fin 1))
        else if q.val = 4 then c1 (ix2 p (0 : Fin 1))
        else d1 (ix2 p (0 : Fin 1)) := by
  have hq6 := q.isLt
  by_cases c0 : q.val < 3
  · rw [dif_pos c0]
    refine concatenate_apply_piece (t := S4096x6) 1 ([⟨S4096x3, a3⟩, ⟨S4096x1, b1⟩, ⟨S4096x1, c1⟩, ⟨S4096x1, d1⟩] : List ((s : Shape) × (s.Idx → EReal))) h (ix2 p q) 0 (by show (0 : ℕ) < 4; omega) S4096x3 a3 rfl rfl 0 rfl (ix2 p ⟨q.val, c0⟩)
      (fun b hb => ?_) (Nat.zero_add _)
    match b with
    | ⟨0, _⟩ => rfl
    | ⟨1, _⟩ => exact (hb (Fin.ext rfl)).elim
  · rw [dif_neg c0]
    by_cases c3 : q.val = 3
    · rw [if_pos c3]
      refine concatenate_apply_piece (t := S4096x6) 1 ([⟨S4096x3, a3⟩, ⟨S4096x1, b1⟩, ⟨S4096x1, c1⟩, ⟨S4096x1, d1⟩] : List ((s : Shape) × (s.Idx → EReal))) h (ix2 p q) 1 (by show (1 : ℕ) < 4; omega) S4096x1 b1 rfl rfl 3 rfl (ix2 p (0 : Fin 1))
        (fun b hb => ?_) (by show 3 + 0 = q.val; omega)
      match b with
      | ⟨0, _⟩ => rfl
      | ⟨1, _⟩ => exact (hb (Fin.ext rfl)).elim
    · rw [if_neg c3]
      by_cases c4 : q.val = 4
      · rw [if_pos c4]
        refine concatenate_apply_piece (t := S4096x6) 1 ([⟨S4096x3, a3⟩, ⟨S4096x1, b1⟩, ⟨S4096x1, c1⟩, ⟨S4096x1, d1⟩] : List ((s : Shape) × (s.Idx → EReal))) h (ix2 p q) 2 (by show (2 : ℕ) < 4; omega) S4096x1 c1 rfl rfl 4 rfl (ix2 p (0 : Fin 1))
          (fun b hb => ?_) (by show 4 + 0 = q.val; omega)
        match b with
        | ⟨0, _⟩ => rfl
        | ⟨1, _⟩ => exact (hb (Fin.ext rfl)).elim
      · rw [if_neg c4]
        refine concatenate_apply_piece (t := S4096x6) 1 ([⟨S4096x3, a3⟩, ⟨S4096x1, b1⟩, ⟨S4096x1, c1⟩, ⟨S4096x1, d1⟩] : List ((s : Shape) × (s.Idx → EReal))) h (ix2 p q) 3 (by show (3 : ℕ) < 4; omega) S4096x1 d1 rfl rfl 5 rfl (ix2 p (0 : Fin 1))
          (fun b hb => ?_) (by show 5 + 0 = q.val; omega)
        match b with
        | ⟨0, _⟩ => rfl
        | ⟨1, _⟩ => exact (hb (Fin.ext rfl)).elim

end Cert.KernelIdeal.Pay

end
-- ==== Proof.Pay1.lean ====
/-
  The density half of the kernel body read at one row: the first 71 columns of the loaded block through three dense
  layers (rectifiers between) give the row's 34 density-layer outputs; the two halves of 17, their single columns and
  their geometry columns are entries of those 34 numbers; each softplus chain on a single column is the softplus of
  that entry.
-/
import proofs.«168278_j48120813584957_2_alg».proof.Proof.Gen.KernelIdeal.Skeleton
import proofs.«168278_j48120813584957_2_alg».proof.Proof.Nets
import proofs.«168278_j48120813584957_2_alg».proof.Proof.PayLib

noncomputable section

namespace Cert.KernelIdeal.Pay

open Idealize.ShloMosaic Idealize.ShloMosaic.ValueIdx Cert.Nets
open scoped BigOperators

/-! ### Dense layers on the rows of a block -/

/-- A [71, 128] dense layer applied to every row of a block, read at row `p`, output `j`: the layer applied to that row. -/
theorem lin_71_128 (A : FVec Ideal S4096x71 .f32) (W : FVec Ideal S71x128 .f32) (h : S71x128.ShapeCasts S71x128)
    (p : Fin 4096) (j : Fin 128) (a : Fin 71 → EReal) (ha : ∀ k, A (ix2 p k) = a k) :
    matmul (F := Ideal) dot_S4096x71_S71x128_S4096x128_1_0_0_1_n_n (some .fp32) A (shapeCast S71x128 W h)
      (constant (F := Ideal) S4096x128 .f32 0x00000000#32) (ix2 p j) = denseT (mat W) a j := by
  have e : shapeCast S71x128 W h = W := shapeCast_self W h
  rw [e]
  refine (mm_71_128 A W p j).trans ?_
  exact Finset.sum_congr rfl fun k _ => by rw [ha k]; rfl

/-- The same layer followed by the rectifier. -/
theorem relu_71_128 (A : FVec Ideal S4096x71 .f32) (W : FVec Ideal S71x128 .f32) (h : S71x128.ShapeCasts S71x128)
    (p : Fin 4096) (j : Fin 128) (a : Fin 71 → EReal) (ha : ∀ k, A (ix2 p k) = a k) :
    maximumf (matmul (F := Ideal) dot_S4096x71_S71x128_S4096x128_1_0_0_1_n_n (some .fp32) A (shapeCast S71x128 W h)
      (constant (F := Ideal) S4096x128 .f32 0x00000000#32))
      (broadcast S4096x128 (Scalar.ofBits (F := Ideal) .f32 0x00000000#32)) (ix2 p j) = relu (denseT (mat W) a) j :=
  (relu_apply _ _).trans (congrArg (fun t => max t 0) (lin_71_128 A W h p j a ha))

/-- A [128, 128] dense layer applied to every row of a block, read at row `p`, output `j`: the layer applied to that row. -/
theorem lin_128_128 (A : FVec Ideal S4096x128 .f32) (W : FVec Ideal S128x128 .f32) (h : S128x128.ShapeCasts S128x128)
    (p : Fin 4096) (j : Fin 128) (a : Fin 128 → EReal) (ha : ∀ k, A (ix2 p k) = a k) :
    matmul (F := Ideal) dot_S4096x128_S128x128_S4096x128_1_0_0_1_n_n (some .fp32) A (shapeCast S128x128 W h)
      (constant (F := Ideal) S4096x128 .f32 0x00000000#32) (ix2 p j) = denseT (mat W) a j := by
  have e : shapeCast S128x128 W h = W := shapeCast_self W h
  rw [e]
  refine (mm_128_128 A W p j).trans ?_
  exact Finset.sum_congr rfl fun k _ => by rw [ha k]; rfl

/-- The same layer followed by the rectifier. -/
theorem relu_128_128 (A : FVec Ideal S4096x128 .f32) (W : FVec Ideal S128x128 .f32) (h : S128x128.ShapeCasts S128x128)
    (p : Fin 4096) (j : Fin 128) (a : Fin 128 → EReal) (ha : ∀ k, A (ix2 p k) = a k) :
    maximumf (matmul (F := Ideal) dot_S4096x128_S128x128_S4096x128_1_0_0_1_n_n (some .fp32) A (shapeCast S128x128 W h)
      (constant (F := Ideal) S4096x128 .f32 0x00000000#32))
      (broadcast S4096x128 (Scalar.ofBits (F := Ideal) .f32 0x00000000#32)) (ix2 p j) = relu (denseT (mat W) a) j :=
  (relu_apply _ _).trans (congrArg (fun t => max t 0) (lin_128_128 A W h p j a ha))

/-- A [128, 34] dense layer applied to every row of a block, read at row `p`, output `j`: the layer applied to that row. -/
theorem lin_128_34 (A : FVec Ideal S4096x128 .f32) (W : FVec Ideal S128x34 .f32) (h : S128x34.ShapeCasts S128x34)
    (p : Fin 4096) (j : Fin 34) (a : Fin 128 → EReal) (ha : ∀ k, A (ix2 p k) = a k) :
    matmul (F := Ideal) dot_S4096x128_S128x34_S4096x34_1_0_0_1_n_n (some .fp32) A (shapeCast S128x34 W h)
      (constant (F := Ideal) S4096x34 .f32 0x00000000#32) (ix2 p j) = denseT (mat W) a j := by
  have e : shapeCast S128x34 W h = W := shapeCast_self W h
  rw [e]
  refine (mm_128_34 A W p j).trans ?_
  exact Finset.sum_congr rfl fun k _ => by rw [ha k]; rfl

/-- A [57, 128] dense layer applied to every row of a block, read at row `p`, output `j`: the layer applied to that row. -/
theorem lin_57_128 (A : FVec Ideal S4096x57 .f32) (W : FVec Ideal S57x128 .f32) (h : S57x128.ShapeCasts S57x128)
    (p : Fin 4096) (j : Fin 128) (a : Fin 57 → EReal) (ha : ∀ k, A (ix2 p k) = a k) :
    matmul (F := Ideal) dot_S4096x57_S57x128_S4096x128_1_0_0_1_n_n (some .fp32) A (shapeCast S57x128 W h)
      (constant (F := Ideal) S4096x128 .f32 0x00000000#32) (ix2 p j) = denseT (mat W) a j := by
  have e : shapeCast S57x128 W h = W := shapeCast_self W h
  rw [e]
  refine (mm_57_128 A W p j).trans ?_
  exact Finset.sum_congr rfl fun k _ => by rw [ha k]; rfl

/-- The same layer followed by the rectifier. -/
theorem relu_57_128 (A : FVec Ideal S4096x57 .f32) (W : FVec Ideal S57x128 .f32) (h : S57x128.ShapeCasts S57x128)
    (p : Fin 4096) (j : Fin 128) (a : Fin 57 → EReal) (ha : ∀ k, A (ix2 p k) = a k) :
    maximumf (matmul (F := Ideal) dot_S4096x57_S57x128_S4096x128_1_0_0_1_n_n (some .fp32) A (shapeCast S57x128 W h)
      (constant (F := Ideal) S4096x128 .f32 0x00000000#32))
      (broadcast S4096x128 (Scalar.ofBits (F := Ideal) .f32 0x00000000#32)) (ix2 p j) = relu (denseT (mat W) a) j :=
  (relu_apply _ _).trans (congrArg (fun t => max t 0) (lin_57_128 A W h p j a ha))

/-- A [128, 6] dense layer applied to every row of a block, read at row `p`, output `j`: the layer applied to that row. -/
theorem lin_128_6 (A : FVec Ideal S4096x128 .f32) (W : FVec Ideal S128x6 .f32) (h : S128x6.ShapeCasts S128x6)
    (p : Fin 4096) (j : Fin 6) (a : Fin 128 → EReal) (ha : ∀ k, A (ix2 p k) = a k) :
    matmul (F := Ideal) dot_S4096x128_S128x6_S4096x6_1_0_0_1_n_n (some .fp32) A (shapeCast S128x6 W h)
      (constant (F := Ideal) S4096x6 .f32 0x00000000#32) (ix2 p j) = denseT (mat W) a j := by
  have e : shapeCast S128x6 W h = W := shapeCast_self W h
  rw [e]
  refine (mm_128_6 A W p j).trans ?_
  exact Finset.sum_congr rfl fun k _ => by rw [ha k]; rfl

/-! ### The softplus chain on a column -/

/-- Comparing an extended real with itself for "not equal" answers the zero bit. -/
theorem cmp_one_self (d : EReal) : Ideal.cmp .one d d = 0#1 := by
  show BitVec.ofBool (decide (d ≠ d)) = 0#1
  rw [decide_eq_false (fun hne => hne rfl)]
  rfl

/-- The chain the body applies to a column `c` — the larger of `c` and `0`, plus `log (1 + exp (-|c - 0|))`, selected
    against `c + 0` where `c - 0` differs from itself (nowhere) — is, entry by entry, the softplus. -/
theorem softplus_chain (c : FVec Ideal S4096x1 .f32) (i : S4096x1.Idx) :
    select (cmpf .one (subf c (broadcast S4096x1 (Scalar.ofBits (F := Ideal) .f32 0x00000000#32)))
        (subf c (broadcast S4096x1 (Scalar.ofBits (F := Ideal) .f32 0x00000000#32))))
      (addf c (broadcast S4096x1 (Scalar.ofBits (F := Ideal) .f32 0x00000000#32)))
      (addf (maximumf c (broadcast S4096x1 (Scalar.ofBits (F := Ideal) .f32 0x00000000#32)))
        (log1p (exp (subf (broadcast S4096x1 (Scalar.ofBits (F := Ideal) .f32 0x00000000#32))
          (absf (subf c (broadcast S4096x1 (Scalar.ofBits (F := Ideal) .f32 0x00000000#32)))))))) i
      = softplus (c i) := by
  show Scalar.select (Ideal.cmp .one (c i - Ideal.ofBits .f32 0x00000000#32) (c i - Ideal.ofBits .f32 0x00000000#32))
      (c i + Ideal.ofBits .f32 0x00000000#32)
      (max (c i) (Ideal.ofBits .f32 0x00000000#32) + Ideal.log1p (Ideal.exp (Ideal.ofBits .f32 0x00000000#32
        - max (c i - Ideal.ofBits .f32 0x00000000#32) (-(c i - Ideal.ofBits .f32 0x00000000#32))))) = _
  rw [cmp_one_self, select_zero, Ideal.ofBits_zero_f32]
  exact softplus_of_sub (c i)

/-! ### The density layer's outputs for a row -/

/-- The 34 outputs of the density layer for one row: three dense layers on the row's 71 point features. -/
def hid (x : Fin 98 → EReal) (W1 : Fin 71 → Fin 128 → EReal) (W2 : Fin 128 → Fin 128 → EReal)
    (W3 : Fin 128 → Fin 34 → EReal) : Fin 34 → EReal :=
  denseT W3 (relu (denseT W2 (relu (denseT W1 (ptsOf x)))))

section
variable (x0 : Vec Ideal S4096x98 .f32) (w1 : Vec Ideal S71x128 .f32) (w2 : Vec Ideal S128x128 .f32)
  (w3 : Vec Ideal S128x34 .f32) (p : Fin 4096)

/-- Columns 0..70 of the loaded block at row `p` are the row's point features. -/
theorem pts_apply (h : S4096x98.Slices ![0, 0] S4096x71) (k : Fin 71) :
    extractStridedSlice S4096x71 ![0, 0] x0 h (ix2 p k) = ptsOf (rowOf x0 p) k :=
  slice2_axis1_apply 0 x0 h p k (⟨k.val, by omega⟩ : Fin 98) (Nat.zero_add _).symm

/-- Columns 71..97 of the loaded block at row `p` are the row's view features. -/
theorem pay2_apply (v : Fin 27) : Gen.k0_pay2 (F := Ideal) x0 (ix2 p v) = viewsOf (rowOf x0 p) v := by
  unfold Gen.k0_pay2
  exact slice2_axis1_apply 71 x0 _ p v (⟨71 + v.val, by omega⟩ : Fin 98) rfl

/-- The third product of the body at `(p, j)`: output `j` of the density layer for row `p`. -/
theorem pay3_apply (j : Fin 34) :
    Gen.k0_pay3 (F := Ideal) x0 w1 w2 w3 (ix2 p j) = hid (rowOf x0 p) (mat w1) (mat w2) (mat w3) j := by
  unfold Gen.k0_pay3 hid
  refine lin_128_34 _ w3 _ p j _ fun k2 => ?_
  refine relu_128_128 _ w2 _ p k2 _ fun k1 => ?_
  refine relu_71_128 _ w1 _ p k1 _ fun k0 => ?_
  exact pts_apply x0 p _ k0

/-- The first half of the 34 outputs. -/
theorem pay4_apply (j : Fin 17) :
    Gen.k0_pay4 (F := Ideal) x0 w1 w2 w3 (ix2 p j) = hid (rowOf x0 p) (mat w1) (mat w2) (mat w3) ⟨j.val, by omega⟩ := by
  unfold Gen.k0_pay4
  refine (slice2_axis1_apply 0 _ _ p j (⟨j.val, by omega⟩ : Fin 34) (Nat.zero_add _).symm).trans ?_
  exact pay3_apply x0 w1 w2 w3 p _

/-- The second half of the 34 outputs. -/
theorem pay5_apply (j : Fin 17) :
    Gen.k0_pay5 (F := Ideal) x0 w1 w2 w3 (ix2 p j) = hid (rowOf x0 p) (mat w1) (mat w2) (mat w3) ⟨17 + j.val, by omega⟩ := by
  unfold Gen.k0_pay5
  exact (slice2_axis1_apply 17 _ _ p j (⟨17 + j.val, by omega⟩ : Fin 34) rfl).trans (pay3_apply x0 w1 w2 w3 p _)

/-- The background density: the softplus of output 0. -/
theorem pay6_apply (c : Fin 1) :
    Gen.k0_pay6 (F := Ideal) x0 w1 w2 w3 (ix2 p c) = softplus (hid (rowOf x0 p) (mat w1) (mat w2) (mat w3) ⟨0, by omega⟩) := by
  obtain rfl : c = 0 := Subsingleton.elim _ _
  unfold Gen.k0_pay6
  refine (softplus_chain _ _).trans (congrArg softplus ?_)
  exact (slice2_axis1_apply 0 _ _ p (0 : Fin 1) (⟨0, by omega⟩ : Fin 17) rfl).trans (pay4_apply x0 w1 w2 w3 p _)

/-- The background geometry features: outputs 2..16. -/
theorem pay7_apply (g : Fin 15) :
    Gen.k0_pay7 (F := Ideal) x0 w1 w2 w3 (ix2 p g) = hid (rowOf x0 p) (mat w1) (mat w2) (mat w3) ⟨2 + g.val, by omega⟩ := by
  unfold Gen.k0_pay7
  exact (slice2_axis1_apply 2 _ _ p g (⟨2 + g.val, by omega⟩ : Fin 17) rfl).trans (pay4_apply x0 w1 w2 w3 p _)

/-- The foreground density logit: output 17. -/
theorem pay8_apply (c : Fin 1) :
    Gen.k0_pay8 (F := Ideal) x0 w1 w2 w3 (ix2 p c) = hid (rowOf x0 p) (mat w1) (mat w2) (mat w3) ⟨17, by omega⟩ := by
  obtain rfl : c = 0 := Subsingleton.elim _ _
  unfold Gen.k0_pay8
  exact (slice2_axis1_apply 0 _ _ p (0 : Fin 1) (⟨0, by omega⟩ : Fin 17) rfl).trans (pay5_apply x0 w1 w2 w3 p _)

/-- The foreground density: the softplus of output 17, assembled from the pieces the two parts of the body pass on. -/
theorem fsigma_apply (c : Fin 1) :
    Gen.k0_pay14 (F := Ideal) (Gen.k0_pay9 x0 w1 w2 w3) (Gen.k0_pay11 x0 w1 w2 w3) (Gen.k0_pay12 x0 w1 w2 w3)
      (Gen.k0_pay13 x0 w1 w2 w3) (ix2 p c) = softplus (hid (rowOf x0 p) (mat w1) (mat w2) (mat w3) ⟨17, by omega⟩) := by
  unfold Gen.k0_pay14 Gen.k0_pay9 Gen.k0_pay11 Gen.k0_pay12 Gen.k0_pay13 Gen.k0_pay10
  exact (softplus_chain (Gen.k0_pay8 x0 w1 w2 w3) _).trans (congrArg softplus (pay8_apply x0 w1 w2 w3 p c))

/-- The foreground uncertainty: the softplus of output 18. -/
theorem pay15_apply (c : Fin 1) :
    Gen.k0_pay15 (F := Ideal) (Gen.k0_pay5 x0 w1 w2 w3) (ix2 p c)
      = softplus (hid (rowOf x0 p) (mat w1) (mat w2) (mat w3) ⟨18, by omega⟩) := by
  obtain rfl : c = 0 := Subsingleton.elim _ _
  unfold Gen.k0_pay15
  refine (softplus_chain _ _).trans (congrArg softplus ?_)
  exact (slice2_axis1_apply 1 _ _ p (0 : Fin 1) (⟨1, by omega⟩ : Fin 17) rfl).trans (pay5_apply x0 w1 w2 w3 p _)

end

end Cert.KernelIdeal.Pay

end
-- ==== Proof.Pay2.lean ====
/-
  The colour half of the kernel body and the stored value, read at one row: the view columns, the background geometry
  columns and the foreground geometry columns side by side are the wide colour input; four dense layers (rectifiers
  between) give six numbers, the two colours; the stored row is the density-weighted blend of the colours, the total
  density, the uncertainty and the foreground density.
-/
import proofs.«168278_j48120813584957_2_alg».proof.Proof.Pay1

noncomputable section

namespace Cert.KernelIdeal.Pay

open Idealize.ShloMosaic Idealize.ShloMosaic.ValueIdx Cert.Nets
open scoped BigOperators

/-- The six outputs of the colour network for one row's wide colour input. -/
def col (cin : Fin 57 → EReal) (W4 : Fin 57 → Fin 128 → EReal) (W5 W6 : Fin 128 → Fin 128 → EReal)
    (W7 : Fin 128 → Fin 6 → EReal) : Fin 6 → EReal :=
  denseT W7 (relu (denseT W6 (relu (denseT W5 (relu (denseT W4 cin))))))

/-- The last product of the body at `(p, q)`: output `q` of the colour network on the row's wide colour input, whatever
    the three pieces of that input are known to be at row `p`. -/
theorem pay16_apply (v2 : FVec Ideal S4096x27 .f32) (v17 : FVec Ideal S4096x17 .f32) (v33 : FVec Ideal S4096x15 .f32)
    (w4 : Vec Ideal S57x128 .f32) (w5 w6 : Vec Ideal S128x128 .f32) (w7 : Vec Ideal S128x6 .f32)
    (p : Fin 4096) (q : Fin 6) (cin : Fin 57 → EReal)
    (h2 : ∀ v : Fin 27, v2 (ix2 p v) = cin ⟨v.val, by omega⟩)
    (h33 : ∀ g : Fin 15, v33 (ix2 p g) = cin ⟨27 + g.val, by omega⟩)
    (h17 : ∀ g : Fin 15, v17 (ix2 p (⟨2 + g.val, by omega⟩ : Fin 17)) = cin ⟨42 + g.val, by omega⟩) :
    Gen.k0_pay16 (F := Ideal) v2 v17 v33 w4 w5 w6 w7 (ix2 p q) = col cin (mat w4) (mat w5) (mat w6) (mat w7) q := by
  unfold Gen.k0_pay16 col
  refine lin_128_6 _ w7 _ p q _ fun k3 => ?_
  refine relu_128_128 _ w6 _ p k3 _ fun k2 => ?_
  refine relu_128_128 _ w5 _ p k2 _ fun k1 => ?_
  refine relu_57_128 _ w4 _ p k1 _ fun i => ?_
  refine cat57_apply v2 v33 _ _ p i cin h2 h33 fun g => ?_
  exact (slice2_axis1_apply 2 v17 _ p g (⟨2 + g.val, by omega⟩ : Fin 17) rfl).trans (h17 g)

/-- The first three of the six colour outputs. -/
theorem pay17_apply (v2 : FVec Ideal S4096x27 .f32) (v17 : FVec Ideal S4096x17 .f32) (v33 : FVec Ideal S4096x15 .f32)
    (w4 : Vec Ideal S57x128 .f32) (w5 w6 : Vec Ideal S128x128 .f32) (w7 : Vec Ideal S128x6 .f32)
    (p : Fin 4096) (c : Fin 3) :
    Gen.k0_pay17 (F := Ideal) v2 v17 v33 w4 w5 w6 w7 (ix2 p c)
      = Gen.k0_pay16 (F := Ideal) v2 v17 v33 w4 w5 w6 w7 (ix2 p (⟨c.val, by omega⟩ : Fin 6)) := by
  unfold Gen.k0_pay17
  exact slice2_axis1_apply 0 _ _ p c (⟨c.val, by omega⟩ : Fin 6) (Nat.zero_add _).symm

/-- The stored value at `(p, q)` from what its five operands are at row `p`: the blend. -/
theorem pay1_apply (v32 v48 v63 : FVec Ideal S4096x1 .f32) (v83 : FVec Ideal S4096x6 .f32) (v84 : FVec Ideal S4096x3 .f32)
    (p : Fin 4096) (q : Fin 6) (bσ fσ fu : EReal) (bcol fcol : Fin 3 → EReal)
    (hb : v32 (ix2 p (0 : Fin 1)) = bσ) (hf : v48 (ix2 p (0 : Fin 1)) = fσ) (hu : v63 (ix2 p (0 : Fin 1)) = fu)
    (hbc : ∀ c : Fin 3, v84 (ix2 p c) = bcol c)
    (hfc : ∀ c : Fin 3, v83 (ix2 p (⟨3 + c.val, by omega⟩ : Fin 6)) = fcol c) :
    Gen.k0_pay1 (F := Ideal) v32 v48 v63 v83 v84 (ix2 p q) = blend bσ fσ fu bcol fcol q := by
  unfold Gen.k0_pay1
  refine (cat6_apply _ _ _ _ _ p q).trans ?_
  unfold blend
  by_cases c0 : q.val < 3
  · rw [dif_pos c0, dif_pos c0]
    have e85 : extractStridedSlice S4096x3 ![0, 3] v83 Gen.slices_S4096x6_o0_3_S4096x3 (ix2 p (⟨q.val, c0⟩ : Fin 3))
        = fcol ⟨q.val, c0⟩ :=
      (slice2_axis1_apply 3 v83 _ p (⟨q.val, c0⟩ : Fin 3) (⟨3 + q.val, by omega⟩ : Fin 6) rfl).trans (hfc ⟨q.val, c0⟩)
    show broadcastTo S4096x3 _ Gen.broadcasts_S4096x1_S4096x3 (ix2 p (⟨q.val, c0⟩ : Fin 3)) * v84 (ix2 p ⟨q.val, c0⟩)
        + broadcastTo S4096x3 _ Gen.broadcasts_S4096x1_S4096x3 (ix2 p (⟨q.val, c0⟩ : Fin 3))
          * extractStridedSlice S4096x3 ![0, 3] v83 Gen.slices_S4096x6_o0_3_S4096x3 (ix2 p (⟨q.val, c0⟩ : Fin 3)) = _
    rw [broadcastTo_col3_apply, broadcastTo_col3_apply, e85, hbc]
    show Ideal.div (v32 (ix2 p (0 : Fin 1))) (v32 (ix2 p (0 : Fin 1)) + v48 (ix2 p (0 : Fin 1)) + eps) * _
        + Ideal.div (v48 (ix2 p (0 : Fin 1))) (v32 (ix2 p (0 : Fin 1)) + v48 (ix2 p (0 : Fin 1)) + eps) * _ = _
    rw [hb, hf]
  · rw [dif_neg c0, dif_neg c0]
    by_cases c3 : q.val = 3
    · rw [if_pos c3, if_pos c3]
      show v32 (ix2 p (0 : Fin 1)) + v48 (ix2 p (0 : Fin 1)) + eps = _
      rw [hb, hf]
    · rw [if_neg c3, if_neg c3]
      by_cases c4 : q.val = 4
      · rw [if_pos c4, if_pos c4]; exact hu
      · rw [if_neg c4, if_neg c4]; exact hf

/-- The value the body stores, as one function of the eight loaded blocks. -/
def pay {F : FTy → Type} [FloatOps F] (x0 : Vec F S4096x98 .f32) (w1 : Vec F S71x128 .f32) (w2 : Vec F S128x128 .f32)
    (w3 : Vec F S128x34 .f32) (w4 : Vec F S57x128 .f32) (w5 w6 : Vec F S128x128 .f32) (w7 : Vec F S128x6 .f32) :
    FVec F S4096x6 .f32 :=
  Gen.k0_pay1 (Gen.k0_pay6 x0 w1 w2 w3)
    (Gen.k0_pay14 (Gen.k0_pay9 x0 w1 w2 w3) (Gen.k0_pay11 x0 w1 w2 w3) (Gen.k0_pay12 x0 w1 w2 w3) (Gen.k0_pay13 x0 w1 w2 w3))
    (Gen.k0_pay15 (Gen.k0_pay5 x0 w1 w2 w3))
    (Gen.k0_pay16 (Gen.k0_pay2 x0) (Gen.k0_pay5 x0 w1 w2 w3) (Gen.k0_pay7 x0 w1 w2 w3) w4 w5 w6 w7)
    (Gen.k0_pay17 (Gen.k0_pay2 x0) (Gen.k0_pay5 x0 w1 w2 w3) (Gen.k0_pay7 x0 w1 w2 w3) w4 w5 w6 w7)

/-- THE STORED VALUE AT `(p, q)`: entry `q` of the wide network's result for row `p` of the loaded block. -/
theorem pay_apply (x0 : Vec Ideal S4096x98 .f32) (w1 : Vec Ideal S71x128 .f32) (w2 : Vec Ideal S128x128 .f32)
    (w3 : Vec Ideal S128x34 .f32) (w4 : Vec Ideal S57x128 .f32) (w5 w6 : Vec Ideal S128x128 .f32)
    (w7 : Vec Ideal S128x6 .f32) (p : Fin 4096) (q : Fin 6) :
    pay (F := Ideal) x0 w1 w2 w3 w4 w5 w6 w7 (ValueIdx.ix2 p q)
      = Cert.Nets.kernelRow (Cert.Nets.rowOf x0 p) (Cert.Nets.mat w1) (Cert.Nets.mat w2) (Cert.Nets.mat w3)
          (Cert.Nets.mat w4) (Cert.Nets.mat w5) (Cert.Nets.mat w6) (Cert.Nets.mat w7) q := by
  have hcol : ∀ q' : Fin 6,
      Gen.k0_pay16 (F := Ideal) (Gen.k0_pay2 x0) (Gen.k0_pay5 x0 w1 w2 w3) (Gen.k0_pay7 x0 w1 w2 w3) w4 w5 w6 w7 (ix2 p q')
        = col (wideColorIn (viewsOf (rowOf x0 p)) (hid (rowOf x0 p) (mat w1) (mat w2) (mat w3)))
            (mat w4) (mat w5) (mat w6) (mat w7) q' := fun q' =>
    pay16_apply _ _ _ w4 w5 w6 w7 p q' _
      (fun v => (pay2_apply x0 p v).trans (by
        unfold wideColorIn; rw [dif_pos (show (⟨v.val, by omega⟩ : Fin 57).val < 27 from v.isLt)]))
      (fun g => (pay7_apply x0 w1 w2 w3 p g).trans (by
        unfold wideColorIn
        rw [dif_neg (show ¬ (⟨27 + g.val, by omega⟩ : Fin 57).val < 27 from by show ¬ 27 + g.val < 27; omega),
          dif_pos (show (⟨27 + g.val, by omega⟩ : Fin 57).val < 42 from by show 27 + g.val < 42; omega)]
        exact congrArg _ (Fin.ext (by show 2 + g.val = 2 + (27 + g.val - 27); omega))))
      (fun g => (pay5_apply x0 w1 w2 w3 p _).trans (by
        unfold wideColorIn
        rw [dif_neg (show ¬ (⟨42 + g.val, by omega⟩ : Fin 57).val < 27 from by show ¬ 42 + g.val < 27; omega),
          dif_neg (show ¬ (⟨42 + g.val, by omega⟩ : Fin 57).val < 42 from by show ¬ 42 + g.val < 42; omega)]
        exact congrArg _ (Fin.ext (by show 17 + (2 + g.val) = 19 + (42 + g.val - 42); omega))))
  unfold pay kernelRow
  refine pay1_apply _ _ _ _ _ p q _ _ _ _ _ (pay6_apply x0 w1 w2 w3 p 0) (fsigma_apply x0 w1 w2 w3 p 0)
    (pay15_apply x0 w1 w2 w3 p 0) (fun c => ?_) (fun c => ?_)
  · exact (pay17_apply _ _ _ w4 w5 w6 w7 p c).trans (hcol _)
  · exact hcol _

end Cert.KernelIdeal.Pay

end
-- ==== Proof.KernelValue.lean ====
/-
  What the kernel program's result array holds after its run, at the exact values.

  At point `t` the body stores, over the whole output block, the wide network's six results for each of the block's
  4096 rows, computed from the input block's rows and the seven weight matrices (`pay_apply`). The input block's row
  `p` is row `4096 t + p` of the first argument and the output block's row `p` is row `4096 t + p` of the result, so
  what point `t` writes back is block `t` of ONE function of the arrays, `wide`: entry `(r, q)` is the wide network's
  result `q` on row `r`. The output blocks tile the result, so the result array ends holding `wide`.
-/
import proofs.«168278_j48120813584957_2_alg».proof.Proof.BlockReads
import proofs.«168278_j48120813584957_2_alg».proof.Proof.Pay2

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The output block after the body is the body's one stored value: the store covers the block, and each input is
    loaded whole from offset zero. -/
theorem out8_eq (x0 : Vec Ideal S4096x98 .f32) (w1 : Vec Ideal S71x128 .f32) (w2 : Vec Ideal S128x128 .f32)
    (w3 : Vec Ideal S128x34 .f32) (w4 : Vec Ideal S57x128 .f32) (w5 w6 : Vec Ideal S128x128 .f32)
    (w7 : Vec Ideal S128x6 .f32) :
    out8 (F := Ideal) x0 w1 w2 w3 w4 w5 w6 w7 = Cert.KernelIdeal.Pay.pay (F := Ideal) x0 w1 w2 w3 w4 w5 w6 w7 := by
  unfold out8
  dsimp only
  rw [View.canon_unit_zero hz]
  simp only [View.ld_unit_zero (S := S4096x98) hz, View.ld_unit_zero (S := S71x128) hz,
    View.ld_unit_zero (S := S128x128) hz, View.ld_unit_zero (S := S128x34) hz,
    View.ld_unit_zero (S := S57x128) hz, View.ld_unit_zero (S := S128x6) hz]
  rfl

/-- The result array as the wide network computes it, row by row, from the first argument and the seven matrices. -/
def wide (X : S1048576x98.Idx → EReal) (W1 : S71x128.Idx → EReal) (W2 : S128x128.Idx → EReal)
    (W3 : S128x34.Idx → EReal) (W4 : S57x128.Idx → EReal) (W5 W6 : S128x128.Idx → EReal)
    (W7 : S128x6.Idx → EReal) : S1048576x6.Idx → EReal :=
  fun i => Cert.Nets.kernelRow (Cert.Nets.rowOf X (i 0)) (Cert.Nets.mat W1) (Cert.Nets.mat W2) (Cert.Nets.mat W3)
    (Cert.Nets.mat W4) (Cert.Nets.mat W5) (Cert.Nets.mat W6) (Cert.Nets.mat W7) (i 1)

/-- The wide network's result depends on its arguments only through their values. -/
theorem kernelRow_congr {x x' : Fin 98 → EReal} {A1 A1' : Fin 71 → Fin 128 → EReal} {A2 A2' : Fin 128 → Fin 128 → EReal}
    {A3 A3' : Fin 128 → Fin 34 → EReal} {A4 A4' : Fin 57 → Fin 128 → EReal} {A5 A5' A6 A6' : Fin 128 → Fin 128 → EReal}
    {A7 A7' : Fin 128 → Fin 6 → EReal} {q q' : Fin 6}
    (hx : x = x') (h1 : A1 = A1') (h2 : A2 = A2') (h3 : A3 = A3') (h4 : A4 = A4') (h5 : A5 = A5') (h6 : A6 = A6')
    (h7 : A7 = A7') (hq : q = q') :
    Cert.Nets.kernelRow x A1 A2 A3 A4 A5 A6 A7 q = Cert.Nets.kernelRow x' A1' A2' A3' A4' A5' A6' A7' q' := by
  subst hx h1 h2 h3 h4 h5 h6 h7 hq; rfl

/-- WHAT POINT `t` WRITES BACK is block `t` of `wide` of the arrays as the region finds them. -/
theorem flushed8_eq (c : Dev nD) (t : Fin cfg0.N) :
    (dats m 0 c).flushed 8 t = ((cfg0.win 8).blk t).view.read (Elt Ideal)
      (wide (V m c main_arg0) (V m c main_v36) (V m c main_v37) (V m c main_v38) (V m c main_v39) (V m c main_v40) (V m c main_v41) (V m c main_v42)) := by
  show (cfg0.win 8).cut (grid0.coords t) ((dats m 0 c).after 8 t) = _
  have e := out8_eq (iblk m c 0 t) (iblk m c 1 t) (iblk m c 2 t) (iblk m c 3 t) (iblk m c 4 t) (iblk m c 5 t) (iblk m c 6 t) (iblk m c 7 t)
  rw [after0_8, e]
  funext j
  obtain ⟨p, q, rfl⟩ : ∃ (p : Fin 4096) (q : Fin 6), j = (ix2 p q : S4096x6.Idx) := ⟨j 0, j 1, eq_ix2 j⟩
  rw [View.read_apply]
  obtain ⟨-, -, e0, e1, -⟩ := idx_facts t
  have hq : ((cfg0.win 8).blk t).view.emb (ix2 p q : S4096x6.Idx) (1 : Fin 2) = q := by
    apply Fin.ext
    show win0_8.index t (1 : Fin 2) * 6 + 1 * q.val = q.val
    rw [e1]; omega
  have hr : (((cfg0.win 8).blk t).view.emb (ix2 p q : S4096x6.Idx) (0 : Fin 2)).val = t.val * 4096 + p.val := by
    show win0_8.index t (0 : Fin 2) * 4096 + 1 * p.val = t.val * 4096 + p.val
    rw [e0]; omega
  refine (Cert.KernelIdeal.Pay.pay_apply _ _ _ _ _ _ _ _ p q).trans ?_
  unfold wide
  exact kernelRow_congr
    (funext fun k => xblk_apply m c t p k _ hr)
    (funext fun k => funext fun j => wblk1_apply m c t k j)
    (funext fun k => funext fun j => wblk2_apply m c t k j)
    (funext fun k => funext fun j => wblk3_apply m c t k j)
    (funext fun k => funext fun j => wblk4_apply m c t k j)
    (funext fun k => funext fun j => wblk5_apply m c t k j)
    (funext fun k => funext fun j => wblk6_apply m c t k j)
    (funext fun k => funext fun j => wblk7_apply m c t k j)
    hq.symm

/-- THE RESULT ARRAY after the run: the output blocks tile it, so it holds `wide` of the arrays as the region finds them. -/
theorem final8 (c : Dev nD) :
    (dats m 0 c).arrAt 8 cfg0.N = wide (V m c main_arg0) (V m c main_v36) (V m c main_v37) (V m c main_v38) (V m c main_v39) (V m c main_v40) (V m c main_v41) (V m c main_v42) :=
  (dats m 0 c).arrAt_eq_of_cover 8 _ (fun t _ => flushed8_eq m c t) rows_tiled

end Cert.KernelIdeal.HandValue

end
-- ==== Proof.FusedLayers.lean ====
/-
  Halves of a vector, and each dense layer of the double-width network read half by half.

  `join N l r` lays two vectors of length `A` side by side in a vector of length `N` (used at `N = A + A`).
  Every layer lemma is an equality of FUNCTIONS: a layer applied to a joined vector is the join of the two
  separate layers. The only facts about the extended reals that are used: `a * 0 = 0` for every `a`,
  a finite sum of zeros is zero, and `a + 0 = a`.
-/
import proofs.«168278_j48120813584957_2_alg».proof.Proof.Nets

noncomputable section

namespace Cert.Nets

/-! ## Splitting a finite sum at a position -/

/-- A sum over `a + b` places is the sum over the first `a` places plus the sum over the last `b`. -/
theorem sum_split {N : ℕ} (a b : ℕ) (h : N = a + b) (F : Fin N → EReal) :
    ∑ k, F k = ∑ i : Fin a, F ⟨i.val, by omega⟩ + ∑ i : Fin b, F ⟨a + i.val, by omega⟩ := by
  subst h
  exact Fin.sum_univ_add F

/-- A sum over `a + b + c` places in three consecutive pieces. -/
theorem sum_split3 {N : ℕ} (a b c : ℕ) (h : N = a + b + c) (F : Fin N → EReal) :
    ∑ k, F k = ∑ i : Fin a, F ⟨i.val, by omega⟩ + ∑ i : Fin b, F ⟨a + i.val, by omega⟩
      + ∑ i : Fin c, F ⟨a + b + i.val, by omega⟩ := by
  rw [sum_split (a + b) c h F, sum_split a b rfl (fun i : Fin (a + b) => F ⟨i.val, by omega⟩)]

/-! ## Two halves side by side -/

/-- Two vectors of length `A` side by side in a vector of length `N`; zero beyond position `2A`. -/
def join {A : ℕ} (N : ℕ) (l r : Fin A → EReal) (j : Fin N) : EReal :=
  if h : j.val < A then l ⟨j.val, h⟩ else if h2 : j.val - A < A then r ⟨j.val - A, h2⟩ else 0

theorem join_lo {A N : ℕ} (l r : Fin A → EReal) (j : Fin N) (h : j.val < A) :
    join N l r j = l ⟨j.val, h⟩ := by
  unfold join; rw [dif_pos h]

theorem join_hi {A N : ℕ} (l r : Fin A → EReal) (j : Fin N) (h : ¬ j.val < A) (h2 : j.val - A < A) :
    join N l r j = r ⟨j.val - A, h2⟩ := by
  unfold join; rw [dif_neg h, dif_pos h2]

theorem join_out {A N : ℕ} (l r : Fin A → EReal) (j : Fin N) (h : ¬ j.val < A) (h2 : ¬ j.val - A < A) :
    join N l r j = 0 := by
  unfold join; rw [dif_neg h, dif_neg h2]

/-- Position `i` of the left half. -/
theorem join_left {A N : ℕ} (l r : Fin A → EReal) (i : Fin A) (hN : i.val < N) :
    join N l r ⟨i.val, hN⟩ = l i :=
  join_lo l r ⟨i.val, hN⟩ i.isLt

/-- Position `A + i` is position `i` of the right half. -/
theorem join_right {A N : ℕ} (l r : Fin A → EReal) (i : Fin A) (hN : A + i.val < N) :
    join N l r ⟨A + i.val, hN⟩ = r i := by
  have h : ¬ (⟨A + i.val, hN⟩ : Fin N).val < A := by show ¬ A + i.val < A; omega
  have h2 : (⟨A + i.val, hN⟩ : Fin N).val - A < A := by show A + i.val - A < A; omega
  rw [join_hi l r _ h h2]
  exact congrArg r (Fin.ext (by show A + i.val - A = i.val; omega))

theorem relu_apply {N : ℕ} (v : Fin N → EReal) (j : Fin N) : relu v j = max (v j) 0 := rfl

/-- The rectifier acts on each half separately. -/
theorem relu_join {A : ℕ} (N : ℕ) (l r : Fin A → EReal) :
    relu (join N l r) = join N (relu l) (relu r) := by
  funext j
  rw [relu_apply]
  by_cases h : j.val < A
  · rw [join_lo _ _ j h, join_lo _ _ j h, relu_apply]
  · by_cases h2 : j.val - A < A
    · rw [join_hi _ _ j h h2, join_hi _ _ j h h2, relu_apply]
    · rw [join_out _ _ j h h2, join_out _ _ j h h2, max_self]

/-! ## Block-diagonal layers -/

theorem blockDiagT_lo_lo {A B NA NB : ℕ} (b f : Fin B → Fin A → EReal) (k : Fin NA) (j : Fin NB)
    (hj : j.val < B) (hk : k.val < A) : blockDiagT NA NB b f k j = b ⟨j.val, hj⟩ ⟨k.val, hk⟩ := by
  unfold blockDiagT; rw [dif_pos hj, dif_pos hk]

theorem blockDiagT_lo_hi {A B NA NB : ℕ} (b f : Fin B → Fin A → EReal) (k : Fin NA) (j : Fin NB)
    (hj : j.val < B) (hk : ¬ k.val < A) : blockDiagT NA NB b f k j = 0 := by
  unfold blockDiagT; rw [dif_pos hj, dif_neg hk]

theorem blockDiagT_hi_lo {A B NA NB : ℕ} (b f : Fin B → Fin A → EReal) (k : Fin NA) (j : Fin NB)
    (hj : ¬ j.val < B) (hk : k.val < A) : blockDiagT NA NB b f k j = 0 := by
  unfold blockDiagT; rw [dif_neg hj]
  by_cases hj2 : j.val - B < B
  · rw [dif_pos hj2, dif_neg (by omega)]
  · rw [dif_neg hj2]

theorem blockDiagT_hi_hi {A B NA NB : ℕ} (b f : Fin B → Fin A → EReal) (k : Fin NA) (j : Fin NB)
    (hj : ¬ j.val < B) (hj2 : j.val - B < B) (hk : A ≤ k.val) (hk2 : k.val - A < A) :
    blockDiagT NA NB b f k j = f ⟨j.val - B, hj2⟩ ⟨k.val - A, hk2⟩ := by
  unfold blockDiagT; rw [dif_neg hj, dif_pos hj2, dif_pos ⟨hk, hk2⟩]

theorem blockDiagT_out {A B NA NB : ℕ} (b f : Fin B → Fin A → EReal) (k : Fin NA) (j : Fin NB)
    (hj : ¬ j.val < B) (hj2 : ¬ j.val - B < B) : blockDiagT NA NB b f k j = 0 := by
  unfold blockDiagT; rw [dif_neg hj, dif_neg hj2]

/-- A block-diagonal layer applied to two halves side by side is the two layers side by side:
    the off-diagonal products are products with zero. -/
theorem denseT_blockDiagT {A B : ℕ} (NA NB : ℕ) (hNA : NA = A + A) (b f : Fin B → Fin A → EReal)
    (l r : Fin A → EReal) :
    denseT (blockDiagT NA NB b f) (join NA l r) = join NB (dense b l) (dense f r) := by
  funext j
  show ∑ k : Fin NA, join NA l r k * blockDiagT NA NB b f k j = _
  rw [sum_split A A hNA]
  by_cases hj : j.val < B
  · have e1 : ∀ i : Fin A, join NA l r ⟨i.val, by omega⟩ * blockDiagT NA NB b f ⟨i.val, by omega⟩ j
        = l i * b ⟨j.val, hj⟩ i := by
      intro i
      rw [join_left, blockDiagT_lo_lo (NA := NA) b f ⟨i.val, by omega⟩ j hj i.isLt]
    have e2 : ∀ i : Fin A, join NA l r ⟨A + i.val, by omega⟩ * blockDiagT NA NB b f ⟨A + i.val, by omega⟩ j
        = 0 := by
      intro i
      rw [blockDiagT_lo_hi b f _ j hj (by show ¬ A + i.val < A; omega), mul_zero]
    rw [Finset.sum_congr rfl (fun i _ => e1 i), Finset.sum_congr rfl (fun i _ => e2 i),
      Finset.sum_const_zero, add_zero, join_lo _ _ j hj]
    rfl
  · by_cases hj2 : j.val - B < B
    · have e1 : ∀ i : Fin A, join NA l r ⟨i.val, by omega⟩ * blockDiagT NA NB b f ⟨i.val, by omega⟩ j
          = 0 := by
        intro i
        rw [blockDiagT_hi_lo (NA := NA) b f ⟨i.val, by omega⟩ j hj i.isLt, mul_zero]
      have e2 : ∀ i : Fin A, join NA l r ⟨A + i.val, by omega⟩ * blockDiagT NA NB b f ⟨A + i.val, by omega⟩ j
          = r i * f ⟨j.val - B, hj2⟩ i := by
        intro i
        rw [join_right, blockDiagT_hi_hi b f _ j hj hj2 (by show A ≤ A + i.val; omega)
          (by show A + i.val - A < A; omega)]
        exact congrArg (fun t => r i * f ⟨j.val - B, hj2⟩ t) (Fin.ext (by show A + i.val - A = i.val; omega))
      rw [Finset.sum_congr rfl (fun i _ => e1 i), Finset.sum_congr rfl (fun i _ => e2 i),
        Finset.sum_const_zero, zero_add, join_hi _ _ j hj hj2]
      rfl
    · have e : ∀ k : Fin NA, join NA l r k * blockDiagT NA NB b f k j = 0 := by
        intro k
        rw [blockDiagT_out b f k j hj hj2, mul_zero]
      rw [← sum_split A A hNA (fun k => join NA l r k * blockDiagT NA NB b f k j),
        Finset.sum_congr rfl (fun k _ => e k), Finset.sum_const_zero, join_out _ _ j hj hj2]

/-! ## The first density layer: a row stack whose background half ignores the last eight inputs -/

theorem stackT_lo_in (b : Fin 64 → Fin 63 → EReal) (f : Fin 64 → Fin 71 → EReal) (k : Fin 71) (j : Fin 128)
    (hj : j.val < 64) (hk : k.val < 63) : stackT b f k j = b ⟨j.val, hj⟩ ⟨k.val, hk⟩ := by
  unfold stackT; rw [dif_pos hj, dif_pos hk]

theorem stackT_lo_out (b : Fin 64 → Fin 63 → EReal) (f : Fin 64 → Fin 71 → EReal) (k : Fin 71) (j : Fin 128)
    (hj : j.val < 64) (hk : ¬ k.val < 63) : stackT b f k j = 0 := by
  unfold stackT; rw [dif_pos hj, dif_neg hk]

theorem stackT_hi (b : Fin 64 → Fin 63 → EReal) (f : Fin 64 → Fin 71 → EReal) (k : Fin 71) (j : Fin 128)
    (hj : ¬ j.val < 64) : stackT b f k j = f ⟨j.val - 64, by omega⟩ k := by
  unfold stackT; rw [dif_neg hj]

/-- The stacked first layer: the background half is the background layer on the first 63 inputs (a sum over 71
    places whose last eight terms are products with zero), the foreground half is the foreground layer. -/
theorem denseT_stackT (b : Fin 64 → Fin 63 → EReal) (f : Fin 64 → Fin 71 → EReal) (pts : Fin 71 → EReal) :
    denseT (stackT b f) pts
      = join 128 (dense b (fun k : Fin 63 => pts ⟨k.val, by omega⟩)) (dense f pts) := by
  funext j
  show ∑ k : Fin 71, pts k * stackT b f k j = _
  by_cases hj : j.val < 64
  · rw [sum_split 63 8 rfl]
    have e1 : ∀ i : Fin 63, pts ⟨i.val, by omega⟩ * stackT b f ⟨i.val, by omega⟩ j
        = pts ⟨i.val, by omega⟩ * b ⟨j.val, hj⟩ i := by
      intro i
      rw [stackT_lo_in b f _ j hj i.isLt]
    have e2 : ∀ i : Fin 8, pts ⟨63 + i.val, by omega⟩ * stackT b f ⟨63 + i.val, by omega⟩ j = 0 := by
      intro i
      rw [stackT_lo_out b f _ j hj (by show ¬ 63 + i.val < 63; omega), mul_zero]
    rw [Finset.sum_congr rfl (fun i _ => e1 i), Finset.sum_congr rfl (fun i _ => e2 i),
      Finset.sum_const_zero, add_zero, join_lo _ _ j hj]
    rfl
  · have hj2 : j.val - 64 < 64 := by omega
    have e : ∀ k : Fin 71, pts k * stackT b f k j = pts k * f ⟨j.val - 64, hj2⟩ k := by
      intro k
      rw [stackT_hi b f k j hj]
    rw [Finset.sum_congr rfl (fun k _ => e k), join_hi _ _ j hj hj2]
    rfl

/-- The same for a row: the first 63 entries of the 71 point features are the background network's input. -/
theorem denseT_stackT_row (b : Fin 64 → Fin 63 → EReal) (f : Fin 64 → Fin 71 → EReal) (x : Fin 98 → EReal) :
    denseT (stackT b f) (ptsOf x) = join 128 (dense b (xyzOf x)) (dense f (ptsOf x)) :=
  denseT_stackT b f (ptsOf x)

/-! ## The first colour layer -/

theorem wideColorIn_views (views : Fin 27 → EReal) (h : Fin 34 → EReal) (i : Fin 57) (hi : i.val < 27) :
    wideColorIn views h i = views ⟨i.val, hi⟩ := by
  unfold wideColorIn; rw [dif_pos hi]

theorem wideColorIn_lo (views : Fin 27 → EReal) (h : Fin 34 → EReal) (i : Fin 57) (hi : ¬ i.val < 27)
    (hi2 : i.val < 42) : wideColorIn views h i = h ⟨2 + (i.val - 27), by omega⟩ := by
  unfold wideColorIn; rw [dif_neg hi, dif_pos hi2]

theorem wideColorIn_hi (views : Fin 27 → EReal) (h : Fin 34 → EReal) (i : Fin 57) (hi : ¬ i.val < 27)
    (hi2 : ¬ i.val < 42) : wideColorIn views h i = h ⟨19 + (i.val - 42), by omega⟩ := by
  unfold wideColorIn; rw [dif_neg hi, dif_neg hi2]

theorem colorIn_views (views : Fin 27 → EReal) (h : Fin 17 → EReal) (i : Fin 42) (hi : i.val < 27) :
    colorIn views h i = views ⟨i.val, hi⟩ := by
  unfold colorIn; rw [dif_pos hi]

theorem colorIn_geom (views : Fin 27 → EReal) (h : Fin 17 → EReal) (i : Fin 42) (hi : ¬ i.val < 27) :
    colorIn views h i = h ⟨2 + (i.val - 27), by omega⟩ := by
  unfold colorIn; rw [dif_neg hi]

theorem colorInT_lo_in (b f : Fin 64 → Fin 42 → EReal) (i : Fin 57) (j : Fin 128) (hj : j.val < 64)
    (hi : i.val < 42) : colorInT b f i j = b ⟨j.val, hj⟩ ⟨i.val, hi⟩ := by
  unfold colorInT; rw [dif_pos hj, dif_pos hi]

theorem colorInT_lo_out (b f : Fin 64 → Fin 42 → EReal) (i : Fin 57) (j : Fin 128) (hj : j.val < 64)
    (hi : ¬ i.val < 42) : colorInT b f i j = 0 := by
  unfold colorInT; rw [dif_pos hj, dif_neg hi]

theorem colorInT_hi_views (b f : Fin 64 → Fin 42 → EReal) (i : Fin 57) (j : Fin 128) (hj : ¬ j.val < 64)
    (hi : i.val < 27) : colorInT b f i j = f ⟨j.val - 64, by omega⟩ ⟨i.val, by omega⟩ := by
  unfold colorInT; rw [dif_neg hj, dif_pos hi]

theorem colorInT_hi_mid (b f : Fin 64 → Fin 42 → EReal) (i : Fin 57) (j : Fin 128) (hj : ¬ j.val < 64)
    (hi : ¬ i.val < 27) (hi2 : i.val < 42) : colorInT b f i j = 0 := by
  unfold colorInT; rw [dif_neg hj, dif_neg hi, dif_pos hi2]

theorem colorInT_hi_geom (b f : Fin 64 → Fin 42 → EReal) (i : Fin 57) (j : Fin 128) (hj : ¬ j.val < 64)
    (hi : ¬ i.val < 27) (hi2 : ¬ i.val < 42) :
    colorInT b f i j = f ⟨j.val - 64, by omega⟩ ⟨i.val - 15, by omega⟩ := by
  unfold colorInT; rw [dif_neg hj, dif_neg hi, dif_neg hi2]

/-- The first colour layer over the wide colour input: a background output sums the 27 view terms and the 15
    background geometry terms (the 15 foreground geometry terms are products with zero); a foreground output sums
    the 27 view terms and the 15 foreground geometry terms (the middle 15 are products with zero), and its weights
    27..41 meet the geometry features at positions 42..56. -/
theorem denseT_colorInT (b f : Fin 64 → Fin 42 → EReal) (views : Fin 27 → EReal) (hl hr : Fin 17 → EReal) :
    denseT (colorInT b f) (wideColorIn views (join 34 hl hr))
      = join 128 (dense b (colorIn views hl)) (dense f (colorIn views hr)) := by
  funext j
  show ∑ k : Fin 57, wideColorIn views (join 34 hl hr) k * colorInT b f k j = _
  rw [sum_split3 27 15 15 rfl]
  by_cases hj : j.val < 64
  · rw [join_lo _ _ j hj]
    show _ = ∑ k : Fin 42, colorIn views hl k * b ⟨j.val, hj⟩ k
    rw [sum_split 27 15 rfl (fun k : Fin 42 => colorIn views hl k * b ⟨j.val, hj⟩ k)]
    have e1 : ∀ i : Fin 27, wideColorIn views (join 34 hl hr) ⟨i.val, by omega⟩ * colorInT b f ⟨i.val, by omega⟩ j
        = colorIn views hl ⟨i.val, by omega⟩ * b ⟨j.val, hj⟩ ⟨i.val, by omega⟩ := by
      intro i
      rw [wideColorIn_views views (join 34 hl hr) ⟨i.val, by omega⟩ i.isLt,
        colorInT_lo_in b f ⟨i.val, by omega⟩ j hj (by show i.val < 42; omega),
        colorIn_views views hl ⟨i.val, by omega⟩ i.isLt]
    have e2 : ∀ i : Fin 15, wideColorIn views (join 34 hl hr) ⟨27 + i.val, by omega⟩
          * colorInT b f ⟨27 + i.val, by omega⟩ j
        = colorIn views hl ⟨27 + i.val, by omega⟩ * b ⟨j.val, hj⟩ ⟨27 + i.val, by omega⟩ := by
      intro i
      rw [wideColorIn_lo views (join 34 hl hr) ⟨27 + i.val, by omega⟩ (by show ¬ 27 + i.val < 27; omega)
          (by show 27 + i.val < 42; omega),
        colorInT_lo_in b f ⟨27 + i.val, by omega⟩ j hj (by show 27 + i.val < 42; omega),
        colorIn_geom views hl ⟨27 + i.val, by omega⟩ (by show ¬ 27 + i.val < 27; omega),
        join_lo hl hr ⟨2 + (27 + i.val - 27), by omega⟩ (by show 2 + (27 + i.val - 27) < 17; omega)]
    have e3 : ∀ i : Fin 15, wideColorIn views (join 34 hl hr) ⟨27 + 15 + i.val, by omega⟩
          * colorInT b f ⟨27 + 15 + i.val, by omega⟩ j = 0 := by
      intro i
      rw [colorInT_lo_out b f ⟨27 + 15 + i.val, by omega⟩ j hj (by show ¬ 27 + 15 + i.val < 42; omega), mul_zero]
    rw [Finset.sum_congr rfl (fun i _ => e1 i), Finset.sum_congr rfl (fun i _ => e2 i),
      Finset.sum_congr rfl (fun i _ => e3 i), Finset.sum_const_zero, add_zero]
  · have hj2 : j.val - 64 < 64 := by omega
    rw [join_hi _ _ j hj hj2]
    show _ = ∑ k : Fin 42, colorIn views hr k * f ⟨j.val - 64, hj2⟩ k
    rw [sum_split 27 15 rfl (fun k : Fin 42 => colorIn views hr k * f ⟨j.val - 64, hj2⟩ k)]
    have e1 : ∀ i : Fin 27, wideColorIn views (join 34 hl hr) ⟨i.val, by omega⟩ * colorInT b f ⟨i.val, by omega⟩ j
        = colorIn views hr ⟨i.val, by omega⟩ * f ⟨j.val - 64, hj2⟩ ⟨i.val, by omega⟩ := by
      intro i
      rw [wideColorIn_views views (join 34 hl hr) ⟨i.val, by omega⟩ i.isLt,
        colorInT_hi_views b f ⟨i.val, by omega⟩ j hj i.isLt,
        colorIn_views views hr ⟨i.val, by omega⟩ i.isLt]
    have e2 : ∀ i : Fin 15, wideColorIn views (join 34 hl hr) ⟨27 + i.val, by omega⟩
          * colorInT b f ⟨27 + i.val, by omega⟩ j = 0 := by
      intro i
      rw [colorInT_hi_mid b f ⟨27 + i.val, by omega⟩ j hj (by show ¬ 27 + i.val < 27; omega)
        (by show 27 + i.val < 42; omega), mul_zero]
    have e3 : ∀ i : Fin 15, wideColorIn views (join 34 hl hr) ⟨27 + 15 + i.val, by omega⟩
          * colorInT b f ⟨27 + 15 + i.val, by omega⟩ j
        = colorIn views hr ⟨27 + i.val, by omega⟩ * f ⟨j.val - 64, hj2⟩ ⟨27 + i.val, by omega⟩ := by
      intro i
      rw [wideColorIn_hi views (join 34 hl hr) ⟨27 + 15 + i.val, by omega⟩ (by show ¬ 27 + 15 + i.val < 27; omega)
          (by show ¬ 27 + 15 + i.val < 42; omega),
        colorInT_hi_geom b f ⟨27 + 15 + i.val, by omega⟩ j hj (by show ¬ 27 + 15 + i.val < 27; omega)
          (by show ¬ 27 + 15 + i.val < 42; omega),
        colorIn_geom views hr ⟨27 + i.val, by omega⟩ (by show ¬ 27 + i.val < 27; omega),
        join_hi hl hr ⟨19 + (27 + 15 + i.val - 42), by omega⟩ (by show ¬ 19 + (27 + 15 + i.val - 42) < 17; omega)
          (by show 19 + (27 + 15 + i.val - 42) - 17 < 17; omega)]
      have a1 : (⟨19 + (27 + 15 + i.val - 42) - 17, by omega⟩ : Fin 17) = ⟨2 + (27 + i.val - 27), by omega⟩ :=
        Fin.ext (by show 19 + (27 + 15 + i.val - 42) - 17 = 2 + (27 + i.val - 27); omega)
      have a2 : (⟨27 + 15 + i.val - 15, by omega⟩ : Fin 42) = ⟨27 + i.val, by omega⟩ :=
        Fin.ext (by show 27 + 15 + i.val - 15 = 27 + i.val; omega)
      exact congrArg₂ (fun s t => hr s * f ⟨j.val - 64, hj2⟩ t) a1 a2
    rw [Finset.sum_congr rfl (fun i _ => e1 i), Finset.sum_congr rfl (fun i _ => e2 i),
      Finset.sum_congr rfl (fun i _ => e3 i), Finset.sum_const_zero, add_zero]

end Cert.Nets

end
-- ==== Proof.Fused.lean ====
/-
  One network of twice the width is two networks.

  With the seven wide matrices built from the fourteen weight arrays (a row stack, four block-diagonal matrices, and
  the first colour layer over the wide colour input), every layer of the wide network maps "background half |
  foreground half" to "background half | foreground half". Chaining the seven layers, the 34 outputs of the density
  part are the two networks' 17 outputs side by side, the 6 outputs of the colour part are the two colours side by
  side, and the blend reads the same numbers in both descriptions.
-/
import proofs.«168278_j48120813584957_2_alg».proof.Proof.FusedLayers

noncomputable section

namespace Cert.Nets

/-- The wide density part: its 34 outputs are the two density networks' outputs side by side. -/
theorem wide_sigma (x : Fin 98 → EReal)
    (bs0 : Fin 64 → Fin 63 → EReal) (bs1 : Fin 64 → Fin 64 → EReal) (bs2 : Fin 17 → Fin 64 → EReal)
    (fs0 : Fin 64 → Fin 71 → EReal) (fs1 : Fin 64 → Fin 64 → EReal) (fs2 : Fin 17 → Fin 64 → EReal) :
    denseT (blockDiagT 128 34 bs2 fs2) (relu (denseT (blockDiagT 128 128 bs1 fs1)
        (relu (denseT (stackT bs0 fs0) (ptsOf x)))))
      = join 34 (sigmaNet bs0 bs1 bs2 (xyzOf x)) (sigmaNet fs0 fs1 fs2 (ptsOf x)) := by
  rw [denseT_stackT_row, relu_join, denseT_blockDiagT (A := 64) (B := 64) 128 128 (by norm_num), relu_join,
    denseT_blockDiagT (A := 64) (B := 17) 128 34 (by norm_num)]
  rfl

/-- The wide colour part on two 17-vectors side by side: its 6 outputs are the two colours side by side. -/
theorem wide_color (views : Fin 27 → EReal) (hl hr : Fin 17 → EReal)
    (bc0 : Fin 64 → Fin 42 → EReal) (bc1 bc2 : Fin 64 → Fin 64 → EReal) (bc3 : Fin 3 → Fin 64 → EReal)
    (fc0 : Fin 64 → Fin 42 → EReal) (fc1 fc2 : Fin 64 → Fin 64 → EReal) (fc3 : Fin 3 → Fin 64 → EReal) :
    denseT (blockDiagT 128 6 bc3 fc3) (relu (denseT (blockDiagT 128 128 bc2 fc2)
        (relu (denseT (blockDiagT 128 128 bc1 fc1) (relu (denseT (colorInT bc0 fc0)
          (wideColorIn views (join 34 hl hr))))))))
      = join 6 (colorNet bc0 bc1 bc2 bc3 (colorIn views hl)) (colorNet fc0 fc1 fc2 fc3 (colorIn views hr)) := by
  rw [denseT_colorInT, relu_join, denseT_blockDiagT (A := 64) (B := 64) 128 128 (by norm_num), relu_join,
    denseT_blockDiagT (A := 64) (B := 64) 128 128 (by norm_num), relu_join,
    denseT_blockDiagT (A := 64) (B := 3) 128 6 (by norm_num)]
  rfl

/-- ONE WIDE NETWORK IS TWO NETWORKS: with the wide matrices built from the two networks' weights, the row computed
    by the wide network is the row computed by the two separate networks. No finiteness is needed: every extra term
    is a product with an exact zero. -/
theorem kernelRow_eq_refRow (x : Fin 98 → EReal)
    (bs0 : Fin 64 → Fin 63 → EReal) (bs1 : Fin 64 → Fin 64 → EReal) (bs2 : Fin 17 → Fin 64 → EReal)
    (bc0 : Fin 64 → Fin 42 → EReal) (bc1 bc2 : Fin 64 → Fin 64 → EReal) (bc3 : Fin 3 → Fin 64 → EReal)
    (fs0 : Fin 64 → Fin 71 → EReal) (fs1 : Fin 64 → Fin 64 → EReal) (fs2 : Fin 17 → Fin 64 → EReal)
    (fc0 : Fin 64 → Fin 42 → EReal) (fc1 fc2 : Fin 64 → Fin 64 → EReal) (fc3 : Fin 3 → Fin 64 → EReal)
    (q : Fin 6) :
    kernelRow x (stackT bs0 fs0) (blockDiagT 128 128 bs1 fs1) (blockDiagT 128 34 bs2 fs2) (colorInT bc0 fc0)
        (blockDiagT 128 128 bc1 fc1) (blockDiagT 128 128 bc2 fc2) (blockDiagT 128 6 bc3 fc3) q
      = refRow x bs0 bs1 bs2 bc0 bc1 bc2 bc3 fs0 fs1 fs2 fc0 fc1 fc2 fc3 q := by
  unfold kernelRow refRow
  rw [wide_sigma, wide_color]
  -- the three logits: entries 0, 17 and 18 of the 34 outputs
  have s0 : join 34 (sigmaNet bs0 bs1 bs2 (xyzOf x)) (sigmaNet fs0 fs1 fs2 (ptsOf x)) ⟨0, by omega⟩
      = sigmaNet bs0 bs1 bs2 (xyzOf x) 0 :=
    join_lo _ _ ⟨0, by omega⟩ (by show 0 < 17; omega)
  have s17 : join 34 (sigmaNet bs0 bs1 bs2 (xyzOf x)) (sigmaNet fs0 fs1 fs2 (ptsOf x)) ⟨17, by omega⟩
      = sigmaNet fs0 fs1 fs2 (ptsOf x) 0 :=
    join_hi _ _ ⟨17, by omega⟩ (by show ¬ 17 < 17; omega) (by show 17 - 17 < 17; omega)
  have s18 : join 34 (sigmaNet bs0 bs1 bs2 (xyzOf x)) (sigmaNet fs0 fs1 fs2 (ptsOf x)) ⟨18, by omega⟩
      = sigmaNet fs0 fs1 fs2 (ptsOf x) 1 :=
    join_hi _ _ ⟨18, by omega⟩ (by show ¬ 18 < 17; omega) (by show 18 - 17 < 17; omega)
  -- the two colours: entries 0..2 and 3..5 of the 6 outputs
  have cb : ∀ (cl cr : Fin 3 → EReal), (fun p : Fin 3 => join 6 cl cr ⟨p.val, by omega⟩) = cl := by
    intro cl cr; funext p; exact join_left cl cr p (by omega)
  have cf : ∀ (cl cr : Fin 3 → EReal), (fun p : Fin 3 => join 6 cl cr ⟨3 + p.val, by omega⟩) = cr := by
    intro cl cr; funext p; exact join_right cl cr p (by omega)
  rw [s0, s17, s18, cb, cf]

end Cert.Nets

end
-- ==== Proof.HostLine3.lean ====
/-
  A host operation with three operands, given as a literal family of three buffers, leaves in its result buffer its
  function applied to the three buffers' contents, each read at its own buffer.
-/
import Idealize.ShloMosaic.Lib.StableHlo.Run

noncomputable section

namespace Cert.HostLine

open Idealize.ShloMosaic Idealize.ShloMosaic.StableHlo

variable {τ : Topo} {sig : RefSig} {Val : EltTy → Type}

/-- The result of a three-operand operation with each operand's contents at its own buffer: the family
    `fun k => F (![x, a, b] k)` written out as the three contents in order. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b))
          (fun i => i.elim0)))) := by
  rw [nary_result]; congr 1; funext k; fin_cases k <;> rfl

end Cert.HostLine

end
-- ==== Proof.WeightsVh.lean ====
/-
  What a core's buffers hold when the region is entered, and the tactic that reads one of them back through the
  host operations that wrote it.
-/
import proofs.«168278_j48120813584957_2_alg».proof.Proof.Gen.KernelIdeal.Launch
import proofs.«168278_j48120813584957_2_alg».proof.Proof.HostLine3
import Idealize.ShloMosaic.Lib.StableHlo.Run
import Idealize.ShloMosaic.PureOps.Ideal

noncomputable section

namespace Cert.KernelIdeal.Weights

open Cert.KernelIdeal Cert.KernelIdeal.Gen
open Idealize.ShloMosaic Idealize.ShloMosaic.TcCoe

variable (m : (ℓ : Loc nD τ sig) → Buf (Elt Ideal) ℓ) (c : Dev nD)

/-- The contents of core `c`'s buffers after the three stretches of host operations, from the launch memory `m`. -/
abbrev Vh (b : Ref sig .tc) : Buf (Elt Ideal) ((c : Thread nD τ).loc b) :=
  StableHlo.after (List.flatten [Gen.hostOps0, Gen.hostOps0_1, Gen.hostOps0_2]) (fun b => m (c, b)) b

/-- Reads a buffer back through the operations: each operation's result at its own result buffer is its function of
    its operands' contents, and at any other buffer what was there before; a three-operand operation hands its
    function the three contents in order. -/
macro "host_results" : tactic =>
  `(tactic| (simp only [StableHlo.after_cons, StableHlo.after_nil]
             repeat (first
               | rw [StableHlo.nullary_result] | rw [StableHlo.unary_result] | rw [StableHlo.binary_result]
               | rw [Cert.HostLine.nary3_result]
               | (rw [StableHlo.nullary_result_ne]; rotate_left; decide)
               | (rw [StableHlo.unary_result_ne]; rotate_left; decide)
               | (rw [StableHlo.binary_result_ne]; rotate_left; decide)
               | (rw [StableHlo.nary_result_ne]; rotate_left; decide))))

/-- Opens `Vh` into the fold over the literal list of the fifty-seven operations. -/
macro "open_host" : tactic =>
  `(tactic| (dsimp only [Vh]
             simp only [Gen.hostOps0, Gen.hostOps0_1, Gen.hostOps0_2, List.flatten_cons, List.flatten_nil, List.append_nil,
               List.cons_append, List.nil_append]))

end Cert.KernelIdeal.Weights

end
-- ==== Proof.MatLayout.lean ====
/-
  Matrices put together from pieces, read at a pair of coordinates.

  Two matrices stacked by rows or laid side by side by columns read, at `(p, q)`, the piece that holds the coordinate
  along the joining axis, at that coordinate less the extents of the pieces before it; the same for three matrices side
  by side; a matrix padded on the high side of its columns reads the matrix inside and the padding value outside; a scalar
  zero spread over a matrix is zero everywhere.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost

noncomputable section

namespace Cert.MatLayout

open Idealize.ShloMosaic Idealize.ShloMosaic.ValueIdx

variable {α : Type}

/-- Two matrices stacked by rows: row `p` is row `p` of the first while `p < a`, else row `p - a` of the second. -/
theorem catRows_apply {a b n c : ℕ} (hn : n = a + b)
    (x₁ : (⟨2, ![a, c]⟩ : Shape).Idx → α) (x₂ : (⟨2, ![b, c]⟩ : Shape).Idx → α)
    (h : Shape.Concatenates [(⟨2, ![a, c]⟩ : Shape), ⟨2, ![b, c]⟩] ⟨2, ![n, c]⟩ 0) (p : Fin n) (q : Fin c) :
    concatenate ⟨2, ![n, c]⟩ 0 [⟨⟨2, ![a, c]⟩, x₁⟩, ⟨⟨2, ![b, c]⟩, x₂⟩] h (ix2 p q)
      = if hp : p.val < a then x₁ (ix2 ⟨p.val, hp⟩ q) else x₂ (ix2 ⟨p.val - a, by omega⟩ q) := by
  by_cases hp : p.val < a
  · rw [dif_pos hp]
    exact concatenate_pair_apply_left 0 x₁ x₂ h (ix2 p q) rfl (ix2 ⟨p.val, hp⟩ q)
      (fun d => match d with | ⟨0, _⟩ => rfl | ⟨1, _⟩ => rfl)
  · rw [dif_neg hp]
    refine concatenate_pair_apply_right 0 x₁ x₂ h (ix2 p q) rfl rfl (ix2 ⟨p.val - a, by omega⟩ q)
      (fun d hd => match d, hd with | ⟨0, _⟩, hd => absurd rfl hd | ⟨1, _⟩, _ => rfl) ?_
    show p.val - a + a = p.val
    omega

/-- Two matrices side by side: column `q` is column `q` of the first while `q < a`, else column `q - a` of the second. -/
theorem catCols_apply {r a b n : ℕ} (hn : n = a + b)
    (x₁ : (⟨2, ![r, a]⟩ : Shape).Idx → α) (x₂ : (⟨2, ![r, b]⟩ : Shape).Idx → α)
    (h : Shape.Concatenates [(⟨2, ![r, a]⟩ : Shape), ⟨2, ![r, b]⟩] ⟨2, ![r, n]⟩ 1) (p : Fin r) (q : Fin n) :
    concatenate ⟨2, ![r, n]⟩ 1 [⟨⟨2, ![r, a]⟩, x₁⟩, ⟨⟨2, ![r, b]⟩, x₂⟩] h (ix2 p q)
      = if hq : q.val < a then x₁ (ix2 p ⟨q.val, hq⟩) else x₂ (ix2 p ⟨q.val - a, by omega⟩) := by
  by_cases hq : q.val < a
  · rw [dif_pos hq]
    exact concatenate_pair_apply_left 1 x₁ x₂ h (ix2 p q) rfl (ix2 p ⟨q.val, hq⟩)
      (fun d => match d with | ⟨0, _⟩ => rfl | ⟨1, _⟩ => rfl)
  · rw [dif_neg hq]
    refine concatenate_pair_apply_right 1 x₁ x₂ h (ix2 p q) rfl rfl (ix2 p ⟨q.val - a, by omega⟩)
      (fun d hd => match d, hd with | ⟨0, _⟩, _ => rfl | ⟨1, _⟩, hd => absurd rfl hd) ?_
    show q.val - a + a = q.val
    omega

/-- Three matrices side by side. -/
theorem catCols3_apply {r a b c n : ℕ} (hn : n = a + b + c)
    (x₁ : (⟨2, ![r, a]⟩ : Shape).Idx → α) (x₂ : (⟨2, ![r, b]⟩ : Shape).Idx → α) (x₃ : (⟨2, ![r, c]⟩ : Shape).Idx → α)
    (h : Shape.Concatenates [(⟨2, ![r, a]⟩ : Shape), ⟨2, ![r, b]⟩, ⟨2, ![r, c]⟩] ⟨2, ![r, n]⟩ 1) (p : Fin r) (q : Fin n) :
    concatenate ⟨2, ![r, n]⟩ 1 [⟨⟨2, ![r, a]⟩, x₁⟩, ⟨⟨2, ![r, b]⟩, x₂⟩, ⟨⟨2, ![r, c]⟩, x₃⟩] h (ix2 p q)
      = if hq : q.val < a then x₁ (ix2 p ⟨q.val, hq⟩)
        else if hq2 : q.val < a + b then x₂ (ix2 p ⟨q.val - a, by omega⟩)
        else x₃ (ix2 p ⟨q.val - (a + b), by omega⟩) := by
  by_cases hq : q.val < a
  · rw [dif_pos hq]
    refine concatenate_apply_piece 1 [⟨⟨2, ![r, a]⟩, x₁⟩, ⟨⟨2, ![r, b]⟩, x₂⟩, ⟨⟨2, ![r, c]⟩, x₃⟩] h (ix2 p q) 0 (by show 0 < 3; omega) _ x₁ rfl rfl 0 rfl (ix2 p ⟨q.val, hq⟩)
      (fun d hd => match d, hd with | ⟨0, _⟩, _ => rfl | ⟨1, _⟩, hd => absurd rfl hd) ?_
    show 0 + q.val = q.val
    omega
  · rw [dif_neg hq]
    by_cases hq2 : q.val < a + b
    · rw [dif_pos hq2]
      refine concatenate_apply_piece 1 [⟨⟨2, ![r, a]⟩, x₁⟩, ⟨⟨2, ![r, b]⟩, x₂⟩, ⟨⟨2, ![r, c]⟩, x₃⟩] h (ix2 p q) 1 (by show 1 < 3; omega) _ x₂ rfl rfl (a + 0) rfl (ix2 p ⟨q.val - a, by omega⟩)
        (fun d hd => match d, hd with | ⟨0, _⟩, _ => rfl | ⟨1, _⟩, hd => absurd rfl hd) ?_
      show a + 0 + (q.val - a) = q.val
      omega
    · rw [dif_neg hq2]
      refine concatenate_apply_piece 1 [⟨⟨2, ![r, a]⟩, x₁⟩, ⟨⟨2, ![r, b]⟩, x₂⟩, ⟨⟨2, ![r, c]⟩, x₃⟩] h (ix2 p q) 2 (by show 2 < 3; omega) _ x₃ rfl rfl (a + (b + 0)) rfl (ix2 p ⟨q.val - (a + b), by omega⟩)
        (fun d hd => match d, hd with | ⟨0, _⟩, _ => rfl | ⟨1, _⟩, hd => absurd rfl hd) ?_
      show a + (b + 0) + (q.val - (a + b)) = q.val
      omega

/-- A matrix with `e` more columns of a padding value on the right: inside it is the matrix, outside the value. -/
theorem padCols_apply {r a e n : ℕ} (hn : n = a + e) {u : Shape}
    (x : (⟨2, ![r, a]⟩ : Shape).Idx → α) (v : u.Idx → α)
    (h : (⟨2, ![r, a]⟩ : Shape).Pads (![0, 0] : Fin 2 → ℕ) ![0, e] ![0, 0] ⟨2, ![r, n]⟩) (hu : 0 < u.numel)
    (p : Fin r) (q : Fin n) :
    pad ⟨2, ![r, n]⟩ ![0, 0] ![0, e] ![0, 0] x v h hu (ix2 p q)
      = if hq : q.val < a then x (ix2 p ⟨q.val, hq⟩) else v (Shape.Idx.first hu) := by
  by_cases hq : q.val < a
  · rw [dif_pos hq]
    refine pad_apply_of_inside _ _ _ x v h hu (ix2 p q) (ix2 p ⟨q.val, hq⟩) (fun d => match d with | ⟨0, _⟩ => ?_ | ⟨1, _⟩ => ?_)
    · show p.val = 0 + p.val * (0 + 1); omega
    · show q.val = 0 + q.val * (0 + 1); omega
  · rw [dif_neg hq]
    refine pad_apply_of_not_inside _ _ _ x v h hu (ix2 p q) ⟨1, by show 1 < 2; omega⟩ ?_
    show ¬(0 ≤ q.val ∧ (q.val - 0) % (0 + 1) = 0 ∧ (q.val - 0) / (0 + 1) < a)
    rintro ⟨-, -, h3⟩
    simp at h3
    omega

/-- The scalar zero spread over any shape is zero everywhere. -/
theorem zeros_apply {T : Shape} (h : (⟨0, ![]⟩ : Shape).BroadcastsInDim T ![]) (j : T.Idx) :
    broadcastInDim T ![] h (constant (F := Ideal) ⟨0, ![]⟩ .f32 0x00000000#32) j = (0 : EReal) :=
  (broadcastInDim_scalar_apply h _ j).trans ((constant_apply _ _).trans Ideal.ofBits_zero_f32)

end Cert.MatLayout

end
-- ==== Proof.MatNets.lean ====
/-
  The three ways the wide network's weight matrices are laid out, read at a pair of coordinates.

  Each matrix is a transpose of two blocks stacked by rows. For the block-diagonal ones each block is a weight matrix
  beside a block of zeros (on its right for the first, on its left for the second); for the first density layer the
  first block is the 63-column matrix padded with eight columns of a zero value and the second the 71-column matrix; for
  the first colour layer each block is the view columns, then the own geometry columns and a block of zeros in the
  order that puts each half's geometry columns under its own inputs.
-/
import proofs.«168278_j48120813584957_2_alg».proof.Proof.Nets
import proofs.«168278_j48120813584957_2_alg».proof.Proof.MatLayout

noncomputable section

namespace Cert.MatLayout

open Idealize.ShloMosaic Idealize.ShloMosaic.ValueIdx Cert.Nets

/-- A block-diagonal matrix built as `[[b, 0], [0, f]]` and transposed is `blockDiagT` of the two blocks. -/
theorem blockDiagT_read {A B : ℕ} (NA NB : ℕ) (hNA : NA = A + A) (hNB : NB = B + B)
    (b f z₁ z₂ : (⟨2, ![B, A]⟩ : Shape).Idx → EReal) (hz₁ : ∀ i, z₁ i = 0) (hz₂ : ∀ i, z₂ i = 0)
    (h1 : Shape.Concatenates [(⟨2, ![B, A]⟩ : Shape), ⟨2, ![B, A]⟩] ⟨2, ![B, NA]⟩ 1)
    (h0 : Shape.Concatenates [(⟨2, ![B, NA]⟩ : Shape), ⟨2, ![B, NA]⟩] ⟨2, ![NB, NA]⟩ 0)
    (ht : (⟨2, ![NB, NA]⟩ : Shape).Transposes [1, 0] ⟨2, ![NA, NB]⟩) (k : Fin NA) (j : Fin NB) :
    transpose ⟨2, ![NA, NB]⟩ [1, 0]
      (concatenate ⟨2, ![NB, NA]⟩ 0
        [⟨⟨2, ![B, NA]⟩, concatenate ⟨2, ![B, NA]⟩ 1 [⟨⟨2, ![B, A]⟩, b⟩, ⟨⟨2, ![B, A]⟩, z₁⟩] h1⟩,
         ⟨⟨2, ![B, NA]⟩, concatenate ⟨2, ![B, NA]⟩ 1 [⟨⟨2, ![B, A]⟩, z₂⟩, ⟨⟨2, ![B, A]⟩, f⟩] h1⟩] h0) ht (ix2 k j)
      = blockDiagT NA NB (mat b) (mat f) k j := by
  rw [transpose_ix2_apply, catRows_apply hNB]
  unfold blockDiagT mat
  by_cases hj : j.val < B
  · rw [dif_pos hj, dif_pos hj, catCols_apply hNA]
    by_cases hk : k.val < A
    · rw [dif_pos hk, dif_pos hk]
    · rw [dif_neg hk, dif_neg hk]; exact hz₁ _
  · have hj2 : j.val - B < B := by omega
    rw [dif_neg hj, dif_neg hj, dif_pos hj2, catCols_apply hNA]
    by_cases hk : k.val < A
    · rw [dif_pos hk, dif_neg (by omega : ¬(A ≤ k.val ∧ k.val - A < A))]; exact hz₂ _
    · rw [dif_neg hk, dif_pos (by omega : A ≤ k.val ∧ k.val - A < A)]

/-- The first density layer: the 63-column matrix padded to 71 columns with a zero value, over the 71-column matrix,
    transposed, is `stackT` of the two. -/
theorem stackT_read (b : (⟨2, ![64, 63]⟩ : Shape).Idx → EReal) (f : (⟨2, ![64, 71]⟩ : Shape).Idx → EReal)
    {u : Shape} (v : u.Idx → EReal) (hu : 0 < u.numel) (hv : v (Shape.Idx.first hu) = 0)
    (hp : (⟨2, ![64, 63]⟩ : Shape).Pads (![0, 0] : Fin 2 → ℕ) ![0, 8] ![0, 0] ⟨2, ![64, 71]⟩)
    (h0 : Shape.Concatenates [(⟨2, ![64, 71]⟩ : Shape), ⟨2, ![64, 71]⟩] ⟨2, ![128, 71]⟩ 0)
    (ht : (⟨2, ![128, 71]⟩ : Shape).Transposes [1, 0] ⟨2, ![71, 128]⟩) (k : Fin 71) (j : Fin 128) :
    transpose ⟨2, ![71, 128]⟩ [1, 0]
      (concatenate ⟨2, ![128, 71]⟩ 0
        [⟨⟨2, ![64, 71]⟩, pad ⟨2, ![64, 71]⟩ ![0, 0] ![0, 8] ![0, 0] b v hp hu⟩, ⟨⟨2, ![64, 71]⟩, f⟩] h0) ht (ix2 k j)
      = stackT (mat b) (mat f) k j := by
  rw [transpose_ix2_apply, catRows_apply (a := 64) (b := 64) rfl]
  unfold stackT mat
  by_cases hj : j.val < 64
  · rw [dif_pos hj, dif_pos hj, padCols_apply (a := 63) (e := 8) rfl]
    by_cases hk : k.val < 63
    · rw [dif_pos hk, dif_pos hk]
    · rw [dif_neg hk, dif_neg hk]; exact hv
  · rw [dif_neg hj, dif_neg hj]

/-- The first colour layer: `[views | own geometry | 0]` of the first matrix over `[views | 0 | own geometry]` of the
    second, transposed, is `colorInT` of the two. -/
theorem colorInT_read (b f : (⟨2, ![64, 42]⟩ : Shape).Idx → EReal)
    (z₁ z₂ : (⟨2, ![64, 15]⟩ : Shape).Idx → EReal) (hz₁ : ∀ i, z₁ i = 0) (hz₂ : ∀ i, z₂ i = 0)
    (hs0 : (⟨2, ![64, 42]⟩ : Shape).Slices ![0, 0] ⟨2, ![64, 27]⟩)
    (hs27 : (⟨2, ![64, 42]⟩ : Shape).Slices ![0, 27] ⟨2, ![64, 15]⟩)
    (h3 : Shape.Concatenates [(⟨2, ![64, 27]⟩ : Shape), ⟨2, ![64, 15]⟩, ⟨2, ![64, 15]⟩] ⟨2, ![64, 57]⟩ 1)
    (h0 : Shape.Concatenates [(⟨2, ![64, 57]⟩ : Shape), ⟨2, ![64, 57]⟩] ⟨2, ![128, 57]⟩ 0)
    (ht : (⟨2, ![128, 57]⟩ : Shape).Transposes [1, 0] ⟨2, ![57, 128]⟩) (i : Fin 57) (j : Fin 128) :
    transpose ⟨2, ![57, 128]⟩ [1, 0]
      (concatenate ⟨2, ![128, 57]⟩ 0
        [⟨⟨2, ![64, 57]⟩, concatenate ⟨2, ![64, 57]⟩ 1
            [⟨⟨2, ![64, 27]⟩, extractStridedSlice ⟨2, ![64, 27]⟩ ![0, 0] b hs0⟩,
             ⟨⟨2, ![64, 15]⟩, extractStridedSlice ⟨2, ![64, 15]⟩ ![0, 27] b hs27⟩,
             ⟨⟨2, ![64, 15]⟩, z₁⟩] h3⟩,
         ⟨⟨2, ![64, 57]⟩, concatenate ⟨2, ![64, 57]⟩ 1
            [⟨⟨2, ![64, 27]⟩, extractStridedSlice ⟨2, ![64, 27]⟩ ![0, 0] f hs0⟩,
             ⟨⟨2, ![64, 15]⟩, z₂⟩,
             ⟨⟨2, ![64, 15]⟩, extractStridedSlice ⟨2, ![64, 15]⟩ ![0, 27] f hs27⟩] h3⟩] h0) ht (ix2 i j)
      = colorInT (mat b) (mat f) i j := by
  rw [transpose_ix2_apply, catRows_apply (a := 64) (b := 64) rfl]
  unfold colorInT mat
  by_cases hj : j.val < 64
  · rw [dif_pos hj, dif_pos hj, catCols3_apply (a := 27) (b := 15) (c := 15) rfl]
    by_cases hi : i.val < 27
    · rw [dif_pos hi, dif_pos (by omega : i.val < 42)]
      exact slice2_axis1_apply 0 b hs0 _ _ _ (by show i.val = 0 + i.val; omega)
    · rw [dif_neg hi]
      by_cases hi2 : i.val < 27 + 15
      · rw [dif_pos hi2, dif_pos (by omega : i.val < 42)]
        exact slice2_axis1_apply 27 b hs27 _ _ _ (by show i.val = 27 + (i.val - 27); omega)
      · rw [dif_neg hi2, dif_neg (by omega : ¬ i.val < 42)]; exact hz₁ _
  · rw [dif_neg hj, dif_neg hj, catCols3_apply (a := 27) (b := 15) (c := 15) rfl]
    by_cases hi : i.val < 27
    · rw [dif_pos hi, dif_pos hi]
      exact slice2_axis1_apply 0 f hs0 _ _ _ (by show i.val = 0 + i.val; omega)
    · rw [dif_neg hi, dif_neg hi]
      by_cases hi2 : i.val < 27 + 15
      · rw [dif_pos hi2, dif_pos (by omega : i.val < 42)]; exact hz₂ _
      · rw [dif_neg hi2, dif_neg (by omega : ¬ i.val < 42)]
        exact slice2_axis1_apply 27 f hs27 _ _ _ (by show i.val - 15 = 27 + (i.val - (27 + 15)); omega)

end Cert.MatLayout

end
-- ==== Proof.WeightsA.lean ====
/-
  The first density layer's matrix: the two networks' first layers stacked, the narrower one padded with zeros.
-/
import proofs.«168278_j48120813584957_2_alg».proof.Proof.WeightsVh
import proofs.«168278_j48120813584957_2_alg».proof.Proof.MatNets

set_option maxRecDepth 16384

noncomputable section

namespace Cert.KernelIdeal.Weights

open Cert.KernelIdeal Cert.KernelIdeal.Gen
open Idealize.ShloMosaic Idealize.ShloMosaic.TcCoe Idealize.ShloMosaic.ValueIdx
open Cert.MatLayout

variable (m : (ℓ : Loc nD τ sig) → Buf (Elt Ideal) ℓ) (c : Dev nD)

set_option maxHeartbeats 4000000 in
/-- The matrix in `main_v36`: the 63-column matrix `main_arg1`, padded with eight columns of the integer zero
    converted to a float, over the 71-column matrix `main_arg8`, transposed. -/
theorem v36_apply (k : Fin 71) (j : Fin 128) :
    (Vh m c main_v36 : S71x128.Idx → EReal) (ix2 k j)
      = Cert.Nets.stackT
          (Cert.Nets.mat (m ((c : Thread nD τ).loc main_arg1) : S64x63.Idx → EReal))
          (Cert.Nets.mat (m ((c : Thread nD τ).loc main_arg8) : S64x71.Idx → EReal)) k j := by
  open_host
  host_results
  show transpose S71x128 [1, 0]
      (concatenate S128x71 0
        [⟨S64x71, pad S64x71 ![0, 0] ![0, 8] ![0, 0] (m ((c : Thread nD τ).loc main_arg1) : S64x63.Idx → EReal)
            (sitofp .f32 (constantI S_ 32 0#32) : FVec Ideal S_ .f32) pads_S64x63_S64x71_000_080 h_S_⟩,
         ⟨S64x71, (m ((c : Thread nD τ).loc main_arg8) : S64x71.Idx → EReal)⟩]
        concatenates_S64x71_S64x71_S128x71_d0)
      transposes_S128x71_S71x128_1_0 (ix2 k j) = _
  exact stackT_read _ _ (sitofp .f32 (constantI S_ 32 0#32) : FVec Ideal S_ .f32) h_S_ (sitofp_zero (φ := .f32))
    pads_S64x63_S64x71_000_080 concatenates_S64x71_S64x71_S128x71_d0 transposes_S128x71_S71x128_1_0 k j

end Cert.KernelIdeal.Weights

end
-- ==== Proof.WeightsB.lean ====
/-
  The second and third density layers' matrices: block-diagonal, transposed.
-/
import proofs.«168278_j48120813584957_2_alg».proof.Proof.WeightsVh
import proofs.«168278_j48120813584957_2_alg».proof.Proof.MatNets

set_option maxRecDepth 16384

noncomputable section

namespace Cert.KernelIdeal.Weights

open Cert.KernelIdeal Cert.KernelIdeal.Gen
open Idealize.ShloMosaic Idealize.ShloMosaic.TcCoe Idealize.ShloMosaic.ValueIdx
open Cert.MatLayout

variable (m : (ℓ : Loc nD τ sig) → Buf (Elt Ideal) ℓ) (c : Dev nD)

set_option maxHeartbeats 4000000 in
/-- The matrix in `main_v37`: the block-diagonal matrix of `main_arg2` and `main_arg9`, transposed. -/
theorem v37_apply (k : Fin 128) (j : Fin 128) :
    (Vh m c main_v37 : S128x128.Idx → EReal) (ix2 k j)
      = Cert.Nets.blockDiagT 128 128
          (Cert.Nets.mat (m ((c : Thread nD τ).loc main_arg2) : S64x64.Idx → EReal))
          (Cert.Nets.mat (m ((c : Thread nD τ).loc main_arg9) : S64x64.Idx → EReal)) k j := by
  open_host
  host_results
  exact blockDiagT_read (A := 64) (B := 64) 128 128 rfl rfl _ _ _ _ (zeros_apply _) (zeros_apply _) _ _ _ k j

set_option maxHeartbeats 4000000 in
/-- The matrix in `main_v38`: the block-diagonal matrix of `main_arg3` and `main_arg10`, transposed. -/
theorem v38_apply (k : Fin 128) (j : Fin 34) :
    (Vh m c main_v38 : S128x34.Idx → EReal) (ix2 k j)
      = Cert.Nets.blockDiagT 128 34
          (Cert.Nets.mat (m ((c : Thread nD τ).loc main_arg3) : S17x64.Idx → EReal))
          (Cert.Nets.mat (m ((c : Thread nD τ).loc main_arg10) : S17x64.Idx → EReal)) k j := by
  open_host
  host_results
  exact blockDiagT_read (A := 64) (B := 17) 128 34 rfl rfl _ _ _ _ (zeros_apply _) (zeros_apply _) _ _ _ k j

end Cert.KernelIdeal.Weights

end
-- ==== Proof.WeightsC.lean ====
/-
  The last three colour layers' matrices: block-diagonal, transposed.
-/
import proofs.«168278_j48120813584957_2_alg».proof.Proof.WeightsVh
import proofs.«168278_j48120813584957_2_alg».proof.Proof.MatNets

set_option maxRecDepth 16384

noncomputable section

namespace Cert.KernelIdeal.Weights

open Cert.KernelIdeal Cert.KernelIdeal.Gen
open Idealize.ShloMosaic Idealize.ShloMosaic.TcCoe Idealize.ShloMosaic.ValueIdx
open Cert.MatLayout

variable (m : (ℓ : Loc nD τ sig) → Buf (Elt Ideal) ℓ) (c : Dev nD)

set_option maxHeartbeats 4000000 in
/-- The matrix in `main_v40`: the block-diagonal matrix of `main_arg5` and `main_arg12`, transposed. -/
theorem v40_apply (k : Fin 128) (j : Fin 128) :
    (Vh m c main_v40 : S128x128.Idx → EReal) (ix2 k j)
      = Cert.Nets.blockDiagT 128 128
          (Cert.Nets.mat (m ((c : Thread nD τ).loc main_arg5) : S64x64.Idx → EReal))
          (Cert.Nets.mat (m ((c : Thread nD τ).loc main_arg12) : S64x64.Idx → EReal)) k j := by
  open_host
  host_results
  exact blockDiagT_read (A := 64) (B := 64) 128 128 rfl rfl _ _ _ _ (zeros_apply _) (zeros_apply _) _ _ _ k j

set_option maxHeartbeats 4000000 in
/-- The matrix in `main_v41`: the block-diagonal matrix of `main_arg6` and `main_arg13`, transposed. -/
theorem v41_apply (k : Fin 128) (j : Fin 128) :
    (Vh m c main_v41 : S128x128.Idx → EReal) (ix2 k j)
      = Cert.Nets.blockDiagT 128 128
          (Cert.Nets.mat (m ((c : Thread nD τ).loc main_arg6) : S64x64.Idx → EReal))
          (Cert.Nets.mat (m ((c : Thread nD τ).loc main_arg13) : S64x64.Idx → EReal)) k j := by
  open_host
  host_results
  exact blockDiagT_read (A := 64) (B := 64) 128 128 rfl rfl _ _ _ _ (zeros_apply _) (zeros_apply _) _ _ _ k j

set_option maxHeartbeats 4000000 in
/-- The matrix in `main_v42`: the block-diagonal matrix of `main_arg7` and `main_arg14`, transposed. -/
theorem v42_apply (k : Fin 128) (j : Fin 6) :
    (Vh m c main_v42 : S128x6.Idx → EReal) (ix2 k j)
      = Cert.Nets.blockDiagT 128 6
          (Cert.Nets.mat (m ((c : Thread nD τ).loc main_arg7) : S3x64.Idx → EReal))
          (Cert.Nets.mat (m ((c : Thread nD τ).loc main_arg14) : S3x64.Idx → EReal)) k j := by
  open_host
  host_results
  exact blockDiagT_read (A := 64) (B := 3) 128 6 rfl rfl _ _ _ _ (zeros_apply _) (zeros_apply _) _ _ _ k j

end Cert.KernelIdeal.Weights

end
-- ==== Proof.WeightsD.lean ====
/-
  The first colour layer's matrix: each half reads the views and its own geometry features.
-/
import proofs.«168278_j48120813584957_2_alg».proof.Proof.WeightsVh
import proofs.«168278_j48120813584957_2_alg».proof.Proof.MatNets

set_option maxRecDepth 16384

noncomputable section

namespace Cert.KernelIdeal.Weights

open Cert.KernelIdeal Cert.KernelIdeal.Gen
open Idealize.ShloMosaic Idealize.ShloMosaic.TcCoe Idealize.ShloMosaic.ValueIdx
open Cert.MatLayout

variable (m : (ℓ : Loc nD τ sig) → Buf (Elt Ideal) ℓ) (c : Dev nD)

set_option maxHeartbeats 4000000 in
/-- The matrix in `main_v39`: `[views | geometry | 0]` of `main_arg4` over `[views | 0 | geometry]` of
    `main_arg11`, transposed. -/
theorem v39_apply (i : Fin 57) (j : Fin 128) :
    (Vh m c main_v39 : S57x128.Idx → EReal) (ix2 i j)
      = Cert.Nets.colorInT
          (Cert.Nets.mat (m ((c : Thread nD τ).loc main_arg4) : S64x42.Idx → EReal))
          (Cert.Nets.mat (m ((c : Thread nD τ).loc main_arg11) : S64x42.Idx → EReal)) i j := by
  open_host
  host_results
  show transpose S57x128 [1, 0]
      (concatenate S128x57 0
        [⟨S64x57, concatenate S64x57 1
            [⟨S64x27, extractStridedSlice S64x27 ![0, 0] (m ((c : Thread nD τ).loc main_arg4) : S64x42.Idx → EReal) slices_S64x42_S64x27_0_0⟩,
             ⟨S64x15, extractStridedSlice S64x15 ![0, 27] (m ((c : Thread nD τ).loc main_arg4) : S64x42.Idx → EReal) slices_S64x42_S64x15_0_27⟩,
             ⟨S64x15, broadcastInDim S64x15 ![] bcast_S_S64x15 (constant (F := Ideal) S_ .f32 0x00000000#32)⟩]
            concatenates_S64x27_S64x15_S64x15_S64x57_d1⟩,
         ⟨S64x57, concatenate S64x57 1
            [⟨S64x27, extractStridedSlice S64x27 ![0, 0] (m ((c : Thread nD τ).loc main_arg11) : S64x42.Idx → EReal) slices_S64x42_S64x27_0_0⟩,
             ⟨S64x15, broadcastInDim S64x15 ![] bcast_S_S64x15 (constant (F := Ideal) S_ .f32 0x00000000#32)⟩,
             ⟨S64x15, extractStridedSlice S64x15 ![0, 27] (m ((c : Thread nD τ).loc main_arg11) : S64x42.Idx → EReal) slices_S64x42_S64x15_0_27⟩]
            concatenates_S64x27_S64x15_S64x15_S64x57_d1⟩]
        concatenates_S64x57_S64x57_S128x57_d0)
      transposes_S128x57_S57x128_1_0 (ix2 i j) = _
  exact colorInT_read _ _ _ _ (zeros_apply bcast_S_S64x15) (zeros_apply bcast_S_S64x15)
    slices_S64x42_S64x27_0_0 slices_S64x42_S64x15_0_27 concatenates_S64x27_S64x15_S64x15_S64x57_d1
    concatenates_S64x57_S64x57_S128x57_d0 transposes_S128x57_S57x128_1_0 i j

end Cert.KernelIdeal.Weights

end
-- ==== Proof.Weights.lean ====
/-
  The seven weight matrices the host operations build before the region, each read at a pair of coordinates as the
  matrix of the wide network it is: see the four modules imported here.
-/
import proofs.«168278_j48120813584957_2_alg».proof.Proof.WeightsA
import proofs.«168278_j48120813584957_2_alg».proof.Proof.WeightsB
import proofs.«168278_j48120813584957_2_alg».proof.Proof.WeightsC
import proofs.«168278_j48120813584957_2_alg».proof.Proof.WeightsD
-- ==== Proof.KernelRun.lean ====
/-
  The kernel program's run, read: the result array ends holding `Cert.Nets.G` of the fifteen argument arrays.

  The region finds the first argument as launched and, in its seven weight windows, the matrices the host lines
  built: a row stack, five block-diagonal matrices and the first colour layer's matrix, all transposed. Over exactly
  those matrices the wide network computes, row by row, what the two separate networks compute
  (`kernelRow_eq_refRow`): every extra term of a wide sum is a product with an exact zero.
-/
import proofs.«168278_j48120813584957_2_alg».proof.Proof.KernelValue
import proofs.«168278_j48120813584957_2_alg».proof.Proof.Fused
import proofs.«168278_j48120813584957_2_alg».proof.Proof.Weights

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx

variable (m : (ℓ : Loc nD τ sig) → Buf (Elt Ideal) ℓ) (ρ : Dev nD → PrngReg)

/-- The wide network over the arrays the region finds is the two networks over the argument arrays. -/
theorem wide_eq_G (c : Dev nD) :
    wide (V m c main_arg0) (V m c main_v36) (V m c main_v37) (V m c main_v38) (V m c main_v39) (V m c main_v40) (V m c main_v41) (V m c main_v42)
      = Cert.Nets.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have h1 : Cert.Nets.mat (V m c main_v36 : S71x128.Idx → EReal)
      = Cert.Nets.stackT (Cert.Nets.mat (m ((c : Thread nD τ).loc main_arg1) : S64x63.Idx → EReal)) (Cert.Nets.mat (m ((c : Thread nD τ).loc main_arg8) : S64x71.Idx → EReal)) :=
    funext fun k => funext fun j => Cert.KernelIdeal.Weights.v36_apply m c k j
  have h2 : Cert.Nets.mat (V m c main_v37 : S128x128.Idx → EReal)
      = Cert.Nets.blockDiagT 128 128 (Cert.Nets.mat (m ((c : Thread nD τ).loc main_arg2) : S64x64.Idx → EReal)) (Cert.Nets.mat (m ((c : Thread nD τ).loc main_arg9) : S64x64.Idx → EReal)) :=
    funext fun k => funext fun j => Cert.KernelIdeal.Weights.v37_apply m c k j
  have h3 : Cert.Nets.mat (V m c main_v38 : S128x34.Idx → EReal)
      = Cert.Nets.blockDiagT 128 34 (Cert.Nets.mat (m ((c : Thread nD τ).loc main_arg3) : S17x64.Idx → EReal)) (Cert.Nets.mat (m ((c : Thread nD τ).loc main_arg10) : S17x64.Idx → EReal)) :=
    funext fun k => funext fun j => Cert.KernelIdeal.Weights.v38_apply m c k j
  have h4 : Cert.Nets.mat (V m c main_v39 : S57x128.Idx → EReal)
      = Cert.Nets.colorInT (Cert.Nets.mat (m ((c : Thread nD τ).loc main_arg4) : S64x42.Idx → EReal)) (Cert.Nets.mat (m ((c : Thread nD τ).loc main_arg11) : S64x42.Idx → EReal)) :=
    funext fun k => funext fun j => Cert.KernelIdeal.Weights.v39_apply m c k j
  have h5 : Cert.Nets.mat (V m c main_v40 : S128x128.Idx → EReal)
      = Cert.Nets.blockDiagT 128 128 (Cert.Nets.mat (m ((c : Thread nD τ).loc main_arg5) : S64x64.Idx → EReal)) (Cert.Nets.mat (m ((c : Thread nD τ).loc main_arg12) : S64x64.Idx → EReal)) :=
    funext fun k => funext fun j => Cert.KernelIdeal.Weights.v40_apply m c k j
  have h6 : Cert.Nets.mat (V m c main_v41 : S128x128.Idx → EReal)
      = Cert.Nets.blockDiagT 128 128 (Cert.Nets.mat (m ((c : Thread nD τ).loc main_arg6) : S64x64.Idx → EReal)) (Cert.Nets.mat (m ((c : Thread nD τ).loc main_arg13) : S64x64.Idx → EReal)) :=
    funext fun k => funext fun j => Cert.KernelIdeal.Weights.v41_apply m c k j
  have h7 : Cert.Nets.mat (V m c main_v42 : S128x6.Idx → EReal)
      = Cert.Nets.blockDiagT 128 6 (Cert.Nets.mat (m ((c : Thread nD τ).loc main_arg7) : S3x64.Idx → EReal)) (Cert.Nets.mat (m ((c : Thread nD τ).loc main_arg14) : S3x64.Idx → EReal)) :=
    funext fun k => funext fun j => Cert.KernelIdeal.Weights.v42_apply m c k j
  funext i
  unfold wide Cert.Nets.G
  rw [h1, h2, h3, h4, h5, h6, h7, V_main_arg0]
  exact Cert.Nets.kernelRow_eq_refRow _ _ _ _ _ _ _ _ _ _ _ _ _ _ _ (i 1)

/-- The run, read: every execution terminates, the result array holds `G` of the arguments, the arguments are unchanged. -/
theorem run : θ_run defs (onTc (τ := τ) (main (F := Ideal))) ⟨m, fun _ => 0, ρ⟩ fun r => ∀ c : Dev nD,
      r.2.mem ((c : Thread nD τ).loc main_v43) = Cert.Nets.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨((h c).1 8).trans ((final8 m c).trans (wide_eq_G m c)), kept_args m r h c⟩)
    (run_main m ρ)

end Cert.KernelIdeal.HandValue

end
-- ==== Proof.RefIsG.lean ====
/-
  The reference program's result array is the function `Cert.Nets.G` of its fifteen argument arrays.

  Each stage of the reference is read at an index `(r, j)` and identified with the corresponding layer of
  `Cert.Nets.refRow` on row `r` of the input: a slice of the input with a sub-range of the row, a transposed weight
  with the weight matrix read the other way round, a `dot_general` with `Cert.Nets.dense`, the outlined rectifier with
  `Cert.Nets.relu`, the outlined softplus with `Cert.Nets.softplus`, the two-piece concatenation with
  `Cert.Nets.colorIn`, and the final four-piece concatenation, case by case on the column, with `Cert.Nets.blend`.
-/
import proofs.«168278_j48120813584957_2_alg».proof.Proof.Gen.ReferenceIdeal.Read
import proofs.«168278_j48120813584957_2_alg».proof.Proof.Nets

noncomputable section

namespace Cert.ReferenceIdeal.RefValue

open Cert.ReferenceIdeal Cert.ReferenceIdeal.Gen Cert.ReferenceIdeal.Read Idealize.ShloMosaic Idealize.ShloMosaic.ValueIdx
open Idealize.SL.Sem

/-! ## Facts about single numbers -/

/-- A number is never different from itself, so a selection on that comparison takes its second value. -/
theorem select_une_self (d a b : Ideal .f32) :
    Scalar.select (FloatOps.cmpf .une d d) a b = b := by
  simp [Scalar.select, Ideal.cmpf_def, Ideal.cmp]

/-- The outlined softplus on one number: the comparison of `a - 0` with itself is false, so the result is
    `max a 0 + log (1 + exp (-|a - 0|))`. -/
theorem softplus_stage (a z0 z2 z5 : Ideal .f32) (h0 : z0 = 0) (h2 : z2 = 0) :
    Scalar.select (FloatOps.cmpf .une (FloatOps.subf a z2) (FloatOps.subf a z2)) (FloatOps.addf a z5)
      (FloatOps.addf (FloatOps.maximumf a z0)
        (FloatOps.hostUnary .log1p (FloatOps.hostUnary .exp (FloatOps.hostNegf (FloatOps.hostAbsf (FloatOps.subf a z2))))))
      = Nets.softplus a := by
  subst h0 h2
  rw [select_une_self]
  exact Nets.softplus_of_neg a

/-- The rectifier on one number. -/
theorem relu_at {N : ℕ} (v : Fin N → EReal) (j : Fin N) (x z : Ideal .f32) (hx : x = v j) (hz : z = 0) :
    FloatOps.maximumf x z = Nets.relu v j := by
  subst hx hz; rfl

theorem add_at (x y a b : Ideal .f32) (hx : x = a) (hy : y = b) : FloatOps.addf x y = a + b := by
  subst hx hy; rfl
theorem mul_at (x y a b : Ideal .f32) (hx : x = a) (hy : y = b) : FloatOps.mulf x y = a * b := by
  subst hx hy; rfl
theorem div_at (x y a b : Ideal .f32) (hx : x = a) (hy : y = b) : FloatOps.hostDivf x y = Ideal.div a b := by
  subst hx hy; rfl

/-- A sum of products whose factors are, term by term, an input vector and a row of a weight matrix is the dense
    layer. -/
theorem dense_congr {N K : ℕ} (W : Fin N → Fin K → EReal) (h : Fin K → EReal) (j : Fin N) (f g : Fin K → EReal)
    (hf : ∀ k, f k = h k) (hg : ∀ k, g k = W j k) : ∑ k, f k * g k = Nets.dense W h j := by
  unfold Nets.dense
  exact Finset.sum_congr rfl fun k _ => by rw [hf, hg]

/-! ## The broadcast zeros of the outlined calls, and the broadcast constant -/
theorem z_call0_v0 (i : S1048576x64.Idx) : val_main_call0_v0 (F := Ideal) i = 0 :=
  (val_main_call0_v0_apply (F := Ideal) i).trans ((val_main_call0_cst_apply (F := Ideal) _).trans Ideal.ofBits_zero_f32)
theorem z_call1_v0 (i : S1048576x64.Idx) : val_main_call1_v0 (F := Ideal) i = 0 :=
  (val_main_call1_v0_apply (F := Ideal) i).trans ((val_main_call1_cst_apply (F := Ideal) _).trans Ideal.ofBits_zero_f32)
theorem z_call4_v0 (i : S1048576x64.Idx) : val_main_call4_v0 (F := Ideal) i = 0 :=
  (val_main_call4_v0_apply (F := Ideal) i).trans ((val_main_call4_cst_apply (F := Ideal) _).trans Ideal.ofBits_zero_f32)
theorem z_call5_v0 (i : S1048576x64.Idx) : val_main_call5_v0 (F := Ideal) i = 0 :=
  (val_main_call5_v0_apply (F := Ideal) i).trans ((val_main_call5_cst_apply (F := Ideal) _).trans Ideal.ofBits_zero_f32)
theorem z_call6_v0 (i : S1048576x64.Idx) : val_main_call6_v0 (F := Ideal) i = 0 :=
  (val_main_call6_v0_apply (F := Ideal) i).trans ((val_main_call6_cst_apply (F := Ideal) _).trans Ideal.ofBits_zero_f32)
theorem z_call7_v0 (i : S1048576x64.Idx) : val_main_call7_v0 (F := Ideal) i = 0 :=
  (val_main_call7_v0_apply (F := Ideal) i).trans ((val_main_call7_cst_apply (F := Ideal) _).trans Ideal.ofBits_zero_f32)
theorem z_call8_v0 (i : S1048576x64.Idx) : val_main_call8_v0 (F := Ideal) i = 0 :=
  (val_main_call8_v0_apply (F := Ideal) i).trans ((val_main_call8_cst_apply (F := Ideal) _).trans Ideal.ofBits_zero_f32)
theorem z_call11_v0 (i : S1048576x64.Idx) : val_main_call11_v0 (F := Ideal) i = 0 :=
  (val_main_call11_v0_apply (F := Ideal) i).trans ((val_main_call11_cst_apply (F := Ideal) _).trans Ideal.ofBits_zero_f32)
theorem z_call12_v0 (i : S1048576x64.Idx) : val_main_call12_v0 (F := Ideal) i = 0 :=
  (val_main_call12_v0_apply (F := Ideal) i).trans ((val_main_call12_cst_apply (F := Ideal) _).trans Ideal.ofBits_zero_f32)
theorem z_call13_v0 (i : S1048576x64.Idx) : val_main_call13_v0 (F := Ideal) i = 0 :=
  (val_main_call13_v0_apply (F := Ideal) i).trans ((val_main_call13_cst_apply (F := Ideal) _).trans Ideal.ofBits_zero_f32)
theorem z_call2_v0 (i : S1048576.Idx) : val_main_call2_v0 (F := Ideal) i = 0 :=
  (val_main_call2_v0_apply (F := Ideal) i).trans ((val_main_call2_cst_apply (F := Ideal) _).trans Ideal.ofBits_zero_f32)
theorem z_call2_v2 (i : S1048576.Idx) : val_main_call2_v2 (F := Ideal) i = 0 :=
  (val_main_call2_v2_apply (F := Ideal) i).trans ((val_main_call2_cst_apply (F := Ideal) _).trans Ideal.ofBits_zero_f32)
theorem z_call9_v0 (i : S1048576.Idx) : val_main_call9_v0 (F := Ideal) i = 0 :=
  (val_main_call9_v0_apply (F := Ideal) i).trans ((val_main_call9_cst_apply (F := Ideal) _).trans Ideal.ofBits_zero_f32)
theorem z_call9_v2 (i : S1048576.Idx) : val_main_call9_v2 (F := Ideal) i = 0 :=
  (val_main_call9_v2_apply (F := Ideal) i).trans ((val_main_call9_cst_apply (F := Ideal) _).trans Ideal.ofBits_zero_f32)
theorem z_call10_v0 (i : S1048576.Idx) : val_main_call10_v0 (F := Ideal) i = 0 :=
  (val_main_call10_v0_apply (F := Ideal) i).trans ((val_main_call10_cst_apply (F := Ideal) _).trans Ideal.ofBits_zero_f32)
theorem z_call10_v2 (i : S1048576.Idx) : val_main_call10_v2 (F := Ideal) i = 0 :=
  (val_main_call10_v2_apply (F := Ideal) i).trans ((val_main_call10_cst_apply (F := Ideal) _).trans Ideal.ofBits_zero_f32)
theorem eps_at (i : S1048576.Idx) : val_main_v58 (F := Ideal) i = Nets.eps :=
  (val_main_v58_apply (F := Ideal) i).trans (val_main_cst_apply (F := Ideal) _)

/-! ## Sub-ranges of a row of the input -/

theorem v0_at (a0 : FVec Ideal S1048576x98 .f32) (r : Fin 1048576) (k : Fin 71) :
    val_main_v0 (F := Ideal) a0 (ix2 r k) = Nets.ptsOf (Nets.rowOf a0 r) k :=
  (val_main_v0_apply (F := Ideal) a0 (ix2 r k)).trans (congrArg a0 (show idx_main_v0 (ix2 r k) = ix2 r (⟨k.val, by omega⟩ : Fin 98) from (by funext a; match a with | ⟨0, _⟩ => rfl | ⟨1, _⟩ => rfl)))

theorem v1_at (a0 : FVec Ideal S1048576x98 .f32) (r : Fin 1048576) (v : Fin 27) :
    val_main_v1 (F := Ideal) a0 (ix2 r v) = Nets.viewsOf (Nets.rowOf a0 r) v :=
  (val_main_v1_apply (F := Ideal) a0 (ix2 r v)).trans (congrArg a0 (show idx_main_v1 (ix2 r v) = ix2 r (⟨71 + v.val, by omega⟩ : Fin 98) from (by funext a; match a with | ⟨0, _⟩ => rfl | ⟨1, _⟩ => rfl)))

theorem v2_at (a0 : FVec Ideal S1048576x98 .f32) (r : Fin 1048576) (k : Fin 63) :
    val_main_v2 (F := Ideal) a0 (ix2 r k) = Nets.xyzOf (Nets.rowOf a0 r) k :=
  (val_main_v2_apply (F := Ideal) a0 (ix2 r k)).trans ((val_main_v0_apply (F := Ideal) a0 _).trans
    (congrArg a0 (show idx_main_v0 (idx_main_v2 (ix2 r k)) = ix2 r (⟨k.val, by omega⟩ : Fin 98) from (by funext a; match a with | ⟨0, _⟩ => rfl | ⟨1, _⟩ => rfl))))

/-! ## The background network, layer by layer -/

/-- The background density network's 17 outputs on row `r`. -/
abbrev bgH (a0 : FVec Ideal S1048576x98 .f32) (a1 : FVec Ideal S64x63 .f32) (a2 : FVec Ideal S64x64 .f32) (a3 : FVec Ideal S17x64 .f32) (r : Fin 1048576) : Fin 17 → EReal :=
  Nets.sigmaNet (Nets.mat a1) (Nets.mat a2) (Nets.mat a3) (Nets.xyzOf (Nets.rowOf a0 r))
/-- The background colour on row `r`. -/
abbrev bgCol (a0 : FVec Ideal S1048576x98 .f32) (a1 : FVec Ideal S64x63 .f32) (a2 : FVec Ideal S64x64 .f32) (a3 : FVec Ideal S17x64 .f32) (a4 : FVec Ideal S64x42 .f32) (a5 : FVec Ideal S64x64 .f32) (a6 : FVec Ideal S64x64 .f32) (a7 : FVec Ideal S3x64 .f32) (r : Fin 1048576) : Fin 3 → EReal :=
  Nets.colorNet (Nets.mat a4) (Nets.mat a5) (Nets.mat a6) (Nets.mat a7) (Nets.colorIn (Nets.viewsOf (Nets.rowOf a0 r)) (bgH a0 a1 a2 a3 r))

theorem v3_at (a1 : FVec Ideal S64x63 .f32) (k : Fin 63) (j : Fin 64) :
    val_main_v3 (F := Ideal) a1 (ix2 k j) = Nets.mat a1 j k :=
  (val_main_v3_apply (F := Ideal) a1 (ix2 k j)).trans (congrArg a1 (show idx_main_v3 (ix2 k j) = ix2 j k from (by funext a; match a with | ⟨0, _⟩ => rfl | ⟨1, _⟩ => rfl)))

theorem v6_at (a2 : FVec Ideal S64x64 .f32) (k : Fin 64) (j : Fin 64) :
    val_main_v6 (F := Ideal) a2 (ix2 k j) = Nets.mat a2 j k :=
  (val_main_v6_apply (F := Ideal) a2 (ix2 k j)).trans (congrArg a2 (show idx_main_v6 (ix2 k j) = ix2 j k from (by funext a; match a with | ⟨0, _⟩ => rfl | ⟨1, _⟩ => rfl)))

theorem v9_at (a3 : FVec Ideal S17x64 .f32) (k : Fin 64) (j : Fin 17) :
    val_main_v9 (F := Ideal) a3 (ix2 k j) = Nets.mat a3 j k :=
  (val_main_v9_apply (F := Ideal) a3 (ix2 k j)).trans (congrArg a3 (show idx_main_v9 (ix2 k j) = ix2 j k from (by funext a; match a with | ⟨0, _⟩ => rfl | ⟨1, _⟩ => rfl)))

theorem v19_at (a4 : FVec Ideal S64x42 .f32) (k : Fin 42) (j : Fin 64) :
    val_main_v19 (F := Ideal) a4 (ix2 k j) = Nets.mat a4 j k :=
  (val_main_v19_apply (F := Ideal) a4 (ix2 k j)).trans (congrArg a4 (show idx_main_v19 (ix2 k j) = ix2 j k from (by funext a; match a with | ⟨0, _⟩ => rfl | ⟨1, _⟩ => rfl)))

theorem v22_at (a5 : FVec Ideal S64x64 .f32) (k : Fin 64) (j : Fin 64) :
    val_main_v22 (F := Ideal) a5 (ix2 k j) = Nets.mat a5 j k :=
  (val_main_v22_apply (F := Ideal) a5 (ix2 k j)).trans (congrArg a5 (show idx_main_v22 (ix2 k j) = ix2 j k from (by funext a; match a with | ⟨0, _⟩ => rfl | ⟨1, _⟩ => rfl)))

theorem v25_at (a6 : FVec Ideal S64x64 .f32) (k : Fin 64) (j : Fin 64) :
    val_main_v25 (F := Ideal) a6 (ix2 k j) = Nets.mat a6 j k :=
  (val_main_v25_apply (F := Ideal) a6 (ix2 k j)).trans (congrArg a6 (show idx_main_v25 (ix2 k j) = ix2 j k from (by funext a; match a with | ⟨0, _⟩ => rfl | ⟨1, _⟩ => rfl)))

theorem v28_at (a7 : FVec Ideal S3x64 .f32) (k : Fin 64) (j : Fin 3) :
    val_main_v28 (F := Ideal) a7 (ix2 k j) = Nets.mat a7 j k :=
  (val_main_v28_apply (F := Ideal) a7 (ix2 k j)).trans (congrArg a7 (show idx_main_v28 (ix2 k j) = ix2 j k from (by funext a; match a with | ⟨0, _⟩ => rfl | ⟨1, _⟩ => rfl)))

theorem v4_at (a0 : FVec Ideal S1048576x98 .f32) (a1 : FVec Ideal S64x63 .f32) (r : Fin 1048576) (j : Fin 64) :
    val_main_v4 (F := Ideal) a0 a1 (ix2 r j) = (Nets.dense (Nets.mat a1) (Nets.xyzOf (Nets.rowOf a0 r))) j :=
  (val_main_v4_apply a0 a1 (ix2 r j)).trans (dense_congr _ _ _ _ _
    (fun k => (congrArg (val_main_v2 (F := Ideal) a0) (show lidx_main_v4 (ix2 r j) k = ix2 r k from (by funext a; match a with | ⟨0, _⟩ => rfl | ⟨1, _⟩ => rfl))).trans (v2_at a0 r k))
    (fun k => (congrArg (val_main_v3 (F := Ideal) a1) (show ridx_main_v4 (ix2 r j) k = ix2 k j from (by funext a; match a with | ⟨0, _⟩ => rfl | ⟨1, _⟩ => rfl))).trans (v3_at a1 k j)))

theorem v5_at (a0 : FVec Ideal S1048576x98 .f32) (a1 : FVec Ideal S64x63 .f32) (r : Fin 1048576) (j : Fin 64) :
    val_main_v5 (F := Ideal) a0 a1 (ix2 r j) = (Nets.relu (Nets.dense (Nets.mat a1) (Nets.xyzOf (Nets.rowOf a0 r)))) j :=
  (val_main_v5_apply (F := Ideal) a0 a1 (ix2 r j)).trans (relu_at _ _ _ _ (v4_at a0 a1 r j) (z_call0_v0 _))

theorem v7_at (a0 : FVec Ideal S1048576x98 .f32) (a1 : FVec Ideal S64x63 .f32) (a2 : FVec Ideal S64x64 .f32) (r : Fin 1048576) (j : Fin 64) :
    val_main_v7 (F := Ideal) a0 a1 a2 (ix2 r j) = (Nets.dense (Nets.mat a2) (Nets.relu (Nets.dense (Nets.mat a1) (Nets.xyzOf (Nets.rowOf a0 r))))) j :=
  (val_main_v7_apply a0 a1 a2 (ix2 r j)).trans (dense_congr _ _ _ _ _
    (fun k => (congrArg (val_main_v5 (F := Ideal) a0 a1) (show lidx_main_v7 (ix2 r j) k = ix2 r k from (by funext a; match a with | ⟨0, _⟩ => rfl | ⟨1, _⟩ => rfl))).trans (v5_at a0 a1 r k))
    (fun k => (congrArg (val_main_v6 (F := Ideal) a2) (show ridx_main_v7 (ix2 r j) k = ix2 k j from (by funext a; match a with | ⟨0, _⟩ => rfl | ⟨1, _⟩ => rfl))).trans (v6_at a2 k j)))

theorem v8_at (a0 : FVec Ideal S1048576x98 .f32) (a1 : FVec Ideal S64x63 .f32) (a2 : FVec Ideal S64x64 .f32) (r : Fin 1048576) (j : Fin 64) :
    val_main_v8 (F := Ideal) a0 a1 a2 (ix2 r j) = (Nets.relu (Nets.dense (Nets.mat a2) (Nets.relu (Nets.dense (Nets.mat a1) (Nets.xyzOf (Nets.rowOf a0 r)))))) j :=
  (val_main_v8_apply (F := Ideal) a0 a1 a2 (ix2 r j)).trans (relu_at _ _ _ _ (v7_at a0 a1 a2 r j) (z_call1_v0 _))

theorem v10_at (a0 : FVec Ideal S1048576x98 .f32) (a1 : FVec Ideal S64x63 .f32) (a2 : FVec Ideal S64x64 .f32) (a3 : FVec Ideal S17x64 .f32) (r : Fin 1048576) (j : Fin 17) :
    val_main_v10 (F := Ideal) a0 a1 a2 a3 (ix2 r j) = (bgH a0 a1 a2 a3 r) j :=
  (val_main_v10_apply a0 a1 a2 a3 (ix2 r j)).trans (dense_congr _ _ _ _ _
    (fun k => (congrArg (val_main_v8 (F := Ideal) a0 a1 a2) (show lidx_main_v10 (ix2 r j) k = ix2 r k from (by funext a; match a with | ⟨0, _⟩ => rfl | ⟨1, _⟩ => rfl))).trans (v8_at a0 a1 a2 r k))
    (fun k => (congrArg (val_main_v9 (F := Ideal) a3) (show ridx_main_v10 (ix2 r j) k = ix2 k j from (by funext a; match a with | ⟨0, _⟩ => rfl | ⟨1, _⟩ => rfl))).trans (v9_at a3 k j)))

theorem v12_at (a0 : FVec Ideal S1048576x98 .f32) (a1 : FVec Ideal S64x63 .f32) (a2 : FVec Ideal S64x64 .f32) (a3 : FVec Ideal S17x64 .f32) (r : Fin 1048576) :
    val_main_v12 (F := Ideal) a0 a1 a2 a3 (ix1 r) = (bgH a0 a1 a2 a3 r) (0 : Fin 17) :=
  (val_main_v12_apply (F := Ideal) a0 a1 a2 a3 (ix1 r)).trans ((val_main_v11_apply (F := Ideal) a0 a1 a2 a3 _).trans
    ((congrArg (val_main_v10 (F := Ideal) a0 a1 a2 a3) (show idx_main_v11 (idx_main_v12 (ix1 r)) = ix2 r (0 : Fin 17) from
      (by funext a; match a with | ⟨0, _⟩ => exact Fin.ext (Nat.div_one _) | ⟨1, _⟩ => rfl))).trans (v10_at a0 a1 a2 a3 r 0)))

theorem v13_at (a0 : FVec Ideal S1048576x98 .f32) (a1 : FVec Ideal S64x63 .f32) (a2 : FVec Ideal S64x64 .f32) (a3 : FVec Ideal S17x64 .f32) (r : Fin 1048576) :
    val_main_v13 (F := Ideal) a0 a1 a2 a3 (ix1 r) = Nets.softplus ((bgH a0 a1 a2 a3 r) (0 : Fin 17)) := by
  rw [val_main_v13_apply, val_main_call2_v4_apply, val_main_call2_v6_apply, val_main_call2_v11_apply, val_main_call2_v1_apply, val_main_call2_v10_apply, val_main_call2_v9_apply, val_main_call2_v8_apply, val_main_call2_v7_apply, val_main_call2_v3_apply, v12_at]
  exact softplus_stage _ _ _ _ (z_call2_v0 _) (z_call2_v2 _)

theorem v17_at (a0 : FVec Ideal S1048576x98 .f32) (a1 : FVec Ideal S64x63 .f32) (a2 : FVec Ideal S64x64 .f32) (a3 : FVec Ideal S17x64 .f32) (r : Fin 1048576) (g : Fin 15) :
    val_main_v17 (F := Ideal) a0 a1 a2 a3 (ix2 r g) = (bgH a0 a1 a2 a3 r) ⟨2 + g.val, by omega⟩ :=
  (val_main_v17_apply (F := Ideal) a0 a1 a2 a3 (ix2 r g)).trans ((congrArg (val_main_v10 (F := Ideal) a0 a1 a2 a3) (show idx_main_v17 (ix2 r g) = ix2 r (⟨2 + g.val, by omega⟩ : Fin 17) from (by funext a; match a with | ⟨0, _⟩ => rfl | ⟨1, _⟩ => rfl))).trans (v10_at a0 a1 a2 a3 r _))

theorem v18_at (a0 : FVec Ideal S1048576x98 .f32) (a1 : FVec Ideal S64x63 .f32) (a2 : FVec Ideal S64x64 .f32) (a3 : FVec Ideal S17x64 .f32) (r : Fin 1048576) (i : Fin 42) :
    val_main_v18 (F := Ideal) a0 a1 a2 a3 (ix2 r i) = (Nets.colorIn (Nets.viewsOf (Nets.rowOf a0 r)) (bgH a0 a1 a2 a3 r)) i := by
  unfold Nets.colorIn
  by_cases hi : i.val < 27
  · rw [dif_pos hi]
    unfold val_main_v18
    exact Eq.trans (concatenate_pair_apply_left (t := S1048576x42) (s₁ := S1048576x27) (s₂ := S1048576x15) 1 _ _ _ (ix2 r i) rfl (ix2 r (⟨i.val, hi⟩ : Fin 27))
      (fun b => by match b with | ⟨0, _⟩ => rfl | ⟨1, _⟩ => rfl)) (v1_at a0 r ⟨i.val, hi⟩)
  · rw [dif_neg hi]
    unfold val_main_v18
    have h2 : i.val - 27 < 15 := by have := i.isLt; omega
    exact Eq.trans (concatenate_pair_apply_right (t := S1048576x42) (s₁ := S1048576x27) (s₂ := S1048576x15) 1 _ _ _ (ix2 r i) rfl rfl (ix2 r (⟨i.val - 27, h2⟩ : Fin 15))
      (fun b hb => by match b, hb with | ⟨0, _⟩, _ => rfl | ⟨1, _⟩, hb => exact absurd rfl hb)
      (by show (i.val - 27) + 27 = i.val; omega)) (v17_at a0 a1 a2 a3 r ⟨i.val - 27, h2⟩)

theorem v20_at (a0 : FVec Ideal S1048576x98 .f32) (a1 : FVec Ideal S64x63 .f32) (a2 : FVec Ideal S64x64 .f32) (a3 : FVec Ideal S17x64 .f32) (a4 : FVec Ideal S64x42 .f32) (r : Fin 1048576) (j : Fin 64) :
    val_main_v20 (F := Ideal) a0 a1 a2 a3 a4 (ix2 r j) = (Nets.dense (Nets.mat a4) (Nets.colorIn (Nets.viewsOf (Nets.rowOf a0 r)) (bgH a0 a1 a2 a3 r))) j :=
  (val_main_v20_apply a0 a1 a2 a3 a4 (ix2 r j)).trans (dense_congr _ _ _ _ _
    (fun k => (congrArg (val_main_v18 (F := Ideal) a0 a1 a2 a3) (show lidx_main_v20 (ix2 r j) k = ix2 r k from (by funext a; match a with | ⟨0, _⟩ => rfl | ⟨1, _⟩ => rfl))).trans (v18_at a0 a1 a2 a3 r k))
    (fun k => (congrArg (val_main_v19 (F := Ideal) a4) (show ridx_main_v20 (ix2 r j) k = ix2 k j from (by funext a; match a with | ⟨0, _⟩ => rfl | ⟨1, _⟩ => rfl))).trans (v19_at a4 k j)))

theorem v21_at (a0 : FVec Ideal S1048576x98 .f32) (a1 : FVec Ideal S64x63 .f32) (a2 : FVec Ideal S64x64 .f32) (a3 : FVec Ideal S17x64 .f32) (a4 : FVec Ideal S64x42 .f32) (r : Fin 1048576) (j : Fin 64) :
    val_main_v21 (F := Ideal) a0 a1 a2 a3 a4 (ix2 r j) = (Nets.relu (Nets.dense (Nets.mat a4) (Nets.colorIn (Nets.viewsOf (Nets.rowOf a0 r)) (bgH a0 a1 a2 a3 r)))) j :=
  (val_main_v21_apply (F := Ideal) a0 a1 a2 a3 a4 (ix2 r j)).trans (relu_at _ _ _ _ (v20_at a0 a1 a2 a3 a4 r j) (z_call4_v0 _))

theorem v23_at (a0 : FVec Ideal S1048576x98 .f32) (a1 : FVec Ideal S64x63 .f32) (a2 : FVec Ideal S64x64 .f32) (a3 : FVec Ideal S17x64 .f32) (a4 : FVec Ideal S64x42 .f32) (a5 : FVec Ideal S64x64 .f32) (r : Fin 1048576) (j : Fin 64) :
    val_main_v23 (F := Ideal) a0 a1 a2 a3 a4 a5 (ix2 r j) = (Nets.dense (Nets.mat a5) (Nets.relu (Nets.dense (Nets.mat a4) (Nets.colorIn (Nets.viewsOf (Nets.rowOf a0 r)) (bgH a0 a1 a2 a3 r))))) j :=
  (val_main_v23_apply a0 a1 a2 a3 a4 a5 (ix2 r j)).trans (dense_congr _ _ _ _ _
    (fun k => (congrArg (val_main_v21 (F := Ideal) a0 a1 a2 a3 a4) (show lidx_main_v23 (ix2 r j) k = ix2 r k from (by funext a; match a with | ⟨0, _⟩ => rfl | ⟨1, _⟩ => rfl))).trans (v21_at a0 a1 a2 a3 a4 r k))
    (fun k => (congrArg (val_main_v22 (F := Ideal) a5) (show ridx_main_v23 (ix2 r j) k = ix2 k j from (by funext a; match a with | ⟨0, _⟩ => rfl | ⟨1, _⟩ => rfl))).trans (v22_at a5 k j)))

theorem v24_at (a0 : FVec Ideal S1048576x98 .f32) (a1 : FVec Ideal S64x63 .f32) (a2 : FVec Ideal S64x64 .f32) (a3 : FVec Ideal S17x64 .f32) (a4 : FVec Ideal S64x42 .f32) (a5 : FVec Ideal S64x64 .f32) (r : Fin 1048576) (j : Fin 64) :
    val_main_v24 (F := Ideal) a0 a1 a2 a3 a4 a5 (ix2 r j) = (Nets.relu (Nets.dense (Nets.mat a5) (Nets.relu (Nets.dense (Nets.mat a4) (Nets.colorIn (Nets.viewsOf (Nets.rowOf a0 r)) (bgH a0 a1 a2 a3 r)))))) j :=
  (val_main_v24_apply (F := Ideal) a0 a1 a2 a3 a4 a5 (ix2 r j)).trans (relu_at _ _ _ _ (v23_at a0 a1 a2 a3 a4 a5 r j) (z_call5_v0 _))

theorem v26_at (a0 : FVec Ideal S1048576x98 .f32) (a1 : FVec Ideal S64x63 .f32) (a2 : FVec Ideal S64x64 .f32) (a3 : FVec Ideal S17x64 .f32) (a4 : FVec Ideal S64x42 .f32) (a5 : FVec Ideal S64x64 .f32) (a6 : FVec Ideal S64x64 .f32) (r : Fin 1048576) (j : Fin 64) :
    val_main_v26 (F := Ideal) a0 a1 a2 a3 a4 a5 a6 (ix2 r j) = (Nets.dense (Nets.mat a6) (Nets.relu (Nets.dense (Nets.mat a5) (Nets.relu (Nets.dense (Nets.mat a4) (Nets.colorIn (Nets.viewsOf (Nets.rowOf a0 r)) (bgH a0 a1 a2 a3 r))))))) j :=
  (val_main_v26_apply a0 a1 a2 a3 a4 a5 a6 (ix2 r j)).trans (dense_congr _ _ _ _ _
    (fun k => (congrArg (val_main_v24 (F := Ideal) a0 a1 a2 a3 a4 a5) (show lidx_main_v26 (ix2 r j) k = ix2 r k from (by funext a; match a with | ⟨0, _⟩ => rfl | ⟨1, _⟩ => rfl))).trans (v24_at a0 a1 a2 a3 a4 a5 r k))
    (fun k => (congrArg (val_main_v25 (F := Ideal) a6) (show ridx_main_v26 (ix2 r j) k = ix2 k j from (by funext a; match a with | ⟨0, _⟩ => rfl | ⟨1, _⟩ => rfl))).trans (v25_at a6 k j)))

theorem v27_at (a0 : FVec Ideal S1048576x98 .f32) (a1 : FVec Ideal S64x63 .f32) (a2 : FVec Ideal S64x64 .f32) (a3 : FVec Ideal S17x64 .f32) (a4 : FVec Ideal S64x42 .f32) (a5 : FVec Ideal S64x64 .f32) (a6 : FVec Ideal S64x64 .f32) (r : Fin 1048576) (j : Fin 64) :
    val_main_v27 (F := Ideal) a0 a1 a2 a3 a4 a5 a6 (ix2 r j) = (Nets.relu (Nets.dense (Nets.mat a6) (Nets.relu (Nets.dense (Nets.mat a5) (Nets.relu (Nets.dense (Nets.mat a4) (Nets.colorIn (Nets.viewsOf (Nets.rowOf a0 r)) (bgH a0 a1 a2 a3 r)))))))) j :=
  (val_main_v27_apply (F := Ideal) a0 a1 a2 a3 a4 a5 a6 (ix2 r j)).trans (relu_at _ _ _ _ (v26_at a0 a1 a2 a3 a4 a5 a6 r j) (z_call6_v0 _))

theorem v29_at (a0 : FVec Ideal S1048576x98 .f32) (a1 : FVec Ideal S64x63 .f32) (a2 : FVec Ideal S64x64 .f32) (a3 : FVec Ideal S17x64 .f32) (a4 : FVec Ideal S64x42 .f32) (a5 : FVec Ideal S64x64 .f32) (a6 : FVec Ideal S64x64 .f32) (a7 : FVec Ideal S3x64 .f32) (r : Fin 1048576) (j : Fin 3) :
    val_main_v29 (F := Ideal) a0 a1 a2 a3 a4 a5 a6 a7 (ix2 r j) = (bgCol a0 a1 a2 a3 a4 a5 a6 a7 r) j :=
  (val_main_v29_apply a0 a1 a2 a3 a4 a5 a6 a7 (ix2 r j)).trans (dense_congr _ _ _ _ _
    (fun k => (congrArg (val_main_v27 (F := Ideal) a0 a1 a2 a3 a4 a5 a6) (show lidx_main_v29 (ix2 r j) k = ix2 r k from (by funext a; match a with | ⟨0, _⟩ => rfl | ⟨1, _⟩ => rfl))).trans (v27_at a0 a1 a2 a3 a4 a5 a6 r k))
    (fun k => (congrArg (val_main_v28 (F := Ideal) a7) (show ridx_main_v29 (ix2 r j) k = ix2 k j from (by funext a; match a with | ⟨0, _⟩ => rfl | ⟨1, _⟩ => rfl))).trans (v28_at a7 k j)))

/-! ## The foreground network, layer by layer -/

/-- The foreground density network's 17 outputs on row `r`. -/
abbrev fgH (a0 : FVec Ideal S1048576x98 .f32) (a8 : FVec Ideal S64x71 .f32) (a9 : FVec Ideal S64x64 .f32) (a10 : FVec Ideal S17x64 .f32) (r : Fin 1048576) : Fin 17 → EReal :=
  Nets.sigmaNet (Nets.mat a8) (Nets.mat a9) (Nets.mat a10) (Nets.ptsOf (Nets.rowOf a0 r))
/-- The foreground colour on row `r`. -/
abbrev fgCol (a0 : FVec Ideal S1048576x98 .f32) (a8 : FVec Ideal S64x71 .f32) (a9 : FVec Ideal S64x64 .f32) (a10 : FVec Ideal S17x64 .f32) (a11 : FVec Ideal S64x42 .f32) (a12 : FVec Ideal S64x64 .f32) (a13 : FVec Ideal S64x64 .f32) (a14 : FVec Ideal S3x64 .f32) (r : Fin 1048576) : Fin 3 → EReal :=
  Nets.colorNet (Nets.mat a11) (Nets.mat a12) (Nets.mat a13) (Nets.mat a14) (Nets.colorIn (Nets.viewsOf (Nets.rowOf a0 r)) (fgH a0 a8 a9 a10 r))

theorem v30_at (a8 : FVec Ideal S64x71 .f32) (k : Fin 71) (j : Fin 64) :
    val_main_v30 (F := Ideal) a8 (ix2 k j) = Nets.mat a8 j k :=
  (val_main_v30_apply (F := Ideal) a8 (ix2 k j)).trans (congrArg a8 (show idx_main_v30 (ix2 k j) = ix2 j k from (by funext a; match a with | ⟨0, _⟩ => rfl | ⟨1, _⟩ => rfl)))

theorem v33_at (a9 : FVec Ideal S64x64 .f32) (k : Fin 64) (j : Fin 64) :
    val_main_v33 (F := Ideal) a9 (ix2 k j) = Nets.mat a9 j k :=
  (val_main_v33_apply (F := Ideal) a9 (ix2 k j)).trans (congrArg a9 (show idx_main_v33 (ix2 k j) = ix2 j k from (by funext a; match a with | ⟨0, _⟩ => rfl | ⟨1, _⟩ => rfl)))

theorem v36_at (a10 : FVec Ideal S17x64 .f32) (k : Fin 64) (j : Fin 17) :
    val_main_v36 (F := Ideal) a10 (ix2 k j) = Nets.mat a10 j k :=
  (val_main_v36_apply (F := Ideal) a10 (ix2 k j)).trans (congrArg a10 (show idx_main_v36 (ix2 k j) = ix2 j k from (by funext a; match a with | ⟨0, _⟩ => rfl | ⟨1, _⟩ => rfl)))

theorem v46_at (a11 : FVec Ideal S64x42 .f32) (k : Fin 42) (j : Fin 64) :
    val_main_v46 (F := Ideal) a11 (ix2 k j) = Nets.mat a11 j k :=
  (val_main_v46_apply (F := Ideal) a11 (ix2 k j)).trans (congrArg a11 (show idx_main_v46 (ix2 k j) = ix2 j k from (by funext a; match a with | ⟨0, _⟩ => rfl | ⟨1, _⟩ => rfl)))

theorem v49_at (a12 : FVec Ideal S64x64 .f32) (k : Fin 64) (j : Fin 64) :
    val_main_v49 (F := Ideal) a12 (ix2 k j) = Nets.mat a12 j k :=
  (val_main_v49_apply (F := Ideal) a12 (ix2 k j)).trans (congrArg a12 (show idx_main_v49 (ix2 k j) = ix2 j k from (by funext a; match a with | ⟨0, _⟩ => rfl | ⟨1, _⟩ => rfl)))

theorem v52_at (a13 : FVec Ideal S64x64 .f32) (k : Fin 64) (j : Fin 64) :
    val_main_v52 (F := Ideal) a13 (ix2 k j) = Nets.mat a13 j k :=
  (val_main_v52_apply (F := Ideal) a13 (ix2 k j)).trans (congrArg a13 (show idx_main_v52 (ix2 k j) = ix2 j k from (by funext a; match a with | ⟨0, _⟩ => rfl | ⟨1, _⟩ => rfl)))

theorem v55_at (a14 : FVec Ideal S3x64 .f32) (k : Fin 64) (j : Fin 3) :
    val_main_v55 (F := Ideal) a14 (ix2 k j) = Nets.mat a14 j k :=
  (val_main_v55_apply (F := Ideal) a14 (ix2 k j)).trans (congrArg a14 (show idx_main_v55 (ix2 k j) = ix2 j k from (by funext a; match a with | ⟨0, _⟩ => rfl | ⟨1, _⟩ => rfl)))

theorem v31_at (a0 : FVec Ideal S1048576x98 .f32) (a8 : FVec Ideal S64x71 .f32) (r : Fin 1048576) (j : Fin 64) :
    val_main_v31 (F := Ideal) a0 a8 (ix2 r j) = (Nets.dense (Nets.mat a8) (Nets.ptsOf (Nets.rowOf a0 r))) j :=
  (val_main_v31_apply a0 a8 (ix2 r j)).trans (dense_congr _ _ _ _ _
    (fun k => (congrArg (val_main_v0 (F := Ideal) a0) (show lidx_main_v31 (ix2 r j) k = ix2 r k from (by funext a; match a with | ⟨0, _⟩ => rfl | ⟨1, _⟩ => rfl))).trans (v0_at a0 r k))
    (fun k => (congrArg (val_main_v30 (F := Ideal) a8) (show ridx_main_v31 (ix2 r j) k = ix2 k j from (by funext a; match a with | ⟨0, _⟩ => rfl | ⟨1, _⟩ => rfl))).trans (v30_at a8 k j)))

theorem v32_at (a0 : FVec Ideal S1048576x98 .f32) (a8 : FVec Ideal S64x71 .f32) (r : Fin 1048576) (j : Fin 64) :
    val_main_v32 (F := Ideal) a0 a8 (ix2 r j) = (Nets.relu (Nets.dense (Nets.mat a8) (Nets.ptsOf (Nets.rowOf a0 r)))) j :=
  (val_main_v32_apply (F := Ideal) a0 a8 (ix2 r j)).trans (relu_at _ _ _ _ (v31_at a0 a8 r j) (z_call7_v0 _))

theorem v34_at (a0 : FVec Ideal S1048576x98 .f32) (a8 : FVec Ideal S64x71 .f32) (a9 : FVec Ideal S64x64 .f32) (r : Fin 1048576) (j : Fin 64) :
    val_main_v34 (F := Ideal) a0 a8 a9 (ix2 r j) = (Nets.dense (Nets.mat a9) (Nets.relu (Nets.dense (Nets.mat a8) (Nets.ptsOf (Nets.rowOf a0 r))))) j :=
  (val_main_v34_apply a0 a8 a9 (ix2 r j)).trans (dense_congr _ _ _ _ _
    (fun k => (congrArg (val_main_v32 (F := Ideal) a0 a8) (show lidx_main_v34 (ix2 r j) k = ix2 r k from (by funext a; match a with | ⟨0, _⟩ => rfl | ⟨1, _⟩ => rfl))).trans (v32_at a0 a8 r k))
    (fun k => (congrArg (val_main_v33 (F := Ideal) a9) (show ridx_main_v34 (ix2 r j) k = ix2 k j from (by funext a; match a with | ⟨0, _⟩ => rfl | ⟨1, _⟩ => rfl))).trans (v33_at a9 k j)))

theorem v35_at (a0 : FVec Ideal S1048576x98 .f32) (a8 : FVec Ideal S64x71 .f32) (a9 : FVec Ideal S64x64 .f32) (r : Fin 1048576) (j : Fin 64) :
    val_main_v35 (F := Ideal) a0 a8 a9 (ix2 r j) = (Nets.relu (Nets.dense (Nets.mat a9) (Nets.relu (Nets.dense (Nets.mat a8) (Nets.ptsOf (Nets.rowOf a0 r)))))) j :=
  (val_main_v35_apply (F := Ideal) a0 a8 a9 (ix2 r j)).trans (relu_at _ _ _ _ (v34_at a0 a8 a9 r j) (z_call8_v0 _))

theorem v37_at (a0 : FVec Ideal S1048576x98 .f32) (a8 : FVec Ideal S64x71 .f32) (a9 : FVec Ideal S64x64 .f32) (a10 : FVec Ideal S17x64 .f32) (r : Fin 1048576) (j : Fin 17) :
    val_main_v37 (F := Ideal) a0 a8 a9 a10 (ix2 r j) = (fgH a0 a8 a9 a10 r) j :=
  (val_main_v37_apply a0 a8 a9 a10 (ix2 r j)).trans (dense_congr _ _ _ _ _
    (fun k => (congrArg (val_main_v35 (F := Ideal) a0 a8 a9) (show lidx_main_v37 (ix2 r j) k = ix2 r k from (by funext a; match a with | ⟨0, _⟩ => rfl | ⟨1, _⟩ => rfl))).trans (v35_at a0 a8 a9 r k))
    (fun k => (congrArg (val_main_v36 (F := Ideal) a10) (show ridx_main_v37 (ix2 r j) k = ix2 k j from (by funext a; match a with | ⟨0, _⟩ => rfl | ⟨1, _⟩ => rfl))).trans (v36_at a10 k j)))

theorem v39_at (a0 : FVec Ideal S1048576x98 .f32) (a8 : FVec Ideal S64x71 .f32) (a9 : FVec Ideal S64x64 .f32) (a10 : FVec Ideal S17x64 .f32) (r : Fin 1048576) :
    val_main_v39 (F := Ideal) a0 a8 a9 a10 (ix1 r) = (fgH a0 a8 a9 a10 r) (0 : Fin 17) :=
  (val_main_v39_apply (F := Ideal) a0 a8 a9 a10 (ix1 r)).trans ((val_main_v38_apply (F := Ideal) a0 a8 a9 a10 _).trans
    ((congrArg (val_main_v37 (F := Ideal) a0 a8 a9 a10) (show idx_main_v38 (idx_main_v39 (ix1 r)) = ix2 r (0 : Fin 17) from
      (by funext a; match a with | ⟨0, _⟩ => exact Fin.ext (Nat.div_one _) | ⟨1, _⟩ => rfl))).trans (v37_at a0 a8 a9 a10 r 0)))

theorem v40_at (a0 : FVec Ideal S1048576x98 .f32) (a8 : FVec Ideal S64x71 .f32) (a9 : FVec Ideal S64x64 .f32) (a10 : FVec Ideal S17x64 .f32) (r : Fin 1048576) :
    val_main_v40 (F := Ideal) a0 a8 a9 a10 (ix1 r) = Nets.softplus ((fgH a0 a8 a9 a10 r) (0 : Fin 17)) := by
  rw [val_main_v40_apply, val_main_call9_v4_apply, val_main_call9_v6_apply, val_main_call9_v11_apply, val_main_call9_v1_apply, val_main_call9_v10_apply, val_main_call9_v9_apply, val_main_call9_v8_apply, val_main_call9_v7_apply, val_main_call9_v3_apply, v39_at]
  exact softplus_stage _ _ _ _ (z_call9_v0 _) (z_call9_v2 _)

theorem v42_at (a0 : FVec Ideal S1048576x98 .f32) (a8 : FVec Ideal S64x71 .f32) (a9 : FVec Ideal S64x64 .f32) (a10 : FVec Ideal S17x64 .f32) (r : Fin 1048576) :
    val_main_v42 (F := Ideal) a0 a8 a9 a10 (ix1 r) = (fgH a0 a8 a9 a10 r) (1 : Fin 17) :=
  (val_main_v42_apply (F := Ideal) a0 a8 a9 a10 (ix1 r)).trans ((val_main_v41_apply (F := Ideal) a0 a8 a9 a10 _).trans
    ((congrArg (val_main_v37 (F := Ideal) a0 a8 a9 a10) (show idx_main_v41 (idx_main_v42 (ix1 r)) = ix2 r (1 : Fin 17) from
      (by funext a; match a with | ⟨0, _⟩ => exact Fin.ext (Nat.div_one _) | ⟨1, _⟩ => rfl))).trans (v37_at a0 a8 a9 a10 r 1)))

theorem v43_at (a0 : FVec Ideal S1048576x98 .f32) (a8 : FVec Ideal S64x71 .f32) (a9 : FVec Ideal S64x64 .f32) (a10 : FVec Ideal S17x64 .f32) (r : Fin 1048576) :
    val_main_v43 (F := Ideal) a0 a8 a9 a10 (ix1 r) = Nets.softplus ((fgH a0 a8 a9 a10 r) (1 : Fin 17)) := by
  rw [val_main_v43_apply, val_main_call10_v4_apply, val_main_call10_v6_apply, val_main_call10_v11_apply, val_main_call10_v1_apply, val_main_call10_v10_apply, val_main_call10_v9_apply, val_main_call10_v8_apply, val_main_call10_v7_apply, val_main_call10_v3_apply, v42_at]
  exact softplus_stage _ _ _ _ (z_call10_v0 _) (z_call10_v2 _)

theorem v44_at (a0 : FVec Ideal S1048576x98 .f32) (a8 : FVec Ideal S64x71 .f32) (a9 : FVec Ideal S64x64 .f32) (a10 : FVec Ideal S17x64 .f32) (r : Fin 1048576) (g : Fin 15) :
    val_main_v44 (F := Ideal) a0 a8 a9 a10 (ix2 r g) = (fgH a0 a8 a9 a10 r) ⟨2 + g.val, by omega⟩ :=
  (val_main_v44_apply (F := Ideal) a0 a8 a9 a10 (ix2 r g)).trans ((congrArg (val_main_v37 (F := Ideal) a0 a8 a9 a10) (show idx_main_v44 (ix2 r g) = ix2 r (⟨2 + g.val, by omega⟩ : Fin 17) from (by funext a; match a with | ⟨0, _⟩ => rfl | ⟨1, _⟩ => rfl))).trans (v37_at a0 a8 a9 a10 r _))

theorem v45_at (a0 : FVec Ideal S1048576x98 .f32) (a8 : FVec Ideal S64x71 .f32) (a9 : FVec Ideal S64x64 .f32) (a10 : FVec Ideal S17x64 .f32) (r : Fin 1048576) (i : Fin 42) :
    val_main_v45 (F := Ideal) a0 a8 a9 a10 (ix2 r i) = (Nets.colorIn (Nets.viewsOf (Nets.rowOf a0 r)) (fgH a0 a8 a9 a10 r)) i := by
  unfold Nets.colorIn
  by_cases hi : i.val < 27
  · rw [dif_pos hi]
    unfold val_main_v45
    exact Eq.trans (concatenate_pair_apply_left (t := S1048576x42) (s₁ := S1048576x27) (s₂ := S1048576x15) 1 _ _ _ (ix2 r i) rfl (ix2 r (⟨i.val, hi⟩ : Fin 27))
      (fun b => by match b with | ⟨0, _⟩ => rfl | ⟨1, _⟩ => rfl)) (v1_at a0 r ⟨i.val, hi⟩)
  · rw [dif_neg hi]
    unfold val_main_v45
    have h2 : i.val - 27 < 15 := by have := i.isLt; omega
    exact Eq.trans (concatenate_pair_apply_right (t := S1048576x42) (s₁ := S1048576x27) (s₂ := S1048576x15) 1 _ _ _ (ix2 r i) rfl rfl (ix2 r (⟨i.val - 27, h2⟩ : Fin 15))
      (fun b hb => by match b, hb with | ⟨0, _⟩, _ => rfl | ⟨1, _⟩, hb => exact absurd rfl hb)
      (by show (i.val - 27) + 27 = i.val; omega)) (v44_at a0 a8 a9 a10 r ⟨i.val - 27, h2⟩)

theorem v47_at (a0 : FVec Ideal S1048576x98 .f32) (a8 : FVec Ideal S64x71 .f32) (a9 : FVec Ideal S64x64 .f32) (a10 : FVec Ideal S17x64 .f32) (a11 : FVec Ideal S64x42 .f32) (r : Fin 1048576) (j : Fin 64) :
    val_main_v47 (F := Ideal) a0 a8 a9 a10 a11 (ix2 r j) = (Nets.dense (Nets.mat a11) (Nets.colorIn (Nets.viewsOf (Nets.rowOf a0 r)) (fgH a0 a8 a9 a10 r))) j :=
  (val_main_v47_apply a0 a8 a9 a10 a11 (ix2 r j)).trans (dense_congr _ _ _ _ _
    (fun k => (congrArg (val_main_v45 (F := Ideal) a0 a8 a9 a10) (show lidx_main_v47 (ix2 r j) k = ix2 r k from (by funext a; match a with | ⟨0, _⟩ => rfl | ⟨1, _⟩ => rfl))).trans (v45_at a0 a8 a9 a10 r k))
    (fun k => (congrArg (val_main_v46 (F := Ideal) a11) (show ridx_main_v47 (ix2 r j) k = ix2 k j from (by funext a; match a with | ⟨0, _⟩ => rfl | ⟨1, _⟩ => rfl))).trans (v46_at a11 k j)))

theorem v48_at (a0 : FVec Ideal S1048576x98 .f32) (a8 : FVec Ideal S64x71 .f32) (a9 : FVec Ideal S64x64 .f32) (a10 : FVec Ideal S17x64 .f32) (a11 : FVec Ideal S64x42 .f32) (r : Fin 1048576) (j : Fin 64) :
    val_main_v48 (F := Ideal) a0 a8 a9 a10 a11 (ix2 r j) = (Nets.relu (Nets.dense (Nets.mat a11) (Nets.colorIn (Nets.viewsOf (Nets.rowOf a0 r)) (fgH a0 a8 a9 a10 r)))) j :=
  (val_main_v48_apply (F := Ideal) a0 a8 a9 a10 a11 (ix2 r j)).trans (relu_at _ _ _ _ (v47_at a0 a8 a9 a10 a11 r j) (z_call11_v0 _))

theorem v50_at (a0 : FVec Ideal S1048576x98 .f32) (a8 : FVec Ideal S64x71 .f32) (a9 : FVec Ideal S64x64 .f32) (a10 : FVec Ideal S17x64 .f32) (a11 : FVec Ideal S64x42 .f32) (a12 : FVec Ideal S64x64 .f32) (r : Fin 1048576) (j : Fin 64) :
    val_main_v50 (F := Ideal) a0 a8 a9 a10 a11 a12 (ix2 r j) = (Nets.dense (Nets.mat a12) (Nets.relu (Nets.dense (Nets.mat a11) (Nets.colorIn (Nets.viewsOf (Nets.rowOf a0 r)) (fgH a0 a8 a9 a10 r))))) j :=
  (val_main_v50_apply a0 a8 a9 a10 a11 a12 (ix2 r j)).trans (dense_congr _ _ _ _ _
    (fun k => (congrArg (val_main_v48 (F := Ideal) a0 a8 a9 a10 a11) (show lidx_main_v50 (ix2 r j) k = ix2 r k from (by funext a; match a with | ⟨0, _⟩ => rfl | ⟨1, _⟩ => rfl))).trans (v48_at a0 a8 a9 a10 a11 r k))
    (fun k => (congrArg (val_main_v49 (F := Ideal) a12) (show ridx_main_v50 (ix2 r j) k = ix2 k j from (by funext a; match a with | ⟨0, _⟩ => rfl | ⟨1, _⟩ => rfl))).trans (v49_at a12 k j)))

theorem v51_at (a0 : FVec Ideal S1048576x98 .f32) (a8 : FVec Ideal S64x71 .f32) (a9 : FVec Ideal S64x64 .f32) (a10 : FVec Ideal S17x64 .f32) (a11 : FVec Ideal S64x42 .f32) (a12 : FVec Ideal S64x64 .f32) (r : Fin 1048576) (j : Fin 64) :
    val_main_v51 (F := Ideal) a0 a8 a9 a10 a11 a12 (ix2 r j) = (Nets.relu (Nets.dense (Nets.mat a12) (Nets.relu (Nets.dense (Nets.mat a11) (Nets.colorIn (Nets.viewsOf (Nets.rowOf a0 r)) (fgH a0 a8 a9 a10 r)))))) j :=
  (val_main_v51_apply (F := Ideal) a0 a8 a9 a10 a11 a12 (ix2 r j)).trans (relu_at _ _ _ _ (v50_at a0 a8 a9 a10 a11 a12 r j) (z_call12_v0 _))

theorem v53_at (a0 : FVec Ideal S1048576x98 .f32) (a8 : FVec Ideal S64x71 .f32) (a9 : FVec Ideal S64x64 .f32) (a10 : FVec Ideal S17x64 .f32) (a11 : FVec Ideal S64x42 .f32) (a12 : FVec Ideal S64x64 .f32) (a13 : FVec Ideal S64x64 .f32) (r : Fin 1048576) (j : Fin 64) :
    val_main_v53 (F := Ideal) a0 a8 a9 a10 a11 a12 a13 (ix2 r j) = (Nets.dense (Nets.mat a13) (Nets.relu (Nets.dense (Nets.mat a12) (Nets.relu (Nets.dense (Nets.mat a11) (Nets.colorIn (Nets.viewsOf (Nets.rowOf a0 r)) (fgH a0 a8 a9 a10 r))))))) j :=
  (val_main_v53_apply a0 a8 a9 a10 a11 a12 a13 (ix2 r j)).trans (dense_congr _ _ _ _ _
    (fun k => (congrArg (val_main_v51 (F := Ideal) a0 a8 a9 a10 a11 a12) (show lidx_main_v53 (ix2 r j) k = ix2 r k from (by funext a; match a with | ⟨0, _⟩ => rfl | ⟨1, _⟩ => rfl))).trans (v51_at a0 a8 a9 a10 a11 a12 r k))
    (fun k => (congrArg (val_main_v52 (F := Ideal) a13) (show ridx_main_v53 (ix2 r j) k = ix2 k j from (by funext a; match a with | ⟨0, _⟩ => rfl | ⟨1, _⟩ => rfl))).trans (v52_at a13 k j)))

theorem v54_at (a0 : FVec Ideal S1048576x98 .f32) (a8 : FVec Ideal S64x71 .f32) (a9 : FVec Ideal S64x64 .f32) (a10 : FVec Ideal S17x64 .f32) (a11 : FVec Ideal S64x42 .f32) (a12 : FVec Ideal S64x64 .f32) (a13 : FVec Ideal S64x64 .f32) (r : Fin 1048576) (j : Fin 64) :
    val_main_v54 (F := Ideal) a0 a8 a9 a10 a11 a12 a13 (ix2 r j) = (Nets.relu (Nets.dense (Nets.mat a13) (Nets.relu (Nets.dense (Nets.mat a12) (Nets.relu (Nets.dense (Nets.mat a11) (Nets.colorIn (Nets.viewsOf (Nets.rowOf a0 r)) (fgH a0 a8 a9 a10 r)))))))) j :=
  (val_main_v54_apply (F := Ideal) a0 a8 a9 a10 a11 a12 a13 (ix2 r j)).trans (relu_at _ _ _ _ (v53_at a0 a8 a9 a10 a11 a12 a13 r j) (z_call13_v0 _))

theorem v56_at (a0 : FVec Ideal S1048576x98 .f32) (a8 : FVec Ideal S64x71 .f32) (a9 : FVec Ideal S64x64 .f32) (a10 : FVec Ideal S17x64 .f32) (a11 : FVec Ideal S64x42 .f32) (a12 : FVec Ideal S64x64 .f32) (a13 : FVec Ideal S64x64 .f32) (a14 : FVec Ideal S3x64 .f32) (r : Fin 1048576) (j : Fin 3) :
    val_main_v56 (F := Ideal) a0 a8 a9 a10 a11 a12 a13 a14 (ix2 r j) = (fgCol a0 a8 a9 a10 a11 a12 a13 a14 r) j :=
  (val_main_v56_apply a0 a8 a9 a10 a11 a12 a13 a14 (ix2 r j)).trans (dense_congr _ _ _ _ _
    (fun k => (congrArg (val_main_v54 (F := Ideal) a0 a8 a9 a10 a11 a12 a13) (show lidx_main_v56 (ix2 r j) k = ix2 r k from (by funext a; match a with | ⟨0, _⟩ => rfl | ⟨1, _⟩ => rfl))).trans (v54_at a0 a8 a9 a10 a11 a12 a13 r k))
    (fun k => (congrArg (val_main_v55 (F := Ideal) a14) (show ridx_main_v56 (ix2 r j) k = ix2 k j from (by funext a; match a with | ⟨0, _⟩ => rfl | ⟨1, _⟩ => rfl))).trans (v55_at a14 k j)))

/-! ## The blend -/

theorem v57_at (a0 : FVec Ideal S1048576x98 .f32) (a1 : FVec Ideal S64x63 .f32) (a2 : FVec Ideal S64x64 .f32) (a3 : FVec Ideal S17x64 .f32) (a8 : FVec Ideal S64x71 .f32) (a9 : FVec Ideal S64x64 .f32) (a10 : FVec Ideal S17x64 .f32) (r : Fin 1048576) :
    val_main_v57 (F := Ideal) a0 a1 a2 a3 a8 a9 a10 (ix1 r) = (Nets.softplus (bgH a0 a1 a2 a3 r (0 : Fin 17))) + (Nets.softplus (fgH a0 a8 a9 a10 r (0 : Fin 17))) :=
  (val_main_v57_apply (F := Ideal) a0 a1 a2 a3 a8 a9 a10 (ix1 r)).trans (add_at _ _ _ _ (v13_at a0 a1 a2 a3 r) (v40_at a0 a8 a9 a10 r))

theorem v59_at (a0 : FVec Ideal S1048576x98 .f32) (a1 : FVec Ideal S64x63 .f32) (a2 : FVec Ideal S64x64 .f32) (a3 : FVec Ideal S17x64 .f32) (a8 : FVec Ideal S64x71 .f32) (a9 : FVec Ideal S64x64 .f32) (a10 : FVec Ideal S17x64 .f32) (r : Fin 1048576) :
    val_main_v59 (F := Ideal) a0 a1 a2 a3 a8 a9 a10 (ix1 r) = ((Nets.softplus (bgH a0 a1 a2 a3 r (0 : Fin 17))) + (Nets.softplus (fgH a0 a8 a9 a10 r (0 : Fin 17))) + Nets.eps) :=
  (val_main_v59_apply (F := Ideal) a0 a1 a2 a3 a8 a9 a10 (ix1 r)).trans (add_at _ _ _ _ (v57_at a0 a1 a2 a3 a8 a9 a10 r) (eps_at _))

theorem v60_at (a0 : FVec Ideal S1048576x98 .f32) (a1 : FVec Ideal S64x63 .f32) (a2 : FVec Ideal S64x64 .f32) (a3 : FVec Ideal S17x64 .f32) (a8 : FVec Ideal S64x71 .f32) (a9 : FVec Ideal S64x64 .f32) (a10 : FVec Ideal S17x64 .f32) (r : Fin 1048576) :
    val_main_v60 (F := Ideal) a0 a1 a2 a3 a8 a9 a10 (ix1 r) = Ideal.div (Nets.softplus (bgH a0 a1 a2 a3 r (0 : Fin 17))) ((Nets.softplus (bgH a0 a1 a2 a3 r (0 : Fin 17))) + (Nets.softplus (fgH a0 a8 a9 a10 r (0 : Fin 17))) + Nets.eps) :=
  (val_main_v60_apply (F := Ideal) a0 a1 a2 a3 a8 a9 a10 (ix1 r)).trans (div_at _ _ _ _ (v13_at a0 a1 a2 a3 r) (v59_at a0 a1 a2 a3 a8 a9 a10 r))

theorem v62_at (a0 : FVec Ideal S1048576x98 .f32) (a1 : FVec Ideal S64x63 .f32) (a2 : FVec Ideal S64x64 .f32) (a3 : FVec Ideal S17x64 .f32) (a8 : FVec Ideal S64x71 .f32) (a9 : FVec Ideal S64x64 .f32) (a10 : FVec Ideal S17x64 .f32) (r : Fin 1048576) (p : Fin 3) :
    val_main_v62 (F := Ideal) a0 a1 a2 a3 a8 a9 a10 (ix2 r p) = Ideal.div (Nets.softplus (bgH a0 a1 a2 a3 r (0 : Fin 17))) ((Nets.softplus (bgH a0 a1 a2 a3 r (0 : Fin 17))) + (Nets.softplus (fgH a0 a8 a9 a10 r (0 : Fin 17))) + Nets.eps) :=
  (val_main_v62_apply (F := Ideal) a0 a1 a2 a3 a8 a9 a10 (ix2 r p)).trans ((val_main_v61_apply (F := Ideal) a0 a1 a2 a3 a8 a9 a10 _).trans
    ((congrArg (val_main_v60 (F := Ideal) a0 a1 a2 a3 a8 a9 a10) (show idx_main_v61 (idx_main_v62 (ix2 r p)) = ix1 r from (by funext a; match a with | ⟨0, _⟩ => rfl))).trans (v60_at a0 a1 a2 a3 a8 a9 a10 r)))

theorem v63_at (a0 : FVec Ideal S1048576x98 .f32) (a1 : FVec Ideal S64x63 .f32) (a2 : FVec Ideal S64x64 .f32) (a3 : FVec Ideal S17x64 .f32) (a4 : FVec Ideal S64x42 .f32) (a5 : FVec Ideal S64x64 .f32) (a6 : FVec Ideal S64x64 .f32) (a7 : FVec Ideal S3x64 .f32) (a8 : FVec Ideal S64x71 .f32) (a9 : FVec Ideal S64x64 .f32) (a10 : FVec Ideal S17x64 .f32) (r : Fin 1048576) (p : Fin 3) :
    val_main_v63 (F := Ideal) a0 a1 a2 a3 a4 a5 a6 a7 a8 a9 a10 (ix2 r p) = Ideal.div (Nets.softplus (bgH a0 a1 a2 a3 r (0 : Fin 17))) ((Nets.softplus (bgH a0 a1 a2 a3 r (0 : Fin 17))) + (Nets.softplus (fgH a0 a8 a9 a10 r (0 : Fin 17))) + Nets.eps) * (bgCol a0 a1 a2 a3 a4 a5 a6 a7 r) p :=
  (val_main_v63_apply (F := Ideal) a0 a1 a2 a3 a4 a5 a6 a7 a8 a9 a10 (ix2 r p)).trans (mul_at _ _ _ _ (v62_at a0 a1 a2 a3 a8 a9 a10 r p) (v29_at a0 a1 a2 a3 a4 a5 a6 a7 r p))

theorem v64_at (a0 : FVec Ideal S1048576x98 .f32) (a1 : FVec Ideal S64x63 .f32) (a2 : FVec Ideal S64x64 .f32) (a3 : FVec Ideal S17x64 .f32) (a8 : FVec Ideal S64x71 .f32) (a9 : FVec Ideal S64x64 .f32) (a10 : FVec Ideal S17x64 .f32) (r : Fin 1048576) :
    val_main_v64 (F := Ideal) a0 a1 a2 a3 a8 a9 a10 (ix1 r) = Ideal.div (Nets.softplus (fgH a0 a8 a9 a10 r (0 : Fin 17))) ((Nets.softplus (bgH a0 a1 a2 a3 r (0 : Fin 17))) + (Nets.softplus (fgH a0 a8 a9 a10 r (0 : Fin 17))) + Nets.eps) :=
  (val_main_v64_apply (F := Ideal) a0 a1 a2 a3 a8 a9 a10 (ix1 r)).trans (div_at _ _ _ _ (v40_at a0 a8 a9 a10 r) (v59_at a0 a1 a2 a3 a8 a9 a10 r))

theorem v66_at (a0 : FVec Ideal S1048576x98 .f32) (a1 : FVec Ideal S64x63 .f32) (a2 : FVec Ideal S64x64 .f32) (a3 : FVec Ideal S17x64 .f32) (a8 : FVec Ideal S64x71 .f32) (a9 : FVec Ideal S64x64 .f32) (a10 : FVec Ideal S17x64 .f32) (r : Fin 1048576) (p : Fin 3) :
    val_main_v66 (F := Ideal) a0 a1 a2 a3 a8 a9 a10 (ix2 r p) = Ideal.div (Nets.softplus (fgH a0 a8 a9 a10 r (0 : Fin 17))) ((Nets.softplus (bgH a0 a1 a2 a3 r (0 : Fin 17))) + (Nets.softplus (fgH a0 a8 a9 a10 r (0 : Fin 17))) + Nets.eps) :=
  (val_main_v66_apply (F := Ideal) a0 a1 a2 a3 a8 a9 a10 (ix2 r p)).trans ((val_main_v65_apply (F := Ideal) a0 a1 a2 a3 a8 a9 a10 _).trans
    ((congrArg (val_main_v64 (F := Ideal) a0 a1 a2 a3 a8 a9 a10) (show idx_main_v65 (idx_main_v66 (ix2 r p)) = ix1 r from (by funext a; match a with | ⟨0, _⟩ => rfl))).trans (v64_at a0 a1 a2 a3 a8 a9 a10 r)))

theorem v67_at (a0 : FVec Ideal S1048576x98 .f32) (a1 : FVec Ideal S64x63 .f32) (a2 : FVec Ideal S64x64 .f32) (a3 : FVec Ideal S17x64 .f32) (a8 : FVec Ideal S64x71 .f32) (a9 : FVec Ideal S64x64 .f32) (a10 : FVec Ideal S17x64 .f32) (a11 : FVec Ideal S64x42 .f32) (a12 : FVec Ideal S64x64 .f32) (a13 : FVec Ideal S64x64 .f32) (a14 : FVec Ideal S3x64 .f32) (r : Fin 1048576) (p : Fin 3) :
    val_main_v67 (F := Ideal) a0 a1 a2 a3 a8 a9 a10 a11 a12 a13 a14 (ix2 r p) = Ideal.div (Nets.softplus (fgH a0 a8 a9 a10 r (0 : Fin 17))) ((Nets.softplus (bgH a0 a1 a2 a3 r (0 : Fin 17))) + (Nets.softplus (fgH a0 a8 a9 a10 r (0 : Fin 17))) + Nets.eps) * (fgCol a0 a8 a9 a10 a11 a12 a13 a14 r) p :=
  (val_main_v67_apply (F := Ideal) a0 a1 a2 a3 a8 a9 a10 a11 a12 a13 a14 (ix2 r p)).trans (mul_at _ _ _ _ (v66_at a0 a1 a2 a3 a8 a9 a10 r p) (v56_at a0 a8 a9 a10 a11 a12 a13 a14 r p))

theorem v68_at (a0 : FVec Ideal S1048576x98 .f32) (a1 : FVec Ideal S64x63 .f32) (a2 : FVec Ideal S64x64 .f32) (a3 : FVec Ideal S17x64 .f32) (a4 : FVec Ideal S64x42 .f32) (a5 : FVec Ideal S64x64 .f32) (a6 : FVec Ideal S64x64 .f32) (a7 : FVec Ideal S3x64 .f32) (a8 : FVec Ideal S64x71 .f32) (a9 : FVec Ideal S64x64 .f32) (a10 : FVec Ideal S17x64 .f32) (a11 : FVec Ideal S64x42 .f32) (a12 : FVec Ideal S64x64 .f32) (a13 : FVec Ideal S64x64 .f32) (a14 : FVec Ideal S3x64 .f32) (r : Fin 1048576) (p : Fin 3) :
    val_main_v68 (F := Ideal) a0 a1 a2 a3 a4 a5 a6 a7 a8 a9 a10 a11 a12 a13 a14 (ix2 r p) = Ideal.div (Nets.softplus (bgH a0 a1 a2 a3 r (0 : Fin 17))) ((Nets.softplus (bgH a0 a1 a2 a3 r (0 : Fin 17))) + (Nets.softplus (fgH a0 a8 a9 a10 r (0 : Fin 17))) + Nets.eps) * (bgCol a0 a1 a2 a3 a4 a5 a6 a7 r) p + Ideal.div (Nets.softplus (fgH a0 a8 a9 a10 r (0 : Fin 17))) ((Nets.softplus (bgH a0 a1 a2 a3 r (0 : Fin 17))) + (Nets.softplus (fgH a0 a8 a9 a10 r (0 : Fin 17))) + Nets.eps) * (fgCol a0 a8 a9 a10 a11 a12 a13 a14 r) p :=
  (val_main_v68_apply (F := Ideal) a0 a1 a2 a3 a4 a5 a6 a7 a8 a9 a10 a11 a12 a13 a14 (ix2 r p)).trans (add_at _ _ _ _ (v63_at a0 a1 a2 a3 a4 a5 a6 a7 a8 a9 a10 r p) (v67_at a0 a1 a2 a3 a8 a9 a10 a11 a12 a13 a14 r p))

theorem v69_at (a0 : FVec Ideal S1048576x98 .f32) (a1 : FVec Ideal S64x63 .f32) (a2 : FVec Ideal S64x64 .f32) (a3 : FVec Ideal S17x64 .f32) (a8 : FVec Ideal S64x71 .f32) (a9 : FVec Ideal S64x64 .f32) (a10 : FVec Ideal S17x64 .f32) (r : Fin 1048576) (z : Fin 1) :
    val_main_v69 (F := Ideal) a0 a1 a2 a3 a8 a9 a10 (ix2 r z) = ((Nets.softplus (bgH a0 a1 a2 a3 r (0 : Fin 17))) + (Nets.softplus (fgH a0 a8 a9 a10 r (0 : Fin 17))) + Nets.eps) :=
  (val_main_v69_apply (F := Ideal) a0 a1 a2 a3 a8 a9 a10 (ix2 r z)).trans ((congrArg (val_main_v59 (F := Ideal) a0 a1 a2 a3 a8 a9 a10) (show idx_main_v69 (ix2 r z) = ix1 r from (by funext a; match a with | ⟨0, _⟩ => rfl))).trans (v59_at a0 a1 a2 a3 a8 a9 a10 r))

theorem v70_at (a0 : FVec Ideal S1048576x98 .f32) (a8 : FVec Ideal S64x71 .f32) (a9 : FVec Ideal S64x64 .f32) (a10 : FVec Ideal S17x64 .f32) (r : Fin 1048576) (z : Fin 1) :
    val_main_v70 (F := Ideal) a0 a8 a9 a10 (ix2 r z) = (Nets.softplus (fgH a0 a8 a9 a10 r (1 : Fin 17))) :=
  (val_main_v70_apply (F := Ideal) a0 a8 a9 a10 (ix2 r z)).trans ((congrArg (val_main_v43 (F := Ideal) a0 a8 a9 a10) (show idx_main_v70 (ix2 r z) = ix1 r from (by funext a; match a with | ⟨0, _⟩ => rfl))).trans (v43_at a0 a8 a9 a10 r))

theorem v71_at (a0 : FVec Ideal S1048576x98 .f32) (a8 : FVec Ideal S64x71 .f32) (a9 : FVec Ideal S64x64 .f32) (a10 : FVec Ideal S17x64 .f32) (r : Fin 1048576) (z : Fin 1) :
    val_main_v71 (F := Ideal) a0 a8 a9 a10 (ix2 r z) = (Nets.softplus (fgH a0 a8 a9 a10 r (0 : Fin 17))) :=
  (val_main_v71_apply (F := Ideal) a0 a8 a9 a10 (ix2 r z)).trans ((congrArg (val_main_v40 (F := Ideal) a0 a8 a9 a10) (show idx_main_v71 (ix2 r z) = ix1 r from (by funext a; match a with | ⟨0, _⟩ => rfl))).trans (v40_at a0 a8 a9 a10 r))

/-- The result at row `r`, column `q`: the four joined pieces are the four cases of `Cert.Nets.blend`. -/
theorem v72_at (a0 : FVec Ideal S1048576x98 .f32) (a1 : FVec Ideal S64x63 .f32) (a2 : FVec Ideal S64x64 .f32) (a3 : FVec Ideal S17x64 .f32) (a4 : FVec Ideal S64x42 .f32) (a5 : FVec Ideal S64x64 .f32) (a6 : FVec Ideal S64x64 .f32) (a7 : FVec Ideal S3x64 .f32) (a8 : FVec Ideal S64x71 .f32) (a9 : FVec Ideal S64x64 .f32) (a10 : FVec Ideal S17x64 .f32) (a11 : FVec Ideal S64x42 .f32) (a12 : FVec Ideal S64x64 .f32) (a13 : FVec Ideal S64x64 .f32) (a14 : FVec Ideal S3x64 .f32) (r : Fin 1048576) (q : Fin 6) :
    val_main_v72 (F := Ideal) a0 a1 a2 a3 a4 a5 a6 a7 a8 a9 a10 a11 a12 a13 a14 (ix2 r q) = Nets.blend (Nets.softplus (bgH a0 a1 a2 a3 r (0 : Fin 17))) (Nets.softplus (fgH a0 a8 a9 a10 r (0 : Fin 17))) (Nets.softplus (fgH a0 a8 a9 a10 r (1 : Fin 17))) (bgCol a0 a1 a2 a3 a4 a5 a6 a7 r) (fgCol a0 a8 a9 a10 a11 a12 a13 a14 r) q := by
  unfold Nets.blend
  by_cases h3 : q.val < 3
  · rw [dif_pos h3]
    unfold val_main_v72
    exact Eq.trans (concatenate_apply_piece (t := S1048576x6) 1 _ _ (ix2 r q) 0 (by show (0 : ℕ) < 4; decide) S1048576x3 _ rfl rfl 0 rfl (ix2 r (⟨q.val, h3⟩ : Fin 3))
      (fun b hb => by match b, hb with | ⟨0, _⟩, _ => rfl | ⟨1, _⟩, hb => exact absurd rfl hb)
      (by show 0 + q.val = q.val; omega)) (v68_at a0 a1 a2 a3 a4 a5 a6 a7 a8 a9 a10 a11 a12 a13 a14 r ⟨q.val, h3⟩)
  · rw [dif_neg h3]
    by_cases h4 : q.val = 3
    · rw [if_pos h4]
      unfold val_main_v72
      exact Eq.trans (concatenate_apply_piece (t := S1048576x6) 1 _ _ (ix2 r q) 1 (by show (1 : ℕ) < 4; decide) S1048576x1 _ rfl rfl 3 rfl (ix2 r (0 : Fin 1))
        (fun b hb => by match b, hb with | ⟨0, _⟩, _ => rfl | ⟨1, _⟩, hb => exact absurd rfl hb)
        (by show 3 + 0 = q.val; omega)) (v69_at a0 a1 a2 a3 a8 a9 a10 r 0)
    · rw [if_neg h4]
      by_cases h5 : q.val = 4
      · rw [if_pos h5]
        unfold val_main_v72
        exact Eq.trans (concatenate_apply_piece (t := S1048576x6) 1 _ _ (ix2 r q) 2 (by show (2 : ℕ) < 4; decide) S1048576x1 _ rfl rfl 4 rfl (ix2 r (0 : Fin 1))
          (fun b hb => by match b, hb with | ⟨0, _⟩, _ => rfl | ⟨1, _⟩, hb => exact absurd rfl hb)
          (by show 4 + 0 = q.val; omega)) (v70_at a0 a8 a9 a10 r 0)
      · rw [if_neg h5]
        have h6 : q.val = 5 := by have := q.isLt; omega
        unfold val_main_v72
        exact Eq.trans (concatenate_apply_piece (t := S1048576x6) 1 _ _ (ix2 r q) 3 (by show (3 : ℕ) < 4; decide) S1048576x1 _ rfl rfl 5 rfl (ix2 r (0 : Fin 1))
          (fun b hb => by match b, hb with | ⟨0, _⟩, _ => rfl | ⟨1, _⟩, hb => exact absurd rfl hb)
          (by show 5 + 0 = q.val; omega)) (v71_at a0 a8 a9 a10 r 0)

/-! ## The whole array, the run and the frame -/

/-- THE REFERENCE IS `G`: the last stage of the reference, as a function of the fifteen argument arrays, is
    `Cert.Nets.G` of them. -/
theorem ref_is_G (a0 : FVec Ideal S1048576x98 .f32) (a1 : FVec Ideal S64x63 .f32) (a2 : FVec Ideal S64x64 .f32) (a3 : FVec Ideal S17x64 .f32) (a4 : FVec Ideal S64x42 .f32) (a5 : FVec Ideal S64x64 .f32) (a6 : FVec Ideal S64x64 .f32) (a7 : FVec Ideal S3x64 .f32) (a8 : FVec Ideal S64x71 .f32) (a9 : FVec Ideal S64x64 .f32) (a10 : FVec Ideal S17x64 .f32) (a11 : FVec Ideal S64x42 .f32) (a12 : FVec Ideal S64x64 .f32) (a13 : FVec Ideal S64x64 .f32) (a14 : FVec Ideal S3x64 .f32) :
    val_main_v72 (F := Ideal) a0 a1 a2 a3 a4 a5 a6 a7 a8 a9 a10 a11 a12 a13 a14 = Nets.G a0 a1 a2 a3 a4 a5 a6 a7 a8 a9 a10 a11 a12 a13 a14 := by
  funext i
  obtain ⟨r, q, rfl⟩ : ∃ (r : Fin 1048576) (q : Fin 6), i = ix2 r q := ⟨i 0, i 1, eq_ix2 i⟩
  exact v72_at a0 a1 a2 a3 a4 a5 a6 a7 a8 a9 a10 a11 a12 a13 a14 r q

/-- Every weakly fair execution of the reference terminates, without a fault, with its result array equal to
    `Cert.Nets.G` of the argument arrays it started from, and the argument arrays unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v72) = Nets.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run (defs (F := Ideal)) _ _).mono
    (fun _ h c => ⟨(h c).1.trans ((Read.val_main_v72_eq (F := Ideal) m c).trans (ref_is_G _ _ _ _ _ _ _ _ _ _ _ _ _ _ _)), (h c).2⟩)
    (Cert.ReferenceIdeal.Value.run (F := Ideal) m ρ)

/-- The reference's frame: it terminates without a fault and its argument arrays end unchanged. -/
theorem ref_frame (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run (defs (F := Ideal)) _ _).mono (fun _ h c => (h c).2) (Cert.ReferenceIdeal.Value.run (F := Ideal) m ρ)

end Cert.ReferenceIdeal.RefValue

end
-- ==== Proof.lean ====
/-
  The certificate: a kernel that evaluates two small networks as ONE network of twice the width, against the reference
  that evaluates them separately.

  Each row of the input holds 71 point features and 27 view features. A background network (on the first 63 point
  features) and a foreground network (on all 71) each produce a density logit, an uncertainty logit and 15 geometry
  features; a colour network per side maps the view features and the geometry features to a colour; the result is
  the density-weighted blend of the two colours, the total density, the foreground uncertainty and the foreground
  density (`Cert.Nets.refRow`, `Cert.Nets.G`).

  The kernel program first builds, with host operations, seven weight matrices — the two first density layers
  stacked (the background rows zero on the last eight inputs), block-diagonal matrices for the inner and last layers,
  and a first colour layer whose halves read their own geometry features — and then streams the rows through one
  region in blocks of 4096, computing the wide network on each row. On the extended reals the two computations agree
  index by index with no assumption on the data: every term the wide sums add is a product with an exact zero, and
  `a * 0 = 0` for every extended real. The softplus is spelled the same way on both sides up to `0 - a` against `-a`,
  and its guard `d ≠ d` is false on both sides.

  The frames: each program terminates without a fault and leaves its argument arrays as they were. The kernel
  program's frame is proved once for any float instance (the host operations write no argument; the region's body
  loads its eight input blocks and stores one output block) and read at the word-level and at the exact instance.
  No operation was rewritten between the word-level program and its exact reading, so that conjunct is `True`.
-/
import proofs.«168278_j48120813584957_2_alg».proof.Defs
import proofs.«168278_j48120813584957_2_alg».proof.Proof.Gen.Kernel
import proofs.«168278_j48120813584957_2_alg».proof.Proof.Gen.KernelIdeal
import proofs.«168278_j48120813584957_2_alg».proof.Proof.Gen.ReferenceIdeal
import proofs.«168278_j48120813584957_2_alg».proof.Proof.Gen.Pre_finite_inputs
import proofs.«168278_j48120813584957_2_alg».proof.Proof.FrameBits
import proofs.«168278_j48120813584957_2_alg».proof.Proof.KernelRun
import proofs.«168278_j48120813584957_2_alg».proof.Proof.RefIsG
import Idealize.ShloMosaic.Adequacy
import Idealize.ShloMosaic.Init

noncomputable section

namespace Cert.Proof

open Idealize.ShloMosaic Idealize.ShloMosaic.TcCoe Idealize.SL.Sem

/-- The word-level kernel program runs to the end and keeps its arguments. -/
theorem frame_k : Cert.frame_Kernel :=
  fun m ρ _ => Cert.Kernel.Hand.frame m ρ

/-- So does its exact reading. -/
theorem frame_ki : Cert.frame_KernelIdeal :=
  fun m ρ _ => Cert.KernelIdeal.Hand.frame m ρ

/-- So does the reference. -/
theorem frame_ri : Cert.frame_ReferenceIdeal :=
  fun m ρ _ => Cert.ReferenceIdeal.RefValue.ref_frame m ρ

/-- Both programs end with the result array at `Cert.Nets.G` of arguments that agree. -/
theorem algebraic : Cert.algebraic_KernelIdeal_ReferenceIdeal := by
  intro m ρ m' ρ' _ hagree
  refine ⟨fun c => Cert.Nets.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)),
    Cert.KernelIdeal.HandValue.run m ρ, ?_⟩
  refine (θ_run Cert.ReferenceIdeal.defs _ _).mono (fun _ h c => ⟨(h c).1.trans ?_, (h c).2⟩)
    (Cert.ReferenceIdeal.RefValue.ref_run m' ρ')
  obtain ⟨a0, a1, a2, a3, a4, a5, a6, a7, a8, a9, a10, a11, a12, a13, a14⟩ := hagree c
  rw [a0, a1, a2, a3, a4, a5, a6, a7, a8, a9, a10, a11, a12, a13, a14]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
